-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : FVec F S4x128 .f32) (main_arg6 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S4x128x128 .f32) (main_arg3 : FVec F S4x128 .f32) (main_arg4 : FVec F S4x128x128 .f32) (main_arg5 : FVec F S4x128 .f32) (main_arg6 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S4000x1 : Shape := ⟨2, ![4000, 1]⟩
abbrev S4000 : Shape := ⟨1, ![4000]⟩

abbrev nBuf : Space → Nat
  | .hbm => 150
  | .vmem => 52
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S1x1600000, .i32⟩
  | 8 => ⟨S1600000, .i32⟩
  | 9 => ⟨S1x1600000, .i32⟩
  | 10 => ⟨S1600000, .i32⟩
  | 11 => ⟨S1600000, .i32⟩
  | 12 => ⟨S1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .i32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S100000x1, .f32⟩
  | 49 => ⟨S4x128x128, .f32⟩
  | 50 => ⟨S4x128x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S1x128x128, .f32⟩
  | 65 => ⟨S128x128, .f32⟩
  | 66 => ⟨S1x128, .f32⟩
  | 67 => ⟨S128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S100000x128, .bf16⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .bf16⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S128, .f32⟩
  | 99 => ⟨S100000x128, .bf16⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .bf16⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S100000x128, .bf16⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .bf16⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S4000x128, .bf16⟩
  | .local _ .vmem, ⟨18, _⟩ => ⟨S4000x128, .bf16⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S4000x128, .bf16⟩
  | .local _ .vmem, ⟨25, _⟩ => ⟨S4000x128, .bf16⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S4000x128, .bf16⟩
  | .local _ .vmem, ⟨31, _⟩ => ⟨S4000x128, .bf16⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S128, .f32⟩
  | .local _ .vmem, ⟨37, _⟩ => ⟨S4000x128, .bf16⟩
  | .local _ .vmem, ⟨38, _⟩ => ⟨S4000x128, .bf16⟩
  | .local _ .vmem, ⟨39, _⟩ => ⟨S4000x128, .f32⟩
  | .local _ .vmem, ⟨40, _⟩ => ⟨S4000x128, .f32⟩
  | .local _ .vmem, ⟨41, _⟩ => ⟨S4000x1, .f32⟩
  | .local _ .vmem, ⟨42, _⟩ => ⟨S4000x1, .f32⟩
  | .local _ .vmem, ⟨43, _⟩ => ⟨S4000x128, .bf16⟩
  | .local _ .vmem, ⟨44, _⟩ => ⟨S4000x128, .bf16⟩
  | .local _ .vmem, ⟨45, _⟩ => ⟨S128x128, .f32⟩
  | .local _ .vmem, ⟨46, _⟩ => ⟨S128, .f32⟩
  | .local _ .vmem, ⟨47, _⟩ => ⟨S128x128, .f32⟩
  | .local _ .vmem, ⟨48, _⟩ => ⟨S128, .f32⟩
  | .local _ .vmem, ⟨49, _⟩ => ⟨S128, .f32⟩
  | .local _ .vmem, ⟨50, _⟩ => ⟨S4000x128, .f32⟩
  | .local _ .vmem, ⟨51, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1_0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_c_17 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  transposes_S4x128x128_S4x128x128_0_2_1 : S4x128x128.Transposes [0, 2, 1] S4x128x128
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  packedbf16_S4000x128_S4000x128_0_0 : (Rect.unit (s := S4000x128) ![0, 0] S4000x128.size inb_S4000x128_S4000x128_0_0).PackedRows (EltTy.packing .bf16)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S1600000_S1600000x1_S1600000_n_0_n_n_0_1_1_wf : GatherDims.WF S1600000 S1600000x1 S1600000 [] [0] [] [0] [] 1 ![1]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .bf16 = 32 ∨ (Rect.block (s := S100000x128) S4000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .bf16 = 32 ∨ (Rect.block (s := S100000x128) S4000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .bf16 = 32 ∨ (Rect.block (s := S100000x128) S4000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .bf16 = 32 ∨ (Rect.block (s := S100000x128) S4000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x128.size a ≤ S100000x128.size a
  hwx3_8 : ∀ i : grid3.Coords, EltTy.bits .f32 = 32 ∨ (Rect.block (s := S100000x128) S4000x128.size (cc3_transform_8 i) (hinb3_8 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v40) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v62) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v73) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v84) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v94) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v95) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v106) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v108) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v110) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v112) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v114) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v117) S4000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 288
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S100000x1, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S100000x128, .f32⟩
  | 43 => ⟨S1x128x128, .f32⟩
  | 44 => ⟨S128x128, .f32⟩
  | 45 => ⟨S128x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128x128, .f32⟩
  | 53 => ⟨S128x128, .f32⟩
  | 54 => ⟨S128x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S100000x128, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x128, .f32⟩
  | 73 => ⟨S100000x128, .f32⟩
  | 74 => ⟨S_, .f32⟩
  | 75 => ⟨S100000x1, .f32⟩
  | 76 => ⟨S100000x1, .f32⟩
  | 77 => ⟨S100000x1, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S1x128x128, .f32⟩
  | 109 => ⟨S128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S1x128x128, .f32⟩
  | 118 => ⟨S128x128, .f32⟩
  | 119 => ⟨S128x128, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128x128, .f32⟩
  | 46 => ⟨S128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128x128, .f32⟩
  | 55 => ⟨S128x128, .f32⟩
  | 56 => ⟨S128x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S100000x128, .f32⟩
  | 68 => ⟨S_, .f32⟩
  | 69 => ⟨S100000, .f32⟩
  | 70 => ⟨S100000x1, .f32⟩
  | 71 => ⟨S_, .f32⟩
  | 72 => ⟨S100000x1, .f32⟩
  | 73 => ⟨S100000x1, .f32⟩
  | 74 => ⟨S100000x128, .f32⟩
  | 75 => ⟨S100000x128, .f32⟩
  | 76 => ⟨S_, .f32⟩
  | 77 => ⟨S100000x1, .f32⟩
  | 78 => ⟨S100000x1, .f32⟩
  | 79 => ⟨S100000x1, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x128, .f32⟩
  | 109 => ⟨S100000x128, .f32⟩
  | 110 => ⟨S1x128x128, .f32⟩
  | 111 => ⟨S128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128x128, .f32⟩
  | 120 => ⟨S128x128, .f32⟩
  | 121 => ⟨S128x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_2 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S_, .f32⟩
  | 14 => ⟨S100000x1, .f32⟩
  | 15 => ⟨S100000x1, .f32⟩
  | 16 => ⟨S100000x1, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_c_11 : Ref sig .tc := ⟨.hbm, 93, rfl⟩
abbrev main_v69 : Ref sig .tc := ⟨.hbm, 94, rfl⟩
abbrev main_v70 : Ref sig .tc := ⟨.hbm, 95, rfl⟩
abbrev main_c_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_cst_17 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_18 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_call2_cst : Ref sig .tc := ⟨.hbm, 155, rfl⟩
abbrev main_call2_v0 : Ref sig .tc := ⟨.hbm, 156, rfl⟩
abbrev main_v123 : Ref sig .tc := ⟨.hbm, 157, rfl⟩
abbrev main_c_19 : Ref sig .tc := ⟨.hbm, 158, rfl⟩
abbrev main_v124 : Ref sig .tc := ⟨.hbm, 159, rfl⟩
abbrev main_v125 : Ref sig .tc := ⟨.hbm, 160, rfl⟩
abbrev main_c_20 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_21 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_22 : Ref sig .tc := ⟨.hbm, 187, rfl⟩
abbrev main_v150 : Ref sig .tc := ⟨.hbm, 188, rfl⟩
abbrev main_v151 : Ref sig .tc := ⟨.hbm, 189, rfl⟩
abbrev main_cst_23 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_24 : Ref sig .tc := ⟨.hbm, 196, rfl⟩
abbrev main_v157 : Ref sig .tc := ⟨.hbm, 197, rfl⟩
abbrev main_v158 : Ref sig .tc := ⟨.hbm, 198, rfl⟩
abbrev main_cst_25 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_26 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_call3_cst : Ref sig .tc := ⟨.hbm, 220, rfl⟩
abbrev main_call3_v0 : Ref sig .tc := ⟨.hbm, 221, rfl⟩
abbrev main_v178 : Ref sig .tc := ⟨.hbm, 222, rfl⟩
abbrev main_c_27 : Ref sig .tc := ⟨.hbm, 223, rfl⟩
abbrev main_v179 : Ref sig .tc := ⟨.hbm, 224, rfl⟩
abbrev main_v180 : Ref sig .tc := ⟨.hbm, 225, rfl⟩
abbrev main_c_28 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_29 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_30 : Ref sig .tc := ⟨.hbm, 252, rfl⟩
abbrev main_v205 : Ref sig .tc := ⟨.hbm, 253, rfl⟩
abbrev main_v206 : Ref sig .tc := ⟨.hbm, 254, rfl⟩
abbrev main_cst_31 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_cst_32 : Ref sig .tc := ⟨.hbm, 261, rfl⟩
abbrev main_v212 : Ref sig .tc := ⟨.hbm, 262, rfl⟩
abbrev main_v213 : Ref sig .tc := ⟨.hbm, 263, rfl⟩
abbrev main_cst_33 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_cst_34 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_call4_cst : Ref sig .tc := ⟨.hbm, 285, rfl⟩
abbrev main_call4_v0 : Ref sig .tc := ⟨.hbm, 286, rfl⟩
abbrev main_v233 : Ref sig .tc := ⟨.hbm, 287, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
import proofs.«124728_j12704513261865_2_alg».proof.Proof.Gen.KernelIdeal.Frame

/-!
# The idealized kernel's run, with its result array named

Every weakly fair execution of the four-layer program terminates without a fault, leaves the seven
argument arrays as launched, and leaves the result array at the contents the last layer's region
writes back: the fold of the twelve segments (host stretches and the four regions) from the launch
memory, read at the result buffer. This is the frame's run with the result buffer kept in the
final state's description instead of dropped.
-/

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: it terminates, nothing faults, the result buffer ends at the last
    segment boundary's contents and every argument array ends as launched. -/
theorem run_named : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v117 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.SageRun

end
-- ==== Proof.LibSageRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# One row of a mean-aggregating graph layer with layer normalisation

A node's new feature row is a function of four things only: the sum of its in-neighbours' rows, the
reciprocal of its in-degree, its own row, and the layer's parameters.  With `s` the neighbour sum,
`d` the reciprocal degree and `x` the node's row, the pre-activation at output channel `o` is

  `(∑ k, (s k * d) * wl k o) + (∑ k, x k * wr k o) + bl o`,

and the row is then centred by its mean over the 128 channels, scaled by the reciprocal square root
of its variance plus a small constant, scaled and shifted channel by channel, and clamped at zero
from below.  Everything is over the extended reals; only commutativity and associativity of the sum
are used to pass between the two orders in which the three summands of the pre-activation can be
added, so no finiteness is needed.

Also here: the two keep-dims column forms of the layout operations (a column `[a]` read as `[a, 1]`,
and a column `[a, 1]` repeated along a second axis), read at an index.
-/

noncomputable section

open scoped BigOperators

namespace Idealize.ShloMosaic.SageRow

open Idealize.ShloMosaic Idealize.ShloMosaic.ValueIdx

/-! ## Column forms of the layout operations -/

section Layout
variable {α : Type}

/-- A vector `[a]` cast to a column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row function -/

/-- The constant 128 (the number of channels), as the f32 word the programs divide by. -/
abbrev c128 : EReal := Ideal.ofBits .f32 0x43000000#32
/-- The variance offset, as the f32 word both programs add. -/
abbrev ceps : EReal := Ideal.ofBits .f32 0x3727C5AC#32
/-- The f32 zero word's value. -/
abbrev czero : EReal := Ideal.ofBits .f32 0x00000000#32

/-- The pre-activation of one row at output channel `o`: the scaled neighbour sum through the first weight
    matrix, the node's own row through the second, and the bias. -/
def pre (s x : Fin 128 → EReal) (d : EReal) (wl wr : Fin 128 → Fin 128 → EReal) (bl : Fin 128 → EReal) (o : Fin 128) : EReal :=
  (∑ k : Fin 128, (s k * d) * wl k o) + (∑ k : Fin 128, x k * wr k o) + bl o

/-- The mean of a row over its 128 channels. -/
def mean (h : Fin 128 → EReal) : EReal := Ideal.div (∑ q : Fin 128, h q) c128

/-- The row centred, normalised by its variance, scaled and shifted per channel, and clamped at zero. -/
def norm (h lnw lnb : Fin 128 → EReal) (o : Fin 128) : EReal :=
  max ((h o - mean h) * Ideal.rsqrt (Ideal.div (∑ q : Fin 128, (h q - mean h) * (h q - mean h)) c128 + ceps) * lnw o + lnb o) czero

/-- The pre-activation with the bias added before the node's own term: the same number, since addition on the
    extended reals is commutative and associative. -/
theorem pre_bias_first (s x : Fin 128 → EReal) (d : EReal) (wl wr : Fin 128 → Fin 128 → EReal) (bl : Fin 128 → EReal) (o : Fin 128) :
    (∑ k : Fin 128, (s k * d) * wl k o) + bl o + (∑ k : Fin 128, x k * wr k o) = pre s x d wl wr bl o := by
  unfold pre
  exact add_right_comm _ _ _

/-! ## A layer's parameters, cut out of the stacked parameter arrays -/

/-- Layer `l`'s weight matrix out of a stack `[4, 128, 128]` stored output channel first, read input channel
    first: entry `(k, q)` is the stack's `(l, q, k)`. -/
def wT (A : (⟨3, ![4, 128, 128]⟩ : Shape).Idx → EReal) (l : Fin 4) : (⟨2, ![128, 128]⟩ : Shape).Idx → EReal :=
  fun i => A (ix3 l (i 1) (i 0))

/-- Layer `l`'s row of a stack `[4, 128]` of per-channel parameters. -/
def vrow (B : (⟨2, ![4, 128]⟩ : Shape).Idx → EReal) (l : Fin 4) : (⟨1, ![128]⟩ : Shape).Idx → EReal :=
  fun i => B (ix2 l (i 0))

theorem wT_apply (A : (⟨3, ![4, 128, 128]⟩ : Shape).Idx → EReal) (l : Fin 4) (k q : Fin 128) : wT A l (ix2 k q) = A (ix3 l q k) := rfl
theorem vrow_apply (B : (⟨2, ![4, 128]⟩ : Shape).Idx → EReal) (l : Fin 4) (q : Fin 128) : vrow B l (ix1 q) = B (ix2 l q) := rfl

/-- The stack with every matrix transposed, cut at layer `l` and with the unit axis dropped, is `wT A l`: entry
    `(k, q)` reads the transposed stack at `(l, k, q)`, which is the stack at `(l, q, k)`. -/
theorem wT_of_transpose_slice (A : (⟨3, ![4, 128, 128]⟩ : Shape).Idx → EReal) (l : Fin 4) (o : ℕ) (ho : l.val = o)
    (hT : (⟨3, ![4, 128, 128]⟩ : Shape).Transposes [0, 2, 1] ⟨3, ![4, 128, 128]⟩)
    (hS : (⟨3, ![4, 128, 128]⟩ : Shape).Slices ![o, 0, 0] ⟨3, ![1, 128, 128]⟩)
    (hC : (⟨3, ![1, 128, 128]⟩ : Shape).ShapeCasts ⟨2, ![128, 128]⟩) :
    shapeCast ⟨2, ![128, 128]⟩ (extractStridedSlice ⟨3, ![1, 128, 128]⟩ ![o, 0, 0] (transpose ⟨3, ![4, 128, 128]⟩ [0, 2, 1] A hT) hS) hC
      = wT A l := by
  funext i
  obtain ⟨k, q, rfl⟩ : ∃ (k q : Fin 128), i = ix2 k q := ⟨i 0, i 1, eq_ix2 i⟩
  refine (shapeCast_1ab_ab_apply _ hC k q).trans ?_
  refine (extractStridedSlice_apply ![o, 0, 0] _ hS (ix3 (0 : Fin 1) k q) (ix3 l k q) (fun ax => by
    match ax with
    | ⟨0, _⟩ => show l.val = o + 0; omega
    | ⟨1, _⟩ => show k.val = 0 + k.val; omega
    | ⟨2, _⟩ => show q.val = 0 + q.val; omega)).trans ?_
  exact transpose_ix3_021_apply A hT l k q

/-- A stack of per-channel rows cut at layer `l`, with the unit axis dropped, is `vrow B l`. -/
theorem vrow_of_slice (B : (⟨2, ![4, 128]⟩ : Shape).Idx → EReal) (l : Fin 4) (o : ℕ) (ho : l.val = o)
    (hS : (⟨2, ![4, 128]⟩ : Shape).Slices ![o, 0] ⟨2, ![1, 128]⟩)
    (hC : (⟨2, ![1, 128]⟩ : Shape).ShapeCasts ⟨1, ![128]⟩) :
    shapeCast ⟨1, ![128]⟩ (extractStridedSlice ⟨2, ![1, 128]⟩ ![o, 0] B hS) hC = vrow B l := by
  funext i
  obtain ⟨q, rfl⟩ : ∃ q : Fin 128, i = ix1 q := ⟨i 0, eq_ix1 i⟩
  refine (shapeCast_1a_a_apply _ hC q).trans ?_
  exact slice2_axis0_apply o B hS (0 : Fin 1) q l (by show l.val = o + 0; omega)

/-! ## The layer on whole arrays -/

/-- Entry `(n, o)` of a layer's output array: the row function of row `n` of the neighbour sums `S` and of the
    node features `X`, the reciprocal degree `D` of node `n`, and the layer's parameters (the two weight matrices
    indexed input channel first, output channel second). -/
def layerAt {N : ℕ} (S : (⟨2, ![N, 128]⟩ : Shape).Idx → EReal) (D : (⟨2, ![N, 1]⟩ : Shape).Idx → EReal)
    (X : (⟨2, ![N, 128]⟩ : Shape).Idx → EReal) (wl : (⟨2, ![128, 128]⟩ : Shape).Idx → EReal) (bl : (⟨1, ![128]⟩ : Shape).Idx → EReal)
    (wr : (⟨2, ![128, 128]⟩ : Shape).Idx → EReal) (lnw lnb : (⟨1, ![128]⟩ : Shape).Idx → EReal) (n : Fin N) (o : Fin 128) : EReal :=
  norm (pre (fun k => S (ix2 n k)) (fun k => X (ix2 n k)) (D (ix2 n (0 : Fin 1))) (fun k q => wl (ix2 k q)) (fun k q => wr (ix2 k q))
    (fun q => bl (ix1 q))) (fun q => lnw (ix1 q)) (fun q => lnb (ix1 q)) o

/-- The layer's output array. -/
def layer {N : ℕ} (S : (⟨2, ![N, 128]⟩ : Shape).Idx → EReal) (D : (⟨2, ![N, 1]⟩ : Shape).Idx → EReal)
    (X : (⟨2, ![N, 128]⟩ : Shape).Idx → EReal) (wl : (⟨2, ![128, 128]⟩ : Shape).Idx → EReal) (bl : (⟨1, ![128]⟩ : Shape).Idx → EReal)
    (wr : (⟨2, ![128, 128]⟩ : Shape).Idx → EReal) (lnw lnb : (⟨1, ![128]⟩ : Shape).Idx → EReal) : (⟨2, ![N, 128]⟩ : Shape).Idx → EReal :=
  fun i => layerAt S D X wl bl wr lnw lnb (i 0) (i 1)

theorem layer_apply {N : ℕ} (S : (⟨2, ![N, 128]⟩ : Shape).Idx → EReal) (D : (⟨2, ![N, 1]⟩ : Shape).Idx → EReal)
    (X : (⟨2, ![N, 128]⟩ : Shape).Idx → EReal) (wl : (⟨2, ![128, 128]⟩ : Shape).Idx → EReal) (bl : (⟨1, ![128]⟩ : Shape).Idx → EReal)
    (wr : (⟨2, ![128, 128]⟩ : Shape).Idx → EReal) (lnw lnb : (⟨1, ![128]⟩ : Shape).Idx → EReal) (n : Fin N) (o : Fin 128) :
    layer S D X wl bl wr lnw lnb (ix2 n o) = layerAt S D X wl bl wr lnw lnb n o := rfl

/-- The layer's entry depends only on row `n` of the three node-indexed operands and on the parameters' entries:
    two sets of operands that agree there (a block of rows and the whole array it was cut from; a parameter
    array and its one block) give the same entry. -/
theorem layerAt_congr {N M : ℕ} (S' : (⟨2, ![M, 128]⟩ : Shape).Idx → EReal) (D' : (⟨2, ![M, 1]⟩ : Shape).Idx → EReal)
    (X' : (⟨2, ![M, 128]⟩ : Shape).Idx → EReal) (wl' : (⟨2, ![128, 128]⟩ : Shape).Idx → EReal) (bl' : (⟨1, ![128]⟩ : Shape).Idx → EReal)
    (wr' : (⟨2, ![128, 128]⟩ : Shape).Idx → EReal) (lnw' lnb' : (⟨1, ![128]⟩ : Shape).Idx → EReal)
    (S : (⟨2, ![N, 128]⟩ : Shape).Idx → EReal) (D : (⟨2, ![N, 1]⟩ : Shape).Idx → EReal)
    (X : (⟨2, ![N, 128]⟩ : Shape).Idx → EReal) (wl : (⟨2, ![128, 128]⟩ : Shape).Idx → EReal) (bl : (⟨1, ![128]⟩ : Shape).Idx → EReal)
    (wr : (⟨2, ![128, 128]⟩ : Shape).Idx → EReal) (lnw lnb : (⟨1, ![128]⟩ : Shape).Idx → EReal) (r : Fin M) (n : Fin N) (o o' : Fin 128) (ho : o = o')
    (hS : ∀ k : Fin 128, S' (ix2 r k) = S (ix2 n k)) (hD : D' (ix2 r (0 : Fin 1)) = D (ix2 n (0 : Fin 1)))
    (hX : ∀ k : Fin 128, X' (ix2 r k) = X (ix2 n k))
    (hwl : ∀ k q : Fin 128, wl' (ix2 k q) = wl (ix2 k q)) (hbl : ∀ q : Fin 128, bl' (ix1 q) = bl (ix1 q))
    (hwr : ∀ k q : Fin 128, wr' (ix2 k q) = wr (ix2 k q)) (hlnw : ∀ q : Fin 128, lnw' (ix1 q) = lnw (ix1 q))
    (hlnb : ∀ q : Fin 128, lnb' (ix1 q) = lnb (ix1 q)) :
    layerAt S' D' X' wl' bl' wr' lnw' lnb' r o = layerAt S D X wl bl wr lnw lnb n o' := by
  subst ho
  unfold layerAt
  simp only [hS, hD, hX, hwl, hbl, hwr, hlnw, hlnb]

end Idealize.ShloMosaic.SageRow

end
-- ==== Proof.KernelRow.lean ====
import proofs.«124728_j12704513261865_2_alg».proof.Proof.Gen.KernelIdeal.Skeleton
import proofs.«124728_j12704513261865_2_alg».proof.Proof.LibSageRow
import Idealize.ShloMosaic.PureOps.Ideal.Laws
import Idealize.ShloMosaic.Lib.ValueIdx
import Idealize.ShloMosaic.Lib.ValueLayout
import Idealize.ShloMosaic.Lib.Pipeline.Value

/-!
# The kernel body's arithmetic, row by row

Each of the four regions runs the same body on a block of 4000 rows: it scales the block's neighbour sums by the
rows' reciprocal degrees, multiplies by the first weight matrix, adds the block's own rows times the second weight
matrix and the bias, normalises every row over its 128 channels, scales and shifts, and clamps at zero.  Read at one
entry `(r, o)` of the block this is the row function `SageRow.norm (SageRow.pre …)` of row `r` of the operands:
the matrix products are sums over the contracted channel, the lane reductions are sums over a row's channels, and
the broadcasts and casts only re-index.  The changes of float format are the identity on the extended reals.
-/

noncomputable section

open scoped BigOperators

namespace Cert.KernelIdeal.SageKernelRow

open Cert.KernelIdeal Cert.KernelIdeal.Gen
open Idealize.ShloMosaic Idealize.ShloMosaic.ValueIdx

/-- A vector of 128 channel values, cast to a row and repeated over 4000 rows, reads its channel's value. -/
theorem row_bcast (v : FVec Ideal S128 .f32) (h1 : S128.ShapeCasts S1x128) (h2 : S1x128.Broadcasts S4000x128) (r : Fin 4000) (o : Fin 128) :
    broadcastTo S4000x128 (shapeCast S1x128 v h1) h2 (ix2 r o) = v (ix1 o) :=
  (broadcastTo_1b_ab_apply _ h2 r o).trans (shapeCast_a_1a_apply v h1 (0 : Fin 1) o)

/-- The lane reduction of a block, read at row `r`: the sum of that row's 128 entries. -/
theorem lane_sum (v : FVec Ideal S4000x128 .f32) (h : S4000x128.Reduces [1] S4000) (hφ : FKind.Formats .f32)
    (hacc : @Eq (BitVec FTy.f32.bits) 0x00000000#32 0x00000000#32) (r : Fin 4000) :
    multiReduction .add [1] S4000 v 0x00000000#32 h hφ hacc (ix1 r) = ∑ q : Fin 128, v (ix2 r q) :=
  (Ideal.multiReduction_add_single v 0x00000000#32 h hφ hacc (ix1 r)).trans
    (Finset.sum_congr rfl fun q _ => congrArg v (funext fun a => Fin.ext (by match a with | ⟨0, _⟩ => rfl | ⟨1, _⟩ => rfl)))

/-- The exact row sum over the second axis of a block, read at row `r`. -/
theorem lane_sum_ideal (v : FVec Ideal S4000x128 .f32) (h : S4000x128.Reduces [1] S4000) (r : Fin 4000) :
    Ideal.reduceAdd h v (ix1 r) = ∑ q : Fin 128, v (ix2 r q) :=
  (Ideal.reduceAdd_single h v (ix1 r)).trans
    (Finset.sum_congr rfl fun q _ => congrArg v (funext fun a => Fin.ext (by match a with | ⟨0, _⟩ => rfl | ⟨1, _⟩ => rfl)))

/-- The left operand's index of a product entry keeps the entry's row … -/
theorem lhs_row (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contracted channel as its column. -/
theorem lhs_col (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index takes the contracted channel as its row … -/
theorem rhs_row (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
/-- … and keeps the entry's column. -/
theorem rhs_col (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block's matrix product into a zero accumulator, read at `(r, o)`: the sum over the contracted channel. -/
theorem block_matmul {φ₁ φ₂ : FTy} (a : FVec Ideal S4000x128 φ₁) (b : FVec Ideal S128x128 φ₂) (r : Fin 4000) (o : Fin 128) :
    matmul dot_S4000x128_S128x128_S4000x128_1_0_0_1_n_n none a b (constant S4000x128 .f32 0x00000000#32) (ix2 r o)
      = ∑ k : Fin 128, a (ix2 r k) * b (ix2 k o) := by
  show FloatOps.matmul _ _ _ _ _ _ = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r o) ((ValueIdx.contrEquiv1 dot_S4000x128_S128x128_S4000x128_1_0_0_1_n_n 128 rfl rfl).symm k) = ix2 r k := funext fun ax => Fin.ext (by
    match ax with
    | ⟨0, _⟩ => exact lhs_row _ _
    | ⟨1, _⟩ => exact (lhs_col _ _).trans hk)
  have er : dot_S4000x128_S128x128_S4000x128_1_0_0_1_n_n.rhsIdx (ix2 r o) ((ValueIdx.contrEquiv1 dot_S4000x128_S128x128_S4000x128_1_0_0_1_n_n 128 rfl rfl).symm k) = ix2 k o := funext fun ax => Fin.ext (by
    match ax with
    | ⟨0, _⟩ => exact (rhs_row _ _).trans hk
    | ⟨1, _⟩ => exact rhs_col _ _)
  rw [el, er]

/-- The reciprocal square root of a vector at an index is the extended reals' one of the entry. -/
theorem rsqrt_apply' {s : Shape} (v : FVec Ideal s .f32) (i : s.Idx) : rsqrt v i = Ideal.rsqrt (v i) := rfl

/-! ## Region 0 -/

/-- Region 0's two stores' arithmetic, read at row `r` and channel `o` of a block: the layer's row function of
    the block's rows `r` of the neighbour sums and of the node features, the reciprocal degree of row `r`, and the
    layer's weights, bias, scale and shift. -/
theorem pay0_row (x0 : FVec Ideal S4000x128 .f32) (x1 : FVec Ideal S4000x1 .f32) (x2 : FVec Ideal S4000x128 .f32)
    (x3 x5 : FVec Ideal S128x128 .f32) (x4 x6 x7 : FVec Ideal S128 .f32) (r : Fin 4000) (o : Fin 128) :
    k0_pay1 (F := Ideal) (k0_pay2 (F := Ideal) x0 x1 x2 x3 x5 x4) x6 x7 (ix2 r o)
      = SageRow.norm (SageRow.pre (fun k => x0 (ix2 r k)) (fun k => x2 (ix2 r k)) (x1 (ix2 r (0 : Fin 1)))
          (fun k q => x3 (ix2 k q)) (fun k q => x5 (ix2 k q)) (fun q => x4 (ix1 q)))
          (fun q => x6 (ix1 q)) (fun q => x7 (ix1 q)) o := by
  unfold k0_pay1 k0_pay2 SageRow.norm SageRow.mean SageRow.pre
  simp only [maximumf_apply, addf_apply, mulf_apply, subf_apply, divf_apply, truncf_apply, broadcast_apply,
    shapeCast_self, row_bcast, SageRow.broadcastTo_a1_ab_apply, SageRow.shapeCast_a_a1_apply, multiReduction, Ideal.reduceAdd_def, lane_sum_ideal, block_matmul,
    rsqrt_apply', Ideal.ofBits_def]

/-- The same at any index `j` of the block. -/
theorem pay0_at (x0 : FVec Ideal S4000x128 .f32) (x1 : FVec Ideal S4000x1 .f32) (x2 : FVec Ideal S4000x128 .f32)
    (x3 : FVec Ideal S128x128 .f32) (x4 : FVec Ideal S128 .f32) (x5 : FVec Ideal S128x128 .f32) (x6 x7 : FVec Ideal S128 .f32) (j : S4000x128.Idx) :
    k0_pay1 (F := Ideal) (k0_pay2 (F := Ideal) x0 x1 x2 x3 x5 x4) x6 x7 j
      = SageRow.layerAt x0 x1 x2 x3 x4 x5 x6 x7 (j 0) (j 1) :=
  (congrArg (k0_pay1 (F := Ideal) (k0_pay2 (F := Ideal) x0 x1 x2 x3 x5 x4) x6 x7) (eq_ix2 j)).trans
    (pay0_row x0 x1 x2 x3 x5 x4 x6 x7 (j 0) (j 1))

/-! ## Region 1 -/

/-- Region 1's two stores' arithmetic, read at row `r` and channel `o` of a block: the layer's row function of
    the block's rows `r` of the neighbour sums and of the node features, the reciprocal degree of row `r`, and the
    layer's weights, bias, scale and shift. -/
theorem pay1_row (x0 : FVec Ideal S4000x128 .f32) (x1 : FVec Ideal S4000x1 .f32) (x2 : FVec Ideal S4000x128 .bf16)
    (x3 x5 : FVec Ideal S128x128 .f32) (x4 x6 x7 : FVec Ideal S128 .f32) (r : Fin 4000) (o : Fin 128) :
    k1_pay1 (F := Ideal) (k1_pay2 (F := Ideal) x0 x1 x2 x3 x5 x4) x6 x7 (ix2 r o)
      = SageRow.norm (SageRow.pre (fun k => x0 (ix2 r k)) (fun k => x2 (ix2 r k)) (x1 (ix2 r (0 : Fin 1)))
          (fun k q => x3 (ix2 k q)) (fun k q => x5 (ix2 k q)) (fun q => x4 (ix1 q)))
          (fun q => x6 (ix1 q)) (fun q => x7 (ix1 q)) o := by
  unfold k1_pay1 k1_pay2 SageRow.norm SageRow.mean SageRow.pre
  simp only [maximumf_apply, addf_apply, mulf_apply, subf_apply, divf_apply, truncf_apply, broadcast_apply,
    shapeCast_self, row_bcast, SageRow.broadcastTo_a1_ab_apply, SageRow.shapeCast_a_a1_apply, multiReduction, Ideal.reduceAdd_def, lane_sum_ideal, block_matmul,
    rsqrt_apply', Ideal.ofBits_def]

/-- The same at any index `j` of the block. -/
theorem pay1_at (x0 : FVec Ideal S4000x128 .f32) (x1 : FVec Ideal S4000x1 .f32) (x2 : FVec Ideal S4000x128 .bf16)
    (x3 : FVec Ideal S128x128 .f32) (x4 : FVec Ideal S128 .f32) (x5 : FVec Ideal S128x128 .f32) (x6 x7 : FVec Ideal S128 .f32) (j : S4000x128.Idx) :
    k1_pay1 (F := Ideal) (k1_pay2 (F := Ideal) x0 x1 x2 x3 x5 x4) x6 x7 j
      = SageRow.layerAt x0 x1 x2 x3 x4 x5 x6 x7 (j 0) (j 1) :=
  (congrArg (k1_pay1 (F := Ideal) (k1_pay2 (F := Ideal) x0 x1 x2 x3 x5 x4) x6 x7) (eq_ix2 j)).trans
    (pay1_row x0 x1 x2 x3 x5 x4 x6 x7 (j 0) (j 1))

/-! ## Region 2 -/

/-- Region 2's two stores' arithmetic, read at row `r` and channel `o` of a block: the layer's row function of
    the block's rows `r` of the neighbour sums and of the node features, the reciprocal degree of row `r`, and the
    layer's weights, bias, scale and shift. -/
theorem pay2_row (x0 : FVec Ideal S4000x128 .f32) (x1 : FVec Ideal S4000x1 .f32) (x2 : FVec Ideal S4000x128 .bf16)
    (x3 x5 : FVec Ideal S128x128 .f32) (x4 x6 x7 : FVec Ideal S128 .f32) (r : Fin 4000) (o : Fin 128) :
    k2_pay1 (F := Ideal) (k2_pay2 (F := Ideal) x0 x1 x2 x3 x5 x4) x6 x7 (ix2 r o)
      = SageRow.norm (SageRow.pre (fun k => x0 (ix2 r k)) (fun k => x2 (ix2 r k)) (x1 (ix2 r (0 : Fin 1)))
          (fun k q => x3 (ix2 k q)) (fun k q => x5 (ix2 k q)) (fun q => x4 (ix1 q)))
          (fun q => x6 (ix1 q)) (fun q => x7 (ix1 q)) o := by
  unfold k2_pay1 k2_pay2 SageRow.norm SageRow.mean SageRow.pre
  simp only [maximumf_apply, addf_apply, mulf_apply, subf_apply, divf_apply, truncf_apply, broadcast_apply,
    shapeCast_self, row_bcast, SageRow.broadcastTo_a1_ab_apply, SageRow.shapeCast_a_a1_apply, multiReduction, Ideal.reduceAdd_def, lane_sum_ideal, block_matmul,
    rsqrt_apply', Ideal.ofBits_def]

/-- The same at any index `j` of the block. -/
theorem pay2_at (x0 : FVec Ideal S4000x128 .f32) (x1 : FVec Ideal S4000x1 .f32) (x2 : FVec Ideal S4000x128 .bf16)
    (x3 : FVec Ideal S128x128 .f32) (x4 : FVec Ideal S128 .f32) (x5 : FVec Ideal S128x128 .f32) (x6 x7 : FVec Ideal S128 .f32) (j : S4000x128.Idx) :
    k2_pay1 (F := Ideal) (k2_pay2 (F := Ideal) x0 x1 x2 x3 x5 x4) x6 x7 j
      = SageRow.layerAt x0 x1 x2 x3 x4 x5 x6 x7 (j 0) (j 1) :=
  (congrArg (k2_pay1 (F := Ideal) (k2_pay2 (F := Ideal) x0 x1 x2 x3 x5 x4) x6 x7) (eq_ix2 j)).trans
    (pay2_row x0 x1 x2 x3 x5 x4 x6 x7 (j 0) (j 1))

/-! ## Region 3 -/

/-- Region 3's two stores' arithmetic, read at row `r` and channel `o` of a block: the layer's row function of
    the block's rows `r` of the neighbour sums and of the node features, the reciprocal degree of row `r`, and the
    layer's weights, bias, scale and shift. -/
theorem pay3_row (x0 : FVec Ideal S4000x128 .f32) (x1 : FVec Ideal S4000x1 .f32) (x2 : FVec Ideal S4000x128 .bf16)
    (x3 x5 : FVec Ideal S128x128 .f32) (x4 x6 x7 : FVec Ideal S128 .f32) (r : Fin 4000) (o : Fin 128) :
    k3_pay1 (F := Ideal) (k3_pay2 (F := Ideal) x0 x1 x2 x3 x5 x4) x6 x7 (ix2 r o)
      = SageRow.norm (SageRow.pre (fun k => x0 (ix2 r k)) (fun k => x2 (ix2 r k)) (x1 (ix2 r (0 : Fin 1)))
          (fun k q => x3 (ix2 k q)) (fun k q => x5 (ix2 k q)) (fun q => x4 (ix1 q)))
          (fun q => x6 (ix1 q)) (fun q => x7 (ix1 q)) o := by
  unfold k3_pay1 k3_pay2 SageRow.norm SageRow.mean SageRow.pre
  simp only [maximumf_apply, addf_apply, mulf_apply, subf_apply, divf_apply, truncf_apply, broadcast_apply,
    shapeCast_self, row_bcast, SageRow.broadcastTo_a1_ab_apply, SageRow.shapeCast_a_a1_apply, multiReduction, Ideal.reduceAdd_def, lane_sum_ideal, block_matmul,
    rsqrt_apply', Ideal.ofBits_def]

/-- The same at any index `j` of the block. -/
theorem pay3_at (x0 : FVec Ideal S4000x128 .f32) (x1 : FVec Ideal S4000x1 .f32) (x2 : FVec Ideal S4000x128 .bf16)
    (x3 : FVec Ideal S128x128 .f32) (x4 : FVec Ideal S128 .f32) (x5 : FVec Ideal S128x128 .f32) (x6 x7 : FVec Ideal S128 .f32) (j : S4000x128.Idx) :
    k3_pay1 (F := Ideal) (k3_pay2 (F := Ideal) x0 x1 x2 x3 x5 x4) x6 x7 j
      = SageRow.layerAt x0 x1 x2 x3 x4 x5 x6 x7 (j 0) (j 1) :=
  (congrArg (k3_pay1 (F := Ideal) (k3_pay2 (F := Ideal) x0 x1 x2 x3 x5 x4) x6 x7) (eq_ix2 j)).trans
    (pay3_row x0 x1 x2 x3 x5 x4 x6 x7 (j 0) (j 1))

end Cert.KernelIdeal.SageKernelRow

end
-- ==== Proof.RegionValue.lean ====
import proofs.«124728_j12704513261865_2_alg».proof.Proof.Gen.KernelIdeal.Frame
import proofs.«124728_j12704513261865_2_alg».proof.Proof.KernelRow
import Idealize.ShloMosaic.Lib.Pipeline.Value

/-!
# What each region leaves in its output array

A region runs the layer's body on 25 blocks of 4000 rows.  Block `t` of the three node-indexed operands (the
neighbour sums, the reciprocal degrees, the node features) is rows `4000 t … 4000 t + 3999` of their arrays, the
parameter operands are passed whole at every point, and the output's blocks tile the output array.  So the array the
region leaves is the layer, entry by entry, of the arrays it found — for any contents `V` of the buffers at the region's
entry.
-/

set_option maxRecDepth 16384

noncomputable section

namespace Cert.KernelIdeal.SageRegions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- What region 0 leaves in its output array: the layer of the arrays the region finds in its eight input buffers. -/
abbrev G0 (c : Dev nD) : S100000x128.Idx → EReal :=
  SageRow.layer (V c main_v40) (V c main_v28) (V c main_arg0) (V c main_v42) (V c main_v44) (V c main_v46) (V c main_v48) (V c main_v50)

/-- Region 0's index maps over its 25 grid points: the three node-indexed inputs and the output move with the point
    along the rows, the five parameter blocks stay at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = t.val ∧ win0_8.index t (1 : Fin 2) = 0 :=
  (by decide +kernel : ∀ t : Fin grid0.N, _)

/-- Every block of 4000 rows is some point's output block. -/
theorem idx_onto0 : ∀ q : Fin 25, ∃ t : Fin cfg0.N, win0_8.index t = ![q.val, 0] :=
  (by decide +kernel : ∀ q : Fin 25, ∃ t : Fin grid0.N, win0_8.index t = ![q.val, 0])

set_option maxHeartbeats 3200000 in
/-- What point `t` writes back is block `t` of the layer of the arrays the region finds: row `r` of the block is row
    `4000 t + r` of the three node-indexed arrays, and the parameter blocks are the parameter arrays. -/
theorem flushed0 (c : Dev nD) (t : Fin cfg0.N) :
    (dat0 V c).flushed 8 t = ((cfg0.win 8).blk t).view.read (Elt Ideal) (G0 V c) := by
  show (cfg0.win 8).cut (grid0.coords t) ((dat0 V c).after 8 t) = _
  rw [after0_8]
  unfold out0_8
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e00, e01, e10, e11, e20, e21, e30, e31, e40, e50, e51, e60, e70, e80, e81⟩ := idx_facts0 t
  funext j
  refine (SageKernelRow.pay0_at (iblk0 V c 0 t) (iblk0 V c 1 t) (iblk0 V c 2 t) (iblk0 V c 3 t) (iblk0 V c 4 t) (iblk0 V c 5 t) (iblk0 V c 6 t) (iblk0 V c 7 t) j).trans ?_
  have ho : j 1 = (((cfg0.win 8).blk t).view.emb j) 1 := Fin.ext (by
    show (j 1).val = win0_8.index t (1 : Fin 2) * 128 + 1 * (j 1).val
    rw [e81]; omega)
  refine SageRow.layerAt_congr (iblk0 V c 0 t) (iblk0 V c 1 t) (iblk0 V c 2 t) (iblk0 V c 3 t) (iblk0 V c 4 t) (iblk0 V c 5 t) (iblk0 V c 6 t) (iblk0 V c 7 t) (V c main_v40) (V c main_v28) (V c main_arg0) (V c main_v42) (V c main_v44) (V c main_v46) (V c main_v48) (V c main_v50)
    (j 0) ((((cfg0.win 8).blk t).view.emb j) 0) (j 1) ((((cfg0.win 8).blk t).view.emb j) 1) ho ?_ ?_ ?_ ?_ ?_ ?_ ?_ ?_
  · intro k
    show V c main_v40 (((cfg0.win 0).blk t).view.emb (ix2 (j 0) k)) = V c main_v40 (ix2 ((((cfg0.win 8).blk t).view.emb j) 0) k)
    refine congrArg _ (funext fun a => Fin.ext ?_)
    match a with
    | ⟨0, _⟩ => show win0_0.index t (0 : Fin 2) * 4000 + 1 * (j 0).val = win0_8.index t (0 : Fin 2) * 4000 + 1 * (j 0).val; rw [e00, e80]
    | ⟨1, _⟩ => show win0_0.index t (1 : Fin 2) * 128 + 1 * k.val = k.val; rw [e01]; omega
  · show V c main_v28 (((cfg0.win 1).blk t).view.emb (ix2 (j 0) (0 : Fin 1))) = V c main_v28 (ix2 ((((cfg0.win 8).blk t).view.emb j) 0) (0 : Fin 1))
    refine congrArg _ (funext fun a => Fin.ext ?_)
    match a with
    | ⟨0, _⟩ => show win0_1.index t (0 : Fin 2) * 4000 + 1 * (j 0).val = win0_8.index t (0 : Fin 2) * 4000 + 1 * (j 0).val; rw [e10, e80]
    | ⟨1, _⟩ => show win0_1.index t (1 : Fin 2) * 1 + 1 * 0 = 0; rw [e11]
  · intro k
    show V c main_arg0 (((cfg0.win 2).blk t).view.emb (ix2 (j 0) k)) = V c main_arg0 (ix2 ((((cfg0.win 8).blk t).view.emb j) 0) k)
    refine congrArg _ (funext fun a => Fin.ext ?_)
    match a with
    | ⟨0, _⟩ => show win0_2.index t (0 : Fin 2) * 4000 + 1 * (j 0).val = win0_8.index t (0 : Fin 2) * 4000 + 1 * (j 0).val; rw [e20, e80]
    | ⟨1, _⟩ => show win0_2.index t (1 : Fin 2) * 128 + 1 * k.val = k.val; rw [e21]; omega
  · intro k q
    show V c main_v42 (((cfg0.win 3).blk t).view.emb (ix2 k q)) = V c main_v42 (ix2 k q)
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  · intro q
    show V c main_v44 (((cfg0.win 4).blk t).view.emb (ix1 q)) = V c main_v44 (ix1 q)
    refine congrArg _ (funext fun a => Fin.ext ?_)
    match a with
    | ⟨0, _⟩ => show win0_4.index t (0 : Fin 1) * 128 + 1 * q.val = q.val; rw [e40]; omega
  · intro k q
    show V c main_v46 (((cfg0.win 5).blk t).view.emb (ix2 k q)) = V c main_v46 (ix2 k q)
    refine congrArg _ (funext fun a => Fin.ext ?_)
    match a with
    | ⟨0, _⟩ => show win0_5.index t (0 : Fin 2) * 128 + 1 * k.val = k.val; rw [e50]; omega
    | ⟨1, _⟩ => show win0_5.index t (1 : Fin 2) * 128 + 1 * q.val = q.val; rw [e51]; omega
  · intro q
    show V c main_v48 (((cfg0.win 6).blk t).view.emb (ix1 q)) = V c main_v48 (ix1 q)
    refine congrArg _ (funext fun a => Fin.ext ?_)
    match a with
    | ⟨0, _⟩ => show win0_6.index t (0 : Fin 1) * 128 + 1 * q.val = q.val; rw [e60]; omega
  · intro q
    show V c main_v50 (((cfg0.win 7).blk t).view.emb (ix1 q)) = V c main_v50 (ix1 q)
    refine congrArg _ (funext fun a => Fin.ext ?_)
    match a with
    | ⟨0, _⟩ => show win0_7.index t (0 : Fin 1) * 128 + 1 * q.val = q.val; rw [e70]; omega

/-- An index of the output array lies in point `t`'s block iff each coordinate lies in the block's range on its axis. -/
theorem mem_blk0 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v51).slice (win0_8.rect t)).set ↔ _
  rw [View.set_slice_whole, Rect.mem_set_unit]
  exact Iff.rfl

/-- The 25 output blocks tile the output array: row `n` lies in the block of point `n / 4000`. -/
theorem cover0 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto0 ⟨(i 0).val / 4000, by omega⟩
  have q0 : win0_8.index t (0 : Fin 2) = (i 0).val / 4000 := congrFun ht 0
  have q1 : win0_8.index t (1 : Fin 2) = 0 := congrFun ht 1
  refine ⟨t, flush0_8 t, ?_⟩
  rw [mem_blk0]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- Region 0's output array after the region: the layer of the arrays it found. -/
theorem region0_array (c : Dev nD) : (dat0 V c).arrAt 8 cfg0.N = G0 V c :=
  (dat0 V c).arrAt_eq_of_cover 8 (G0 V c) (fun t _ => flushed0 V c t) (cover0)

/-! ## Region 1 -/

/-- What region 1 leaves in its output array: the layer of the arrays the region finds in its eight input buffers. -/
abbrev G1 (c : Dev nD) : S100000x128.Idx → EReal :=
  SageRow.layer (V c main_v62) (V c main_v28) (V c main_v51) (V c main_v64) (V c main_v66) (V c main_v68) (V c main_v70) (V c main_v72)

/-- Region 1's index maps over its 25 grid points: the three node-indexed inputs and the output move with the point
    along the rows, the five parameter blocks stay at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

/-- Every block of 4000 rows is some point's output block. -/
theorem idx_onto1 : ∀ q : Fin 25, ∃ t : Fin cfg1.N, win1_8.index t = ![q.val, 0] :=
  (by decide +kernel : ∀ q : Fin 25, ∃ t : Fin grid1.N, win1_8.index t = ![q.val, 0])

set_option maxHeartbeats 3200000 in
/-- What point `t` writes back is block `t` of the layer of the arrays the region finds: row `r` of the block is row
    `4000 t + r` of the three node-indexed arrays, and the parameter blocks are the parameter arrays. -/
theorem flushed1 (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e00, e01, e10, e11, e20, e21, e30, e31, e40, e50, e51, e60, e70, e80, e81⟩ := idx_facts1 t
  funext j
  refine (SageKernelRow.pay1_at (iblk1 V c 0 t) (iblk1 V c 1 t) (iblk1 V c 2 t) (iblk1 V c 3 t) (iblk1 V c 4 t) (iblk1 V c 5 t) (iblk1 V c 6 t) (iblk1 V c 7 t) j).trans ?_
  have ho : j 1 = (((cfg1.win 8).blk t).view.emb j) 1 := Fin.ext (by
    show (j 1).val = win1_8.index t (1 : Fin 2) * 128 + 1 * (j 1).val
    rw [e81]; omega)
  refine SageRow.layerAt_congr (iblk1 V c 0 t) (iblk1 V c 1 t) (iblk1 V c 2 t) (iblk1 V c 3 t) (iblk1 V c 4 t) (iblk1 V c 5 t) (iblk1 V c 6 t) (iblk1 V c 7 t) (V c main_v62) (V c main_v28) (V c main_v51) (V c main_v64) (V c main_v66) (V c main_v68) (V c main_v70) (V c main_v72)
    (j 0) ((((cfg1.win 8).blk t).view.emb j) 0) (j 1) ((((cfg1.win 8).blk t).view.emb j) 1) ho ?_ ?_ ?_ ?_ ?_ ?_ ?_ ?_
  · intro k
    show V c main_v62 (((cfg1.win 0).blk t).view.emb (ix2 (j 0) k)) = V c main_v62 (ix2 ((((cfg1.win 8).blk t).view.emb j) 0) k)
    refine congrArg _ (funext fun a => Fin.ext ?_)
    match a with
    | ⟨0, _⟩ => show win1_0.index t (0 : Fin 2) * 4000 + 1 * (j 0).val = win1_8.index t (0 : Fin 2) * 4000 + 1 * (j 0).val; rw [e00, e80]
    | ⟨1, _⟩ => show win1_0.index t (1 : Fin 2) * 128 + 1 * k.val = k.val; rw [e01]; omega
  · show V c main_v28 (((cfg1.win 1).blk t).view.emb (ix2 (j 0) (0 : Fin 1))) = V c main_v28 (ix2 ((((cfg1.win 8).blk t).view.emb j) 0) (0 : Fin 1))
    refine congrArg _ (funext fun a => Fin.ext ?_)
    match a with
    | ⟨0, _⟩ => show win1_1.index t (0 : Fin 2) * 4000 + 1 * (j 0).val = win1_8.index t (0 : Fin 2) * 4000 + 1 * (j 0).val; rw [e10, e80]
    | ⟨1, _⟩ => show win1_1.index t (1 : Fin 2) * 1 + 1 * 0 = 0; rw [e11]
  · intro k
    show V c main_v51 (((cfg1.win 2).blk t).view.emb (ix2 (j 0) k)) = V c main_v51 (ix2 ((((cfg1.win 8).blk t).view.emb j) 0) k)
    refine congrArg _ (funext fun a => Fin.ext ?_)
    match a with
    | ⟨0, _⟩ => show win1_2.index t (0 : Fin 2) * 4000 + 1 * (j 0).val = win1_8.index t (0 : Fin 2) * 4000 + 1 * (j 0).val; rw [e20, e80]
    | ⟨1, _⟩ => show win1_2.index t (1 : Fin 2) * 128 + 1 * k.val = k.val; rw [e21]; omega
  · intro k q
    show V c main_v64 (((cfg1.win 3).blk t).view.emb (ix2 k q)) = V c main_v64 (ix2 k q)
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 128 + 1 * q.val = q.val; rw [e31]; omega
  · intro q
    show V c main_v66 (((cfg1.win 4).blk t).view.emb (ix1 q)) = V c main_v66 (ix1 q)
    refine congrArg _ (funext fun a => Fin.ext ?_)
    match a with
    | ⟨0, _⟩ => show win1_4.index t (0 : Fin 1) * 128 + 1 * q.val = q.val; rw [e40]; omega
  · intro k q
    show V c main_v68 (((cfg1.win 5).blk t).view.emb (ix2 k q)) = V c main_v68 (ix2 k q)
    refine congrArg _ (funext fun a => Fin.ext ?_)
    match a with
    | ⟨0, _⟩ => show win1_5.index t (0 : Fin 2) * 128 + 1 * k.val = k.val; rw [e50]; omega
    | ⟨1, _⟩ => show win1_5.index t (1 : Fin 2) * 128 + 1 * q.val = q.val; rw [e51]; omega
  · intro q
    show V c main_v70 (((cfg1.win 6).blk t).view.emb (ix1 q)) = V c main_v70 (ix1 q)
    refine congrArg _ (funext fun a => Fin.ext ?_)
    match a with
    | ⟨0, _⟩ => show win1_6.index t (0 : Fin 1) * 128 + 1 * q.val = q.val; rw [e60]; omega
  · intro q
    show V c main_v72 (((cfg1.win 7).blk t).view.emb (ix1 q)) = V c main_v72 (ix1 q)
    refine congrArg _ (funext fun a => Fin.ext ?_)
    match a with
    | ⟨0, _⟩ => show win1_7.index t (0 : Fin 1) * 128 + 1 * q.val = q.val; rw [e70]; omega

/-- An index of the output array lies in point `t`'s block iff each coordinate lies in the block's range on its axis. -/
theorem mem_blk1 (t : Fin cfg1.N) (i : S100000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v73).slice (win1_8.rect t)).set ↔ _
  rw [View.set_slice_whole, Rect.mem_set_unit]
  exact Iff.rfl

/-- The 25 output blocks tile the output array: row `n` lies in the block of point `n / 4000`. -/
theorem cover1 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ := idx_onto1 ⟨(i 0).val / 4000, by omega⟩
  have q0 : win1_8.index t (0 : Fin 2) = (i 0).val / 4000 := congrFun ht 0
  have q1 : win1_8.index t (1 : Fin 2) = 0 := congrFun ht 1
  refine ⟨t, flush1_8 t, ?_⟩
  rw [mem_blk1]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- Region 1's output array after the region: the layer of the arrays it found. -/
theorem region1_array (c : Dev nD) : (dat1 V c).arrAt 8 cfg1.N = G1 V c :=
  (dat1 V c).arrAt_eq_of_cover 8 (G1 V c) (fun t _ => flushed1 V c t) (cover1)

/-! ## Region 2 -/

/-- What region 2 leaves in its output array: the layer of the arrays the region finds in its eight input buffers. -/
abbrev G2 (c : Dev nD) : S100000x128.Idx → EReal :=
  SageRow.layer (V c main_v84) (V c main_v28) (V c main_v73) (V c main_v86) (V c main_v88) (V c main_v90) (V c main_v92) (V c main_v94)

/-- Region 2's index maps over its 25 grid points: the three node-indexed inputs and the output move with the point
    along the rows, the five parameter blocks stay at the origin. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 1) = 0
    ∧ win2_8.index t (0 : Fin 2) = t.val ∧ win2_8.index t (1 : Fin 2) = 0 :=
  (by decide +kernel : ∀ t : Fin grid2.N, _)

/-- Every block of 4000 rows is some point's output block. -/
theorem idx_onto2 : ∀ q : Fin 25, ∃ t : Fin cfg2.N, win2_8.index t = ![q.val, 0] :=
  (by decide +kernel : ∀ q : Fin 25, ∃ t : Fin grid2.N, win2_8.index t = ![q.val, 0])

set_option maxHeartbeats 3200000 in
/-- What point `t` writes back is block `t` of the layer of the arrays the region finds: row `r` of the block is row
    `4000 t + r` of the three node-indexed arrays, and the parameter blocks are the parameter arrays. -/
theorem flushed2 (c : Dev nD) (t : Fin cfg2.N) :
    (dat2 V c).flushed 8 t = ((cfg2.win 8).blk t).view.read (Elt Ideal) (G2 V c) := by
  show (cfg2.win 8).cut (grid2.coords t) ((dat2 V c).after 8 t) = _
  rw [after2_8]
  unfold out2_8
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e00, e01, e10, e11, e20, e21, e30, e31, e40, e50, e51, e60, e70, e80, e81⟩ := idx_facts2 t
  funext j
  refine (SageKernelRow.pay2_at (iblk2 V c 0 t) (iblk2 V c 1 t) (iblk2 V c 2 t) (iblk2 V c 3 t) (iblk2 V c 4 t) (iblk2 V c 5 t) (iblk2 V c 6 t) (iblk2 V c 7 t) j).trans ?_
  have ho : j 1 = (((cfg2.win 8).blk t).view.emb j) 1 := Fin.ext (by
    show (j 1).val = win2_8.index t (1 : Fin 2) * 128 + 1 * (j 1).val
    rw [e81]; omega)
  refine SageRow.layerAt_congr (iblk2 V c 0 t) (iblk2 V c 1 t) (iblk2 V c 2 t) (iblk2 V c 3 t) (iblk2 V c 4 t) (iblk2 V c 5 t) (iblk2 V c 6 t) (iblk2 V c 7 t) (V c main_v84) (V c main_v28) (V c main_v73) (V c main_v86) (V c main_v88) (V c main_v90) (V c main_v92) (V c main_v94)
    (j 0) ((((cfg2.win 8).blk t).view.emb j) 0) (j 1) ((((cfg2.win 8).blk t).view.emb j) 1) ho ?_ ?_ ?_ ?_ ?_ ?_ ?_ ?_
  · intro k
    show V c main_v84 (((cfg2.win 0).blk t).view.emb (ix2 (j 0) k)) = V c main_v84 (ix2 ((((cfg2.win 8).blk t).view.emb j) 0) k)
    refine congrArg _ (funext fun a => Fin.ext ?_)
    match a with
    | ⟨0, _⟩ => show win2_0.index t (0 : Fin 2) * 4000 + 1 * (j 0).val = win2_8.index t (0 : Fin 2) * 4000 + 1 * (j 0).val; rw [e00, e80]
    | ⟨1, _⟩ => show win2_0.index t (1 : Fin 2) * 128 + 1 * k.val = k.val; rw [e01]; omega
  · show V c main_v28 (((cfg2.win 1).blk t).view.emb (ix2 (j 0) (0 : Fin 1))) = V c main_v28 (ix2 ((((cfg2.win 8).blk t).view.emb j) 0) (0 : Fin 1))
    refine congrArg _ (funext fun a => Fin.ext ?_)
    match a with
    | ⟨0, _⟩ => show win2_1.index t (0 : Fin 2) * 4000 + 1 * (j 0).val = win2_8.index t (0 : Fin 2) * 4000 + 1 * (j 0).val; rw [e10, e80]
    | ⟨1, _⟩ => show win2_1.index t (1 : Fin 2) * 1 + 1 * 0 = 0; rw [e11]
  · intro k
    show V c main_v73 (((cfg2.win 2).blk t).view.emb (ix2 (j 0) k)) = V c main_v73 (ix2 ((((cfg2.win 8).blk t).view.emb j) 0) k)
    refine congrArg _ (funext fun a => Fin.ext ?_)
    match a with
    | ⟨0, _⟩ => show win2_2.index t (0 : Fin 2) * 4000 + 1 * (j 0).val = win2_8.index t (0 : Fin 2) * 4000 + 1 * (j 0).val; rw [e20, e80]
    | ⟨1, _⟩ => show win2_2.index t (1 : Fin 2) * 128 + 1 * k.val = k.val; rw [e21]; omega
  · intro k q
    show V c main_v86 (((cfg2.win 3).blk t).view.emb (ix2 k q)) = V c main_v86 (ix2 k q)
    refine congrArg _ (funext fun a => Fin.ext ?_)
    match a with
    | ⟨0, _⟩ => show win2_3.index t (0 : Fin 2) * 128 + 1 * k.val = k.val; rw [e30]; omega
    | ⟨1, _⟩ => show win2_3.index t (1 : Fin 2) * 128 + 1 * q.val = q.val; rw [e31]; omega
  · intro q
    show V c main_v88 (((cfg2.win 4).blk t).view.emb (ix1 q)) = V c main_v88 (ix1 q)
    refine congrArg _ (funext fun a => Fin.ext ?_)
    match a with
    | ⟨0, _⟩ => show win2_4.index t (0 : Fin 1) * 128 + 1 * q.val = q.val; rw [e40]; omega
  · intro k q
    show V c main_v90 (((cfg2.win 5).blk t).view.emb (ix2 k q)) = V c main_v90 (ix2 k q)
    refine congrArg _ (funext fun a => Fin.ext ?_)
    match a with
    | ⟨0, _⟩ => show win2_5.index t (0 : Fin 2) * 128 + 1 * k.val = k.val; rw [e50]; omega
    | ⟨1, _⟩ => show win2_5.index t (1 : Fin 2) * 128 + 1 * q.val = q.val; rw [e51]; omega
  · intro q
    show V c main_v92 (((cfg2.win 6).blk t).view.emb (ix1 q)) = V c main_v92 (ix1 q)
    refine congrArg _ (funext fun a => Fin.ext ?_)
    match a with
    | ⟨0, _⟩ => show win2_6.index t (0 : Fin 1) * 128 + 1 * q.val = q.val; rw [e60]; omega
  · intro q
    show V c main_v94 (((cfg2.win 7).blk t).view.emb (ix1 q)) = V c main_v94 (ix1 q)
    refine congrArg _ (funext fun a => Fin.ext ?_)
    match a with
    | ⟨0, _⟩ => show win2_7.index t (0 : Fin 1) * 128 + 1 * q.val = q.val; rw [e70]; omega

/-- An index of the output array lies in point `t`'s block iff each coordinate lies in the block's range on its axis. -/
theorem mem_blk2 (t : Fin cfg2.N) (i : S100000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v95).slice (win2_8.rect t)).set ↔ _
  rw [View.set_slice_whole, Rect.mem_set_unit]
  exact Iff.rfl

/-- The 25 output blocks tile the output array: row `n` lies in the block of point `n / 4000`. -/
theorem cover2 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ := idx_onto2 ⟨(i 0).val / 4000, by omega⟩
  have q0 : win2_8.index t (0 : Fin 2) = (i 0).val / 4000 := congrFun ht 0
  have q1 : win2_8.index t (1 : Fin 2) = 0 := congrFun ht 1
  refine ⟨t, flush2_8 t, ?_⟩
  rw [mem_blk2]
  intro a
  match a with
  | ⟨0, _⟩ => show win2_8.index t (0 : Fin 2) * 4000 ≤ (i 0).val ∧ (i 0).val < win2_8.index t (0 : Fin 2) * 4000 + 4000; omega
  | ⟨1, _⟩ => show win2_8.index t (1 : Fin 2) * 128 ≤ (i 1).val ∧ (i 1).val < win2_8.index t (1 : Fin 2) * 128 + 128; omega

/-- Region 2's output array after the region: the layer of the arrays it found. -/
theorem region2_array (c : Dev nD) : (dat2 V c).arrAt 8 cfg2.N = G2 V c :=
  (dat2 V c).arrAt_eq_of_cover 8 (G2 V c) (fun t _ => flushed2 V c t) (cover2)

/-! ## Region 3 -/

/-- What region 3 leaves in its output array: the layer of the arrays the region finds in its eight input buffers. -/
abbrev G3 (c : Dev nD) : S100000x128.Idx → EReal :=
  SageRow.layer (V c main_v106) (V c main_v28) (V c main_v95) (V c main_v108) (V c main_v110) (V c main_v112) (V c main_v114) (V c main_v116)

/-- Region 3's index maps over its 25 grid points: the three node-indexed inputs and the output move with the point
    along the rows, the five parameter blocks stay at the origin. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 1) = 0
    ∧ win3_8.index t (0 : Fin 2) = t.val ∧ win3_8.index t (1 : Fin 2) = 0 :=
  (by decide +kernel : ∀ t : Fin grid3.N, _)

/-- Every block of 4000 rows is some point's output block. -/
theorem idx_onto3 : ∀ q : Fin 25, ∃ t : Fin cfg3.N, win3_8.index t = ![q.val, 0] :=
  (by decide +kernel : ∀ q : Fin 25, ∃ t : Fin grid3.N, win3_8.index t = ![q.val, 0])

set_option maxHeartbeats 3200000 in
/-- What point `t` writes back is block `t` of the layer of the arrays the region finds: row `r` of the block is row
    `4000 t + r` of the three node-indexed arrays, and the parameter blocks are the parameter arrays. -/
theorem flushed3 (c : Dev nD) (t : Fin cfg3.N) :
    (dat3 V c).flushed 8 t = ((cfg3.win 8).blk t).view.read (Elt Ideal) (G3 V c) := by
  show (cfg3.win 8).cut (grid3.coords t) ((dat3 V c).after 8 t) = _
  rw [after3_8]
  unfold out3_8
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e00, e01, e10, e11, e20, e21, e30, e31, e40, e50, e51, e60, e70, e80, e81⟩ := idx_facts3 t
  funext j
  refine (SageKernelRow.pay3_at (iblk3 V c 0 t) (iblk3 V c 1 t) (iblk3 V c 2 t) (iblk3 V c 3 t) (iblk3 V c 4 t) (iblk3 V c 5 t) (iblk3 V c 6 t) (iblk3 V c 7 t) j).trans ?_
  have ho : j 1 = (((cfg3.win 8).blk t).view.emb j) 1 := Fin.ext (by
    show (j 1).val = win3_8.index t (1 : Fin 2) * 128 + 1 * (j 1).val
    rw [e81]; omega)
  refine SageRow.layerAt_congr (iblk3 V c 0 t) (iblk3 V c 1 t) (iblk3 V c 2 t) (iblk3 V c 3 t) (iblk3 V c 4 t) (iblk3 V c 5 t) (iblk3 V c 6 t) (iblk3 V c 7 t) (V c main_v106) (V c main_v28) (V c main_v95) (V c main_v108) (V c main_v110) (V c main_v112) (V c main_v114) (V c main_v116)
    (j 0) ((((cfg3.win 8).blk t).view.emb j) 0) (j 1) ((((cfg3.win 8).blk t).view.emb j) 1) ho ?_ ?_ ?_ ?_ ?_ ?_ ?_ ?_
  · intro k
    show V c main_v106 (((cfg3.win 0).blk t).view.emb (ix2 (j 0) k)) = V c main_v106 (ix2 ((((cfg3.win 8).blk t).view.emb j) 0) k)
    refine congrArg _ (funext fun a => Fin.ext ?_)
    match a with
    | ⟨0, _⟩ => show win3_0.index t (0 : Fin 2) * 4000 + 1 * (j 0).val = win3_8.index t (0 : Fin 2) * 4000 + 1 * (j 0).val; rw [e00, e80]
    | ⟨1, _⟩ => show win3_0.index t (1 : Fin 2) * 128 + 1 * k.val = k.val; rw [e01]; omega
  · show V c main_v28 (((cfg3.win 1).blk t).view.emb (ix2 (j 0) (0 : Fin 1))) = V c main_v28 (ix2 ((((cfg3.win 8).blk t).view.emb j) 0) (0 : Fin 1))
    refine congrArg _ (funext fun a => Fin.ext ?_)
    match a with
    | ⟨0, _⟩ => show win3_1.index t (0 : Fin 2) * 4000 + 1 * (j 0).val = win3_8.index t (0 : Fin 2) * 4000 + 1 * (j 0).val; rw [e10, e80]
    | ⟨1, _⟩ => show win3_1.index t (1 : Fin 2) * 1 + 1 * 0 = 0; rw [e11]
  · intro k
    show V c main_v95 (((cfg3.win 2).blk t).view.emb (ix2 (j 0) k)) = V c main_v95 (ix2 ((((cfg3.win 8).blk t).view.emb j) 0) k)
    refine congrArg _ (funext fun a => Fin.ext ?_)
    match a with
    | ⟨0, _⟩ => show win3_2.index t (0 : Fin 2) * 4000 + 1 * (j 0).val = win3_8.index t (0 : Fin 2) * 4000 + 1 * (j 0).val; rw [e20, e80]
    | ⟨1, _⟩ => show win3_2.index t (1 : Fin 2) * 128 + 1 * k.val = k.val; rw [e21]; omega
  · intro k q
    show V c main_v108 (((cfg3.win 3).blk t).view.emb (ix2 k q)) = V c main_v108 (ix2 k q)
    refine congrArg _ (funext fun a => Fin.ext ?_)
    match a with
    | ⟨0, _⟩ => show win3_3.index t (0 : Fin 2) * 128 + 1 * k.val = k.val; rw [e30]; omega
    | ⟨1, _⟩ => show win3_3.index t (1 : Fin 2) * 128 + 1 * q.val = q.val; rw [e31]; omega
  · intro q
    show V c main_v110 (((cfg3.win 4).blk t).view.emb (ix1 q)) = V c main_v110 (ix1 q)
    refine congrArg _ (funext fun a => Fin.ext ?_)
    match a with
    | ⟨0, _⟩ => show win3_4.index t (0 : Fin 1) * 128 + 1 * q.val = q.val; rw [e40]; omega
  · intro k q
    show V c main_v112 (((cfg3.win 5).blk t).view.emb (ix2 k q)) = V c main_v112 (ix2 k q)
    refine congrArg _ (funext fun a => Fin.ext ?_)
    match a with
    | ⟨0, _⟩ => show win3_5.index t (0 : Fin 2) * 128 + 1 * k.val = k.val; rw [e50]; omega
    | ⟨1, _⟩ => show win3_5.index t (1 : Fin 2) * 128 + 1 * q.val = q.val; rw [e51]; omega
  · intro q
    show V c main_v114 (((cfg3.win 6).blk t).view.emb (ix1 q)) = V c main_v114 (ix1 q)
    refine congrArg _ (funext fun a => Fin.ext ?_)
    match a with
    | ⟨0, _⟩ => show win3_6.index t (0 : Fin 1) * 128 + 1 * q.val = q.val; rw [e60]; omega
  · intro q
    show V c main_v116 (((cfg3.win 7).blk t).view.emb (ix1 q)) = V c main_v116 (ix1 q)
    refine congrArg _ (funext fun a => Fin.ext ?_)
    match a with
    | ⟨0, _⟩ => show win3_7.index t (0 : Fin 1) * 128 + 1 * q.val = q.val; rw [e70]; omega

/-- An index of the output array lies in point `t`'s block iff each coordinate lies in the block's range on its axis. -/
theorem mem_blk3 (t : Fin cfg3.N) (i : S100000x128.Idx) :
    i ∈ ((cfg3.win 8).blk t).view.set ↔ ∀ a : Fin 2, win3_8.index t a * S4000x128.size a ≤ (i a).val ∧ (i a).val < win3_8.index t a * S4000x128.size a + S4000x128.size a := by
  show i ∈ ((View.whole main_v117).slice (win3_8.rect t)).set ↔ _
  rw [View.set_slice_whole, Rect.mem_set_unit]
  exact Iff.rfl

/-- The 25 output blocks tile the output array: row `n` lies in the block of point `n / 4000`. -/
theorem cover3 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  obtain ⟨t, ht⟩ := idx_onto3 ⟨(i 0).val / 4000, by omega⟩
  have q0 : win3_8.index t (0 : Fin 2) = (i 0).val / 4000 := congrFun ht 0
  have q1 : win3_8.index t (1 : Fin 2) = 0 := congrFun ht 1
  refine ⟨t, flush3_8 t, ?_⟩
  rw [mem_blk3]
  intro a
  match a with
  | ⟨0, _⟩ => show win3_8.index t (0 : Fin 2) * 4000 ≤ (i 0).val ∧ (i 0).val < win3_8.index t (0 : Fin 2) * 4000 + 4000; omega
  | ⟨1, _⟩ => show win3_8.index t (1 : Fin 2) * 128 ≤ (i 1).val ∧ (i 1).val < win3_8.index t (1 : Fin 2) * 128 + 128; omega

/-- Region 3's output array after the region: the layer of the arrays it found. -/
theorem region3_array (c : Dev nD) : (dat3 V c).arrAt 8 cfg3.N = G3 V c :=
  (dat3 V c).arrAt_eq_of_cover 8 (G3 V c) (fun t _ => flushed3 V c t) (cover3)

end Cert.KernelIdeal.SageRegions

end
-- ==== Proof.KernelValue.lean ====
import proofs.«124728_j12704513261865_2_alg».proof.Proof.Gen.KernelIdeal.Frame
import proofs.«124728_j12704513261865_2_alg».proof.Proof.RegionValue
import proofs.«124728_j12704513261865_2_alg».proof.Proof.LibSageRow
import Idealize.ShloMosaic.PureOps.Ideal
import Idealize.ShloMosaic.Lib.StableHlo.Run

/-!
# The idealized kernel's result array as a function of its arguments

The program sorts the edge list by destination once, gathers the source and destination rows through the sorting
permutation, counts in-degrees and takes their reciprocals, and then four times: gathers the current node features at
the (sorted) sources, sums them into the (sorted) destinations, and runs a region that applies the layer to the sums,
the reciprocal degrees and the current features.  Folding the host stretches and the regions' write-backs from the launch
memory, the result buffer ends at four nested applications of `SageRow.layer`, each over the segment sum `segsum` of
the previous layer's output along the sorted edge list.
-/

set_option maxRecDepth 16384

noncomputable section

namespace Cert.KernelIdeal.SageValue

open Cert.KernelIdeal Cert.KernelIdeal.Gen
open Idealize.ShloMosaic Idealize.ShloMosaic.TcCoe Idealize.ShloMosaic.StableHlo Idealize.ShloMosaic.ValueIdx
open Idealize.SL Idealize.SL.Sem

/-! ## The host side's quantities, as functions of the argument arrays -/

/-- An index vector as a column of one-component index vectors. -/
abbrev col (p : IVec S1600000 32) : IVec S1600000x1 32 := broadcastInDim S1600000x1 ![0] bcast_S1600000_S1600000x1_0 p

/-- Python-style index normalisation: a negative index has the axis length `n` added. -/
abbrev wrapIdx (p : IVec S1600000 32) (n : BitVec 32) : IVec S1600000 32 :=
  select (cmpi .slt p (broadcastInDim S1600000 ![] bcast_S_S1600000 (constantI S_ 32 0#32)))
    (addi p (broadcastInDim S1600000 ![] bcast_S_S1600000 (constantI S_ 32 n))) p

/-- The edge list's source row. -/
def srcRow (E : IVec S2x1600000 32) : IVec S1600000 32 :=
  shapeCast S1600000 (extractStridedSlice S1x1600000 ![0, 0] E slices_S2x1600000_S1x1600000_0_0) shapeCasts_S1x1600000_S1600000
/-- The edge list's destination row. -/
def dstRow (E : IVec S2x1600000 32) : IVec S1600000 32 :=
  shapeCast S1600000 (extractStridedSlice S1x1600000 ![1, 0] E slices_S2x1600000_S1x1600000_1_0) shapeCasts_S1x1600000_S1600000
/-- The permutation that sorts the edges by destination (a stable sort carrying the positions). -/
def perm (E : IVec S2x1600000 32) : IVec S1600000 32 :=
  (Host.sort2 S1600000 0 comparator_i32_i32_d0 (dstRow E) (iotaInDim S1600000 32 0)).2
/-- The sources in sorted order. -/
def srcK (E : IVec S2x1600000 32) : IVec S1600000 32 :=
  Host.gather gather_S1600000_S1600000x1_S1600000_n_0_n_n_0_1_1 (srcRow E) (col (wrapIdx (perm E) 1600000#32))
/-- The destinations in sorted order. -/
def dstK (E : IVec S2x1600000 32) : IVec S1600000 32 :=
  Host.gather gather_S1600000_S1600000x1_S1600000_n_0_n_n_0_1_1 (dstRow E) (col (wrapIdx (perm E) 1600000#32))
/-- The in-degree of every node along a destination list: one unit summed in per edge. -/
def degK (d : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (col d)
    (broadcastInDim S1600000 ![] bcast_S_S1600000 (constant (F := Ideal) S_ .f32 0x3F800000#32))
/-- The reciprocal in-degree where it is positive, zero elsewhere, as a column. -/
def invK (d : IVec S1600000 32) : FVec Ideal S100000x1 .f32 :=
  broadcastInDim S100000x1 ![0] bcast_S100000_S100000x1_0
    (select (cmpf .ogt (degK d) (broadcastInDim S100000 ![] bcast_S_S100000 (constant (F := Ideal) S_ .f32 0x00000000#32)))
      (Host.divf (F := Ideal) (broadcastInDim S100000 ![] bcast_S_S100000 (constant (F := Ideal) S_ .f32 0x3F800000#32)) (degK d))
      (broadcastInDim S100000 ![] bcast_S_S100000 (constant (F := Ideal) S_ .f32 0x00000000#32)))
/-- The segment sum: row `X[s e]` summed into row `d e`, over all edges `e`. -/
def segsum {φ : FTy} (X : FVec Ideal S100000x128 φ) (s d : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (col d)
    (Host.gather gather_S100000x128_S1600000x1_S1600000x128_1_0_n_n_0_1_1128 X (col (wrapIdx s 100000#32)))

/-- One layer over the sorted edge list, from the current node features. -/
def kLayer {φ : FTy} (l : Fin 4) (X : FVec Ideal S100000x128 φ) (E : IVec S2x1600000 32) (Wl : FVec Ideal S4x128x128 .f32)
    (bl : FVec Ideal S4x128 .f32) (Wr : FVec Ideal S4x128x128 .f32) (lnw lnb : FVec Ideal S4x128 .f32) : S100000x128.Idx → EReal :=
  SageRow.layer (segsum X (srcK E) (dstK E)) (invK (dstK E)) X (SageRow.wT Wl l) (SageRow.vrow bl l) (SageRow.wT Wr l)
    (SageRow.vrow lnw l) (SageRow.vrow lnb l)

/-- The node features after layers 0 … 3. -/
def kX1 (X : FVec Ideal S100000x128 .f32) (E : IVec S2x1600000 32) (Wl : FVec Ideal S4x128x128 .f32) (bl : FVec Ideal S4x128 .f32)
    (Wr : FVec Ideal S4x128x128 .f32) (lnw lnb : FVec Ideal S4x128 .f32) : S100000x128.Idx → EReal := kLayer 0 X E Wl bl Wr lnw lnb
def kX2 (X : FVec Ideal S100000x128 .f32) (E : IVec S2x1600000 32) (Wl : FVec Ideal S4x128x128 .f32) (bl : FVec Ideal S4x128 .f32)
    (Wr : FVec Ideal S4x128x128 .f32) (lnw lnb : FVec Ideal S4x128 .f32) : S100000x128.Idx → EReal :=
  kLayer (φ := .bf16) 1 (kX1 X E Wl bl Wr lnw lnb) E Wl bl Wr lnw lnb
def kX3 (X : FVec Ideal S100000x128 .f32) (E : IVec S2x1600000 32) (Wl : FVec Ideal S4x128x128 .f32) (bl : FVec Ideal S4x128 .f32)
    (Wr : FVec Ideal S4x128x128 .f32) (lnw lnb : FVec Ideal S4x128 .f32) : S100000x128.Idx → EReal :=
  kLayer (φ := .bf16) 2 (kX2 X E Wl bl Wr lnw lnb) E Wl bl Wr lnw lnb
def kX4 (X : FVec Ideal S100000x128 .f32) (E : IVec S2x1600000 32) (Wl : FVec Ideal S4x128x128 .f32) (bl : FVec Ideal S4x128 .f32)
    (Wr : FVec Ideal S4x128x128 .f32) (lnw lnb : FVec Ideal S4x128 .f32) : S100000x128.Idx → EReal :=
  kLayer (φ := .bf16) 3 (kX3 X E Wl bl Wr lnw lnb) E Wl bl Wr lnw lnb

variable (m : (ℓ : Loc nD τ sig) → Buf (Elt Ideal) ℓ) (ρ : Dev nD → PrngReg) (c : Dev nD)

/-- The argument arrays at launch. -/
abbrev A0 : FVec Ideal S100000x128 .f32 := m ((c : Thread nD τ).loc main_arg0)
abbrev A1 : IVec S2x1600000 32 := m ((c : Thread nD τ).loc main_arg1)
abbrev A2 : FVec Ideal S4x128x128 .f32 := m ((c : Thread nD τ).loc main_arg2)
abbrev A3 : FVec Ideal S4x128 .f32 := m ((c : Thread nD τ).loc main_arg3)
abbrev A4 : FVec Ideal S4x128x128 .f32 := m ((c : Thread nD τ).loc main_arg4)
abbrev A5 : FVec Ideal S4x128 .f32 := m ((c : Thread nD τ).loc main_arg5)
abbrev A6 : FVec Ideal S4x128 .f32 := m ((c : Thread nD τ).loc main_arg6)

/-! ## At region 0's entry -/
set_option maxHeartbeats 8000000 in
theorem W5_v40 : W5 m ρ c (Proc.devRef .tc main_v40) = segsum (A0 m c) (srcK (A1 m c)) (dstK (A1 m c)) := by
  show StableHlo.after hostOps0_4 (StableHlo.after hostOps0_3 (StableHlo.after hostOps0_2 (StableHlo.after hostOps0_1 (StableHlo.after hostOps0 (W0 m ρ c))))) (Proc.devRef .tc main_v40) = _
  after_results_simp
  rfl

/-! ### The reciprocal degrees at region 0's entry, one stretch at a time -/

section Stretches
variable (V : Valuation τ sig (Elt Ideal))

set_option maxHeartbeats 8000000 in
theorem s0_v3 : StableHlo.after hostOps0 V (Proc.devRef .tc main_v3) = dstRow (V (Proc.devRef .tc main_arg1)) := by
  after_results_simp
  rfl
set_option maxHeartbeats 8000000 in
theorem s1_v4 : StableHlo.after hostOps0_1 V (Proc.devRef .tc main_v4)
    = (Host.sort2 S1600000 0 comparator_i32_i32_d0 (V (Proc.devRef .tc main_v3)) (iotaInDim S1600000 32 0)).2 := by
  after_results_simp
  rfl
set_option maxHeartbeats 8000000 in
theorem s1_v3 : StableHlo.after hostOps0_1 V (Proc.devRef .tc main_v3) = V (Proc.devRef .tc main_v3) := by
  after_results_simp
set_option maxHeartbeats 8000000 in
theorem s2_v24 : StableHlo.after hostOps0_2 V (Proc.devRef .tc main_v24)
    = cmpf .ogt (degK (Host.gather gather_S1600000_S1600000x1_S1600000_n_0_n_n_0_1_1 (V (Proc.devRef .tc main_v3)) (col (wrapIdx (V (Proc.devRef .tc main_v4)) 1600000#32))))
        (broadcastInDim S100000 ![] bcast_S_S100000 (constant (F := Ideal) S_ .f32 0x00000000#32)) := by
  after_results_simp
  rfl
set_option maxHeartbeats 8000000 in
theorem s2_v26 : StableHlo.after hostOps0_2 V (Proc.devRef .tc main_v26)
    = Host.divf (F := Ideal) (broadcastInDim S100000 ![] bcast_S_S100000 (constant (F := Ideal) S_ .f32 0x3F800000#32))
        (degK (Host.gather gather_S1600000_S1600000x1_S1600000_n_0_n_n_0_1_1 (V (Proc.devRef .tc main_v3)) (col (wrapIdx (V (Proc.devRef .tc main_v4)) 1600000#32)))) := by
  after_results_simp
  rfl
set_option maxHeartbeats 8000000 in
theorem s2_cst6 : StableHlo.after hostOps0_2 V (Proc.devRef .tc main_cst_6) = constant (F := Ideal) S_ .f32 0x00000000#32 := by
  after_results_simp
set_option maxHeartbeats 8000000 in
theorem s3_v27 : StableHlo.after hostOps0_3 V (Proc.devRef .tc main_v27)
    = select (V (Proc.devRef .tc main_v24)) (V (Proc.devRef .tc main_v26)) (broadcastInDim S100000 ![] bcast_S_S100000 (V (Proc.devRef .tc main_cst_6))) := by
  after_results_simp
  rfl
set_option maxHeartbeats 8000000 in
theorem s4_v28 : StableHlo.after hostOps0_4 V (Proc.devRef .tc main_v28)
    = broadcastInDim S100000x1 ![0] bcast_S100000_S100000x1_0 (V (Proc.devRef .tc main_v27)) := by
  after_results_simp

end Stretches

set_option maxHeartbeats 8000000 in
theorem W5_v28 : W5 m ρ c (Proc.devRef .tc main_v28) = invK (dstK (A1 m c)) := by
  show StableHlo.after hostOps0_4 (W4 m ρ c) (Proc.devRef .tc main_v28) = _
  rw [s4_v28]
  show broadcastInDim S100000x1 ![0] bcast_S100000_S100000x1_0 (StableHlo.after hostOps0_3 (W3 m ρ c) (Proc.devRef .tc main_v27)) = _
  rw [s3_v27]
  show broadcastInDim S100000x1 ![0] bcast_S100000_S100000x1_0
    (select (StableHlo.after hostOps0_2 (W2 m ρ c) (Proc.devRef .tc main_v24)) (StableHlo.after hostOps0_2 (W2 m ρ c) (Proc.devRef .tc main_v26))
      (broadcastInDim S100000 ![] bcast_S_S100000 (StableHlo.after hostOps0_2 (W2 m ρ c) (Proc.devRef .tc main_cst_6)))) = _
  rw [s2_v24, s2_v26, s2_cst6]
  have h3 : W2 m ρ c (Proc.devRef .tc main_v3) = dstRow (A1 m c) := by
    show StableHlo.after hostOps0_1 (W1 m ρ c) (Proc.devRef .tc main_v3) = _
    rw [s1_v3]
    show StableHlo.after hostOps0 (W0 m ρ c) (Proc.devRef .tc main_v3) = _
    rw [s0_v3]
  have h4 : W2 m ρ c (Proc.devRef .tc main_v4) = perm (A1 m c) := by
    show StableHlo.after hostOps0_1 (W1 m ρ c) (Proc.devRef .tc main_v4) = _
    rw [s1_v4]
    show (Host.sort2 S1600000 0 comparator_i32_i32_d0 (StableHlo.after hostOps0 (W0 m ρ c) (Proc.devRef .tc main_v3)) (iotaInDim S1600000 32 0)).2 = _
    rw [s0_v3]
    try rfl
  rw [h3, h4]
  try rfl
set_option maxHeartbeats 8000000 in
theorem W5_arg0 : W5 m ρ c (Proc.devRef .tc main_arg0) = A0 m c := by
  show StableHlo.after hostOps0_4 (StableHlo.after hostOps0_3 (StableHlo.after hostOps0_2 (StableHlo.after hostOps0_1 (StableHlo.after hostOps0 (W0 m ρ c))))) (Proc.devRef .tc main_arg0) = _
  after_results_simp
  try rfl
set_option maxHeartbeats 8000000 in
theorem W5_v42 : W5 m ρ c (Proc.devRef .tc main_v42) = SageRow.wT (A2 m c) 0 := by
  show StableHlo.after hostOps0_4 (StableHlo.after hostOps0_3 (StableHlo.after hostOps0_2 (StableHlo.after hostOps0_1 (StableHlo.after hostOps0 (W0 m ρ c))))) (Proc.devRef .tc main_v42) = _
  after_results_simp
  exact SageRow.wT_of_transpose_slice (A2 m c) 0 0 rfl _ _ _
set_option maxHeartbeats 8000000 in
theorem W5_v44 : W5 m ρ c (Proc.devRef .tc main_v44) = SageRow.vrow (A3 m c) 0 := by
  show StableHlo.after hostOps0_4 (StableHlo.after hostOps0_3 (StableHlo.after hostOps0_2 (StableHlo.after hostOps0_1 (StableHlo.after hostOps0 (W0 m ρ c))))) (Proc.devRef .tc main_v44) = _
  after_results_simp
  exact SageRow.vrow_of_slice (A3 m c) 0 0 rfl _ _
set_option maxHeartbeats 8000000 in
theorem W5_v46 : W5 m ρ c (Proc.devRef .tc main_v46) = SageRow.wT (A4 m c) 0 := by
  show StableHlo.after hostOps0_4 (StableHlo.after hostOps0_3 (StableHlo.after hostOps0_2 (StableHlo.after hostOps0_1 (StableHlo.after hostOps0 (W0 m ρ c))))) (Proc.devRef .tc main_v46) = _
  after_results_simp
  exact SageRow.wT_of_transpose_slice (A4 m c) 0 0 rfl _ _ _
set_option maxHeartbeats 8000000 in
theorem W5_v48 : W5 m ρ c (Proc.devRef .tc main_v48) = SageRow.vrow (A5 m c) 0 := by
  show StableHlo.after hostOps0_4 (StableHlo.after hostOps0_3 (StableHlo.after hostOps0_2 (StableHlo.after hostOps0_1 (StableHlo.after hostOps0 (W0 m ρ c))))) (Proc.devRef .tc main_v48) = _
  after_results_simp
  exact SageRow.vrow_of_slice (A5 m c) 0 0 rfl _ _
set_option maxHeartbeats 8000000 in
theorem W5_v50 : W5 m ρ c (Proc.devRef .tc main_v50) = SageRow.vrow (A6 m c) 0 := by
  show StableHlo.after hostOps0_4 (StableHlo.after hostOps0_3 (StableHlo.after hostOps0_2 (StableHlo.after hostOps0_1 (StableHlo.after hostOps0 (W0 m ρ c))))) (Proc.devRef .tc main_v50) = _
  after_results_simp
  exact SageRow.vrow_of_slice (A6 m c) 0 0 rfl _ _
set_option maxHeartbeats 8000000 in
theorem W5_v11 : W5 m ρ c (Proc.devRef .tc main_v11) = srcK (A1 m c) := by
  show StableHlo.after hostOps0_4 (StableHlo.after hostOps0_3 (StableHlo.after hostOps0_2 (StableHlo.after hostOps0_1 (StableHlo.after hostOps0 (W0 m ρ c))))) (Proc.devRef .tc main_v11) = _
  after_results_simp
  try rfl
set_option maxHeartbeats 8000000 in
theorem W5_v18 : W5 m ρ c (Proc.devRef .tc main_v18) = dstK (A1 m c) := by
  show StableHlo.after hostOps0_4 (StableHlo.after hostOps0_3 (StableHlo.after hostOps0_2 (StableHlo.after hostOps0_1 (StableHlo.after hostOps0 (W0 m ρ c))))) (Proc.devRef .tc main_v18) = _
  after_results_simp
  try rfl
set_option maxHeartbeats 8000000 in
theorem W5_v29 : W5 m ρ c (Proc.devRef .tc main_v29) = transpose S4x128x128 [0, 2, 1] (A2 m c) transposes_S4x128x128_S4x128x128_0_2_1 := by
  show StableHlo.after hostOps0_4 (StableHlo.after hostOps0_3 (StableHlo.after hostOps0_2 (StableHlo.after hostOps0_1 (StableHlo.after hostOps0 (W0 m ρ c))))) (Proc.devRef .tc main_v29) = _
  after_results_simp
  try rfl
set_option maxHeartbeats 8000000 in
theorem W5_v30 : W5 m ρ c (Proc.devRef .tc main_v30) = transpose S4x128x128 [0, 2, 1] (A4 m c) transposes_S4x128x128_S4x128x128_0_2_1 := by
  show StableHlo.after hostOps0_4 (StableHlo.after hostOps0_3 (StableHlo.after hostOps0_2 (StableHlo.after hostOps0_1 (StableHlo.after hostOps0 (W0 m ρ c))))) (Proc.devRef .tc main_v30) = _
  after_results_simp
  try rfl
set_option maxHeartbeats 8000000 in
theorem W5_arg3 : W5 m ρ c (Proc.devRef .tc main_arg3) = A3 m c := by
  show StableHlo.after hostOps0_4 (StableHlo.after hostOps0_3 (StableHlo.after hostOps0_2 (StableHlo.after hostOps0_1 (StableHlo.after hostOps0 (W0 m ρ c))))) (Proc.devRef .tc main_arg3) = _
  after_results_simp
  try rfl
set_option maxHeartbeats 8000000 in
theorem W5_arg5 : W5 m ρ c (Proc.devRef .tc main_arg5) = A5 m c := by
  show StableHlo.after hostOps0_4 (StableHlo.after hostOps0_3 (StableHlo.after hostOps0_2 (StableHlo.after hostOps0_1 (StableHlo.after hostOps0 (W0 m ρ c))))) (Proc.devRef .tc main_arg5) = _
  after_results_simp
  try rfl
set_option maxHeartbeats 8000000 in
theorem W5_arg6 : W5 m ρ c (Proc.devRef .tc main_arg6) = A6 m c := by
  show StableHlo.after hostOps0_4 (StableHlo.after hostOps0_3 (StableHlo.after hostOps0_2 (StableHlo.after hostOps0_1 (StableHlo.after hostOps0 (W0 m ρ c))))) (Proc.devRef .tc main_arg6) = _
  after_results_simp
  try rfl

/-! ## Region 0's output -/

/-- Region 0 leaves layer 0's output in its output buffer. -/
theorem W6_v51 : W6 m ρ c (Proc.devRef .tc main_v51) = kX1 (A0 m c) (A1 m c) (A2 m c) (A3 m c) (A4 m c) (A5 m c) (A6 m c) := by
  refine (W6_arr m ρ c 8).trans ((SageRegions.region0_array (V5 m ρ) c).trans ?_)
  show SageRow.layer (W5 m ρ c (Proc.devRef .tc main_v40)) (W5 m ρ c (Proc.devRef .tc main_v28)) (W5 m ρ c (Proc.devRef .tc main_arg0)) (W5 m ρ c (Proc.devRef .tc main_v42))
    (W5 m ρ c (Proc.devRef .tc main_v44)) (W5 m ρ c (Proc.devRef .tc main_v46)) (W5 m ρ c (Proc.devRef .tc main_v48)) (W5 m ρ c (Proc.devRef .tc main_v50)) = _
  rw [W5_v40 m ρ c, W5_v28 m ρ c, W5_arg0 m ρ c, W5_v42 m ρ c, W5_v44 m ρ c, W5_v46 m ρ c, W5_v48 m ρ c, W5_v50 m ρ c]
  rfl
theorem W6_v11 : W6 m ρ c (Proc.devRef .tc main_v11) = srcK (A1 m c) :=
  (W6_of_ne m ρ c main_v11 (by decide)).trans (W5_v11 m ρ c)
theorem W6_v18 : W6 m ρ c (Proc.devRef .tc main_v18) = dstK (A1 m c) :=
  (W6_of_ne m ρ c main_v18 (by decide)).trans (W5_v18 m ρ c)
theorem W6_v28 : W6 m ρ c (Proc.devRef .tc main_v28) = invK (dstK (A1 m c)) :=
  ((W6_arr m ρ c 1).trans (((dat0 (V5 m ρ) c).arrAt_in 1 rfl _).trans (A_eq0 (V5 m ρ) c 1))).trans (W5_v28 m ρ c)
theorem W6_v29 : W6 m ρ c (Proc.devRef .tc main_v29) = transpose S4x128x128 [0, 2, 1] (A2 m c) transposes_S4x128x128_S4x128x128_0_2_1 :=
  (W6_of_ne m ρ c main_v29 (by decide)).trans (W5_v29 m ρ c)
theorem W6_v30 : W6 m ρ c (Proc.devRef .tc main_v30) = transpose S4x128x128 [0, 2, 1] (A4 m c) transposes_S4x128x128_S4x128x128_0_2_1 :=
  (W6_of_ne m ρ c main_v30 (by decide)).trans (W5_v30 m ρ c)
theorem W6_arg3 : W6 m ρ c (Proc.devRef .tc main_arg3) = A3 m c :=
  (W6_of_ne m ρ c main_arg3 (by decide)).trans (W5_arg3 m ρ c)
theorem W6_arg5 : W6 m ρ c (Proc.devRef .tc main_arg5) = A5 m c :=
  (W6_of_ne m ρ c main_arg5 (by decide)).trans (W5_arg5 m ρ c)
theorem W6_arg6 : W6 m ρ c (Proc.devRef .tc main_arg6) = A6 m c :=
  (W6_of_ne m ρ c main_arg6 (by decide)).trans (W5_arg6 m ρ c)

/-! ## At region 1's entry -/
set_option maxHeartbeats 8000000 in
theorem W7_v62 : W7 m ρ c (Proc.devRef .tc main_v62) = segsum (φ := .bf16) (kX1 (A0 m c) (A1 m c) (A2 m c) (A3 m c) (A4 m c) (A5 m c) (A6 m c)) (srcK (A1 m c)) (dstK (A1 m c)) := by
  show StableHlo.after hostOps1 (W6 m ρ c) (Proc.devRef .tc main_v62) = _
  after_results_simp
  rw [W6_v18 m ρ c, W6_v51 m ρ c, W6_v11 m ρ c]
  rfl
set_option maxHeartbeats 8000000 in
theorem W7_v51 : W7 m ρ c (Proc.devRef .tc main_v51) = kX1 (A0 m c) (A1 m c) (A2 m c) (A3 m c) (A4 m c) (A5 m c) (A6 m c) := by
  show StableHlo.after hostOps1 (W6 m ρ c) (Proc.devRef .tc main_v51) = _
  after_results_simp
  rw [W6_v51 m ρ c]

set_option maxHeartbeats 8000000 in
theorem W7_v64 : W7 m ρ c (Proc.devRef .tc main_v64) = SageRow.wT (A2 m c) 1 := by
  show StableHlo.after hostOps1 (W6 m ρ c) (Proc.devRef .tc main_v64) = _
  after_results_simp
  rw [W6_v29 m ρ c]
  exact SageRow.wT_of_transpose_slice (A2 m c) 1 1 rfl _ _ _
set_option maxHeartbeats 8000000 in
theorem W7_v66 : W7 m ρ c (Proc.devRef .tc main_v66) = SageRow.vrow (A3 m c) 1 := by
  show StableHlo.after hostOps1 (W6 m ρ c) (Proc.devRef .tc main_v66) = _
  after_results_simp
  rw [W6_arg3 m ρ c]
  exact SageRow.vrow_of_slice (A3 m c) 1 1 rfl _ _
set_option maxHeartbeats 8000000 in
theorem W7_v68 : W7 m ρ c (Proc.devRef .tc main_v68) = SageRow.wT (A4 m c) 1 := by
  show StableHlo.after hostOps1 (W6 m ρ c) (Proc.devRef .tc main_v68) = _
  after_results_simp
  rw [W6_v30 m ρ c]
  exact SageRow.wT_of_transpose_slice (A4 m c) 1 1 rfl _ _ _
set_option maxHeartbeats 8000000 in
theorem W7_v70 : W7 m ρ c (Proc.devRef .tc main_v70) = SageRow.vrow (A5 m c) 1 := by
  show StableHlo.after hostOps1 (W6 m ρ c) (Proc.devRef .tc main_v70) = _
  after_results_simp
  rw [W6_arg5 m ρ c]
  exact SageRow.vrow_of_slice (A5 m c) 1 1 rfl _ _
set_option maxHeartbeats 8000000 in
theorem W7_v72 : W7 m ρ c (Proc.devRef .tc main_v72) = SageRow.vrow (A6 m c) 1 := by
  show StableHlo.after hostOps1 (W6 m ρ c) (Proc.devRef .tc main_v72) = _
  after_results_simp
  rw [W6_arg6 m ρ c]
  exact SageRow.vrow_of_slice (A6 m c) 1 1 rfl _ _
set_option maxHeartbeats 8000000 in
theorem W7_v11 : W7 m ρ c (Proc.devRef .tc main_v11) = srcK (A1 m c) := by
  show StableHlo.after hostOps1 (W6 m ρ c) (Proc.devRef .tc main_v11) = _
  after_results_simp
  rw [W6_v11 m ρ c]

set_option maxHeartbeats 8000000 in
theorem W7_v18 : W7 m ρ c (Proc.devRef .tc main_v18) = dstK (A1 m c) := by
  show StableHlo.after hostOps1 (W6 m ρ c) (Proc.devRef .tc main_v18) = _
  after_results_simp
  rw [W6_v18 m ρ c]

set_option maxHeartbeats 8000000 in
theorem W7_v28 : W7 m ρ c (Proc.devRef .tc main_v28) = invK (dstK (A1 m c)) := by
  show StableHlo.after hostOps1 (W6 m ρ c) (Proc.devRef .tc main_v28) = _
  after_results_simp
  rw [W6_v28 m ρ c]

set_option maxHeartbeats 8000000 in
theorem W7_v29 : W7 m ρ c (Proc.devRef .tc main_v29) = transpose S4x128x128 [0, 2, 1] (A2 m c) transposes_S4x128x128_S4x128x128_0_2_1 := by
  show StableHlo.after hostOps1 (W6 m ρ c) (Proc.devRef .tc main_v29) = _
  after_results_simp
  rw [W6_v29 m ρ c]

set_option maxHeartbeats 8000000 in
theorem W7_v30 : W7 m ρ c (Proc.devRef .tc main_v30) = transpose S4x128x128 [0, 2, 1] (A4 m c) transposes_S4x128x128_S4x128x128_0_2_1 := by
  show StableHlo.after hostOps1 (W6 m ρ c) (Proc.devRef .tc main_v30) = _
  after_results_simp
  rw [W6_v30 m ρ c]

set_option maxHeartbeats 8000000 in
theorem W7_arg3 : W7 m ρ c (Proc.devRef .tc main_arg3) = A3 m c := by
  show StableHlo.after hostOps1 (W6 m ρ c) (Proc.devRef .tc main_arg3) = _
  after_results_simp
  rw [W6_arg3 m ρ c]

set_option maxHeartbeats 8000000 in
theorem W7_arg5 : W7 m ρ c (Proc.devRef .tc main_arg5) = A5 m c := by
  show StableHlo.after hostOps1 (W6 m ρ c) (Proc.devRef .tc main_arg5) = _
  after_results_simp
  rw [W6_arg5 m ρ c]

set_option maxHeartbeats 8000000 in
theorem W7_arg6 : W7 m ρ c (Proc.devRef .tc main_arg6) = A6 m c := by
  show StableHlo.after hostOps1 (W6 m ρ c) (Proc.devRef .tc main_arg6) = _
  after_results_simp
  rw [W6_arg6 m ρ c]

/-! ## Region 1's output -/

/-- Region 1 leaves layer 1's output in its output buffer. -/
theorem W8_v73 : W8 m ρ c (Proc.devRef .tc main_v73) = kX2 (A0 m c) (A1 m c) (A2 m c) (A3 m c) (A4 m c) (A5 m c) (A6 m c) := by
  refine (W8_arr m ρ c 8).trans ((SageRegions.region1_array (V7 m ρ) c).trans ?_)
  show SageRow.layer (W7 m ρ c (Proc.devRef .tc main_v62)) (W7 m ρ c (Proc.devRef .tc main_v28)) (W7 m ρ c (Proc.devRef .tc main_v51)) (W7 m ρ c (Proc.devRef .tc main_v64))
    (W7 m ρ c (Proc.devRef .tc main_v66)) (W7 m ρ c (Proc.devRef .tc main_v68)) (W7 m ρ c (Proc.devRef .tc main_v70)) (W7 m ρ c (Proc.devRef .tc main_v72)) = _
  rw [W7_v62 m ρ c, W7_v28 m ρ c, W7_v51 m ρ c, W7_v64 m ρ c, W7_v66 m ρ c, W7_v68 m ρ c, W7_v70 m ρ c, W7_v72 m ρ c]
  rfl
theorem W8_v11 : W8 m ρ c (Proc.devRef .tc main_v11) = srcK (A1 m c) :=
  (W8_of_ne m ρ c main_v11 (by decide)).trans (W7_v11 m ρ c)
theorem W8_v18 : W8 m ρ c (Proc.devRef .tc main_v18) = dstK (A1 m c) :=
  (W8_of_ne m ρ c main_v18 (by decide)).trans (W7_v18 m ρ c)
theorem W8_v28 : W8 m ρ c (Proc.devRef .tc main_v28) = invK (dstK (A1 m c)) :=
  ((W8_arr m ρ c 1).trans (((dat1 (V7 m ρ) c).arrAt_in 1 rfl _).trans (A_eq1 (V7 m ρ) c 1))).trans (W7_v28 m ρ c)
theorem W8_v29 : W8 m ρ c (Proc.devRef .tc main_v29) = transpose S4x128x128 [0, 2, 1] (A2 m c) transposes_S4x128x128_S4x128x128_0_2_1 :=
  (W8_of_ne m ρ c main_v29 (by decide)).trans (W7_v29 m ρ c)
theorem W8_v30 : W8 m ρ c (Proc.devRef .tc main_v30) = transpose S4x128x128 [0, 2, 1] (A4 m c) transposes_S4x128x128_S4x128x128_0_2_1 :=
  (W8_of_ne m ρ c main_v30 (by decide)).trans (W7_v30 m ρ c)
theorem W8_arg3 : W8 m ρ c (Proc.devRef .tc main_arg3) = A3 m c :=
  (W8_of_ne m ρ c main_arg3 (by decide)).trans (W7_arg3 m ρ c)
theorem W8_arg5 : W8 m ρ c (Proc.devRef .tc main_arg5) = A5 m c :=
  (W8_of_ne m ρ c main_arg5 (by decide)).trans (W7_arg5 m ρ c)
theorem W8_arg6 : W8 m ρ c (Proc.devRef .tc main_arg6) = A6 m c :=
  (W8_of_ne m ρ c main_arg6 (by decide)).trans (W7_arg6 m ρ c)

/-! ## At region 2's entry -/
set_option maxHeartbeats 8000000 in
theorem W9_v84 : W9 m ρ c (Proc.devRef .tc main_v84) = segsum (φ := .bf16) (kX2 (A0 m c) (A1 m c) (A2 m c) (A3 m c) (A4 m c) (A5 m c) (A6 m c)) (srcK (A1 m c)) (dstK (A1 m c)) := by
  show StableHlo.after hostOps2 (W8 m ρ c) (Proc.devRef .tc main_v84) = _
  after_results_simp
  rw [W8_v18 m ρ c, W8_v73 m ρ c, W8_v11 m ρ c]
  rfl
set_option maxHeartbeats 8000000 in
theorem W9_v73 : W9 m ρ c (Proc.devRef .tc main_v73) = kX2 (A0 m c) (A1 m c) (A2 m c) (A3 m c) (A4 m c) (A5 m c) (A6 m c) := by
  show StableHlo.after hostOps2 (W8 m ρ c) (Proc.devRef .tc main_v73) = _
  after_results_simp
  rw [W8_v73 m ρ c]

set_option maxHeartbeats 8000000 in
theorem W9_v86 : W9 m ρ c (Proc.devRef .tc main_v86) = SageRow.wT (A2 m c) 2 := by
  show StableHlo.after hostOps2 (W8 m ρ c) (Proc.devRef .tc main_v86) = _
  after_results_simp
  rw [W8_v29 m ρ c]
  exact SageRow.wT_of_transpose_slice (A2 m c) 2 2 rfl _ _ _
set_option maxHeartbeats 8000000 in
theorem W9_v88 : W9 m ρ c (Proc.devRef .tc main_v88) = SageRow.vrow (A3 m c) 2 := by
  show StableHlo.after hostOps2 (W8 m ρ c) (Proc.devRef .tc main_v88) = _
  after_results_simp
  rw [W8_arg3 m ρ c]
  exact SageRow.vrow_of_slice (A3 m c) 2 2 rfl _ _
set_option maxHeartbeats 8000000 in
theorem W9_v90 : W9 m ρ c (Proc.devRef .tc main_v90) = SageRow.wT (A4 m c) 2 := by
  show StableHlo.after hostOps2 (W8 m ρ c) (Proc.devRef .tc main_v90) = _
  after_results_simp
  rw [W8_v30 m ρ c]
  exact SageRow.wT_of_transpose_slice (A4 m c) 2 2 rfl _ _ _
set_option maxHeartbeats 8000000 in
theorem W9_v92 : W9 m ρ c (Proc.devRef .tc main_v92) = SageRow.vrow (A5 m c) 2 := by
  show StableHlo.after hostOps2 (W8 m ρ c) (Proc.devRef .tc main_v92) = _
  after_results_simp
  rw [W8_arg5 m ρ c]
  exact SageRow.vrow_of_slice (A5 m c) 2 2 rfl _ _
set_option maxHeartbeats 8000000 in
theorem W9_v94 : W9 m ρ c (Proc.devRef .tc main_v94) = SageRow.vrow (A6 m c) 2 := by
  show StableHlo.after hostOps2 (W8 m ρ c) (Proc.devRef .tc main_v94) = _
  after_results_simp
  rw [W8_arg6 m ρ c]
  exact SageRow.vrow_of_slice (A6 m c) 2 2 rfl _ _
set_option maxHeartbeats 8000000 in
theorem W9_v11 : W9 m ρ c (Proc.devRef .tc main_v11) = srcK (A1 m c) := by
  show StableHlo.after hostOps2 (W8 m ρ c) (Proc.devRef .tc main_v11) = _
  after_results_simp
  rw [W8_v11 m ρ c]

set_option maxHeartbeats 8000000 in
theorem W9_v18 : W9 m ρ c (Proc.devRef .tc main_v18) = dstK (A1 m c) := by
  show StableHlo.after hostOps2 (W8 m ρ c) (Proc.devRef .tc main_v18) = _
  after_results_simp
  rw [W8_v18 m ρ c]

set_option maxHeartbeats 8000000 in
theorem W9_v28 : W9 m ρ c (Proc.devRef .tc main_v28) = invK (dstK (A1 m c)) := by
  show StableHlo.after hostOps2 (W8 m ρ c) (Proc.devRef .tc main_v28) = _
  after_results_simp
  rw [W8_v28 m ρ c]

set_option maxHeartbeats 8000000 in
theorem W9_v29 : W9 m ρ c (Proc.devRef .tc main_v29) = transpose S4x128x128 [0, 2, 1] (A2 m c) transposes_S4x128x128_S4x128x128_0_2_1 := by
  show StableHlo.after hostOps2 (W8 m ρ c) (Proc.devRef .tc main_v29) = _
  after_results_simp
  rw [W8_v29 m ρ c]

set_option maxHeartbeats 8000000 in
theorem W9_v30 : W9 m ρ c (Proc.devRef .tc main_v30) = transpose S4x128x128 [0, 2, 1] (A4 m c) transposes_S4x128x128_S4x128x128_0_2_1 := by
  show StableHlo.after hostOps2 (W8 m ρ c) (Proc.devRef .tc main_v30) = _
  after_results_simp
  rw [W8_v30 m ρ c]

set_option maxHeartbeats 8000000 in
theorem W9_arg3 : W9 m ρ c (Proc.devRef .tc main_arg3) = A3 m c := by
  show StableHlo.after hostOps2 (W8 m ρ c) (Proc.devRef .tc main_arg3) = _
  after_results_simp
  rw [W8_arg3 m ρ c]

set_option maxHeartbeats 8000000 in
theorem W9_arg5 : W9 m ρ c (Proc.devRef .tc main_arg5) = A5 m c := by
  show StableHlo.after hostOps2 (W8 m ρ c) (Proc.devRef .tc main_arg5) = _
  after_results_simp
  rw [W8_arg5 m ρ c]

set_option maxHeartbeats 8000000 in
theorem W9_arg6 : W9 m ρ c (Proc.devRef .tc main_arg6) = A6 m c := by
  show StableHlo.after hostOps2 (W8 m ρ c) (Proc.devRef .tc main_arg6) = _
  after_results_simp
  rw [W8_arg6 m ρ c]

/-! ## Region 2's output -/

/-- Region 2 leaves layer 2's output in its output buffer. -/
theorem W10_v95 : W10 m ρ c (Proc.devRef .tc main_v95) = kX3 (A0 m c) (A1 m c) (A2 m c) (A3 m c) (A4 m c) (A5 m c) (A6 m c) := by
  refine (W10_arr m ρ c 8).trans ((SageRegions.region2_array (V9 m ρ) c).trans ?_)
  show SageRow.layer (W9 m ρ c (Proc.devRef .tc main_v84)) (W9 m ρ c (Proc.devRef .tc main_v28)) (W9 m ρ c (Proc.devRef .tc main_v73)) (W9 m ρ c (Proc.devRef .tc main_v86))
    (W9 m ρ c (Proc.devRef .tc main_v88)) (W9 m ρ c (Proc.devRef .tc main_v90)) (W9 m ρ c (Proc.devRef .tc main_v92)) (W9 m ρ c (Proc.devRef .tc main_v94)) = _
  rw [W9_v84 m ρ c, W9_v28 m ρ c, W9_v73 m ρ c, W9_v86 m ρ c, W9_v88 m ρ c, W9_v90 m ρ c, W9_v92 m ρ c, W9_v94 m ρ c]
  rfl
theorem W10_v11 : W10 m ρ c (Proc.devRef .tc main_v11) = srcK (A1 m c) :=
  (W10_of_ne m ρ c main_v11 (by decide)).trans (W9_v11 m ρ c)
theorem W10_v18 : W10 m ρ c (Proc.devRef .tc main_v18) = dstK (A1 m c) :=
  (W10_of_ne m ρ c main_v18 (by decide)).trans (W9_v18 m ρ c)
theorem W10_v28 : W10 m ρ c (Proc.devRef .tc main_v28) = invK (dstK (A1 m c)) :=
  ((W10_arr m ρ c 1).trans (((dat2 (V9 m ρ) c).arrAt_in 1 rfl _).trans (A_eq2 (V9 m ρ) c 1))).trans (W9_v28 m ρ c)
theorem W10_v29 : W10 m ρ c (Proc.devRef .tc main_v29) = transpose S4x128x128 [0, 2, 1] (A2 m c) transposes_S4x128x128_S4x128x128_0_2_1 :=
  (W10_of_ne m ρ c main_v29 (by decide)).trans (W9_v29 m ρ c)
theorem W10_v30 : W10 m ρ c (Proc.devRef .tc main_v30) = transpose S4x128x128 [0, 2, 1] (A4 m c) transposes_S4x128x128_S4x128x128_0_2_1 :=
  (W10_of_ne m ρ c main_v30 (by decide)).trans (W9_v30 m ρ c)
theorem W10_arg3 : W10 m ρ c (Proc.devRef .tc main_arg3) = A3 m c :=
  (W10_of_ne m ρ c main_arg3 (by decide)).trans (W9_arg3 m ρ c)
theorem W10_arg5 : W10 m ρ c (Proc.devRef .tc main_arg5) = A5 m c :=
  (W10_of_ne m ρ c main_arg5 (by decide)).trans (W9_arg5 m ρ c)
theorem W10_arg6 : W10 m ρ c (Proc.devRef .tc main_arg6) = A6 m c :=
  (W10_of_ne m ρ c main_arg6 (by decide)).trans (W9_arg6 m ρ c)

/-! ## At region 3's entry -/
set_option maxHeartbeats 8000000 in
theorem W11_v106 : W11 m ρ c (Proc.devRef .tc main_v106) = segsum (φ := .bf16) (kX3 (A0 m c) (A1 m c) (A2 m c) (A3 m c) (A4 m c) (A5 m c) (A6 m c)) (srcK (A1 m c)) (dstK (A1 m c)) := by
  show StableHlo.after hostOps3 (W10 m ρ c) (Proc.devRef .tc main_v106) = _
  after_results_simp
  rw [W10_v18 m ρ c, W10_v95 m ρ c, W10_v11 m ρ c]
  rfl
set_option maxHeartbeats 8000000 in
theorem W11_v95 : W11 m ρ c (Proc.devRef .tc main_v95) = kX3 (A0 m c) (A1 m c) (A2 m c) (A3 m c) (A4 m c) (A5 m c) (A6 m c) := by
  show StableHlo.after hostOps3 (W10 m ρ c) (Proc.devRef .tc main_v95) = _
  after_results_simp
  rw [W10_v95 m ρ c]

set_option maxHeartbeats 8000000 in
theorem W11_v108 : W11 m ρ c (Proc.devRef .tc main_v108) = SageRow.wT (A2 m c) 3 := by
  show StableHlo.after hostOps3 (W10 m ρ c) (Proc.devRef .tc main_v108) = _
  after_results_simp
  rw [W10_v29 m ρ c]
  exact SageRow.wT_of_transpose_slice (A2 m c) 3 3 rfl _ _ _
set_option maxHeartbeats 8000000 in
theorem W11_v110 : W11 m ρ c (Proc.devRef .tc main_v110) = SageRow.vrow (A3 m c) 3 := by
  show StableHlo.after hostOps3 (W10 m ρ c) (Proc.devRef .tc main_v110) = _
  after_results_simp
  rw [W10_arg3 m ρ c]
  exact SageRow.vrow_of_slice (A3 m c) 3 3 rfl _ _
set_option maxHeartbeats 8000000 in
theorem W11_v112 : W11 m ρ c (Proc.devRef .tc main_v112) = SageRow.wT (A4 m c) 3 := by
  show StableHlo.after hostOps3 (W10 m ρ c) (Proc.devRef .tc main_v112) = _
  after_results_simp
  rw [W10_v30 m ρ c]
  exact SageRow.wT_of_transpose_slice (A4 m c) 3 3 rfl _ _ _
set_option maxHeartbeats 8000000 in
theorem W11_v114 : W11 m ρ c (Proc.devRef .tc main_v114) = SageRow.vrow (A5 m c) 3 := by
  show StableHlo.after hostOps3 (W10 m ρ c) (Proc.devRef .tc main_v114) = _
  after_results_simp
  rw [W10_arg5 m ρ c]
  exact SageRow.vrow_of_slice (A5 m c) 3 3 rfl _ _
set_option maxHeartbeats 8000000 in
theorem W11_v116 : W11 m ρ c (Proc.devRef .tc main_v116) = SageRow.vrow (A6 m c) 3 := by
  show StableHlo.after hostOps3 (W10 m ρ c) (Proc.devRef .tc main_v116) = _
  after_results_simp
  rw [W10_arg6 m ρ c]
  exact SageRow.vrow_of_slice (A6 m c) 3 3 rfl _ _
set_option maxHeartbeats 8000000 in
theorem W11_v11 : W11 m ρ c (Proc.devRef .tc main_v11) = srcK (A1 m c) := by
  show StableHlo.after hostOps3 (W10 m ρ c) (Proc.devRef .tc main_v11) = _
  after_results_simp
  rw [W10_v11 m ρ c]

set_option maxHeartbeats 8000000 in
theorem W11_v18 : W11 m ρ c (Proc.devRef .tc main_v18) = dstK (A1 m c) := by
  show StableHlo.after hostOps3 (W10 m ρ c) (Proc.devRef .tc main_v18) = _
  after_results_simp
  rw [W10_v18 m ρ c]

set_option maxHeartbeats 8000000 in
theorem W11_v28 : W11 m ρ c (Proc.devRef .tc main_v28) = invK (dstK (A1 m c)) := by
  show StableHlo.after hostOps3 (W10 m ρ c) (Proc.devRef .tc main_v28) = _
  after_results_simp
  rw [W10_v28 m ρ c]

set_option maxHeartbeats 8000000 in
theorem W11_v29 : W11 m ρ c (Proc.devRef .tc main_v29) = transpose S4x128x128 [0, 2, 1] (A2 m c) transposes_S4x128x128_S4x128x128_0_2_1 := by
  show StableHlo.after hostOps3 (W10 m ρ c) (Proc.devRef .tc main_v29) = _
  after_results_simp
  rw [W10_v29 m ρ c]

set_option maxHeartbeats 8000000 in
theorem W11_v30 : W11 m ρ c (Proc.devRef .tc main_v30) = transpose S4x128x128 [0, 2, 1] (A4 m c) transposes_S4x128x128_S4x128x128_0_2_1 := by
  show StableHlo.after hostOps3 (W10 m ρ c) (Proc.devRef .tc main_v30) = _
  after_results_simp
  rw [W10_v30 m ρ c]

set_option maxHeartbeats 8000000 in
theorem W11_arg3 : W11 m ρ c (Proc.devRef .tc main_arg3) = A3 m c := by
  show StableHlo.after hostOps3 (W10 m ρ c) (Proc.devRef .tc main_arg3) = _
  after_results_simp
  rw [W10_arg3 m ρ c]

set_option maxHeartbeats 8000000 in
theorem W11_arg5 : W11 m ρ c (Proc.devRef .tc main_arg5) = A5 m c := by
  show StableHlo.after hostOps3 (W10 m ρ c) (Proc.devRef .tc main_arg5) = _
  after_results_simp
  rw [W10_arg5 m ρ c]

set_option maxHeartbeats 8000000 in
theorem W11_arg6 : W11 m ρ c (Proc.devRef .tc main_arg6) = A6 m c := by
  show StableHlo.after hostOps3 (W10 m ρ c) (Proc.devRef .tc main_arg6) = _
  after_results_simp
  rw [W10_arg6 m ρ c]

/-! ## Region 3's output -/

/-- Region 3 leaves layer 3's output in its output buffer. -/
theorem W12_v117 : W12 m ρ c (Proc.devRef .tc main_v117) = kX4 (A0 m c) (A1 m c) (A2 m c) (A3 m c) (A4 m c) (A5 m c) (A6 m c) := by
  refine (W12_arr m ρ c 8).trans ((SageRegions.region3_array (V11 m ρ) c).trans ?_)
  show SageRow.layer (W11 m ρ c (Proc.devRef .tc main_v106)) (W11 m ρ c (Proc.devRef .tc main_v28)) (W11 m ρ c (Proc.devRef .tc main_v95)) (W11 m ρ c (Proc.devRef .tc main_v108))
    (W11 m ρ c (Proc.devRef .tc main_v110)) (W11 m ρ c (Proc.devRef .tc main_v112)) (W11 m ρ c (Proc.devRef .tc main_v114)) (W11 m ρ c (Proc.devRef .tc main_v116)) = _
  rw [W11_v106 m ρ c, W11_v28 m ρ c, W11_v95 m ρ c, W11_v108 m ρ c, W11_v110 m ρ c, W11_v112 m ρ c, W11_v114 m ρ c, W11_v116 m ρ c]
  rfl

/-- THE RESULT: the result buffer after the last region is the fourth layer's output. -/
theorem result_eq : W12 m ρ c (Proc.devRef .tc main_v117) = kX4 (A0 m c) (A1 m c) (A2 m c) (A3 m c) (A4 m c) (A5 m c) (A6 m c) := W12_v117 m ρ c

end Cert.KernelIdeal.SageValue

end
-- ==== Proof.RefValue.lean ====
/-
  The reference program's run, ending at the fourth layer's output.

  The reference is a straight line of 281 array operations. What its result buffer holds at the end is the fold of those
  operations over the contents at launch. Folding the line one stretch at a time — the 21 operations that prepare the two
  index rows and the reciprocal in-degrees, then the 65 operations of each of the four layers — each stretch, from ANY
  contents that hold the right arrays at the buffers it reads from outside itself, leaves at its last buffer the array
  that the reading of the program names for it; and it leaves alone the buffers later stretches still read (the seven
  arguments, the two index rows, the reciprocal in-degree column). Chained, the result buffer holds the fourth layer's
  output as a function of the seven arguments.
-/
import proofs.«124728_j12704513261865_2_alg».proof.Proof.RefRunOps
import proofs.«124728_j12704513261865_2_alg».proof.Proof.RefRead

noncomputable section

namespace Cert.ReferenceIdeal.SageRefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable (V : Valuation τ sig (Elt Ideal))
  (x0 : (⟨S100000x128, .f32⟩ : BufTy).Contents (Elt Ideal)) (x1 : (⟨S2x1600000, .i32⟩ : BufTy).Contents (Elt Ideal))
  (x2 : (⟨S4x128x128, .f32⟩ : BufTy).Contents (Elt Ideal)) (x3 : (⟨S4x128, .f32⟩ : BufTy).Contents (Elt Ideal))
  (x4 : (⟨S4x128x128, .f32⟩ : BufTy).Contents (Elt Ideal)) (x5 x6 : (⟨S4x128, .f32⟩ : BufTy).Contents (Elt Ideal))

/-! ## Typed references at literal buffers carry their contents unchanged -/

/-- Contents moved to a typed reference's buffer and back are the contents. -/
theorem ofBuf_toBuf {T : BufTy} (x : TRef sig T) (v : T.Contents (Elt Ideal)) : x.ofBuf (x.toBuf v) = v := by
  obtain ⟨r, h, h2, h3⟩ := x
  subst h
  rfl

/-- … and at a literal buffer of the right type each move is the identity. -/
theorem toBuf_v12 (h1 : main_v12.ty = ⟨S100000, .f32⟩) (h2 : main_v12.space ≠ .host) (h3 : main_v12.isScoped = false)
    (v : (⟨S100000, .f32⟩ : BufTy).Contents (Elt Ideal)) :
    (TRef.of (sig := sig) (T := ⟨S100000, .f32⟩) main_v12 h1 h2 h3).toBuf v = v := rfl

theorem ofBuf_v9 (h1 : main_v9.ty = ⟨S100000, .i1⟩) (h2 : main_v9.space ≠ .host) (h3 : main_v9.isScoped = false)
    (v : (⟨S100000, .i1⟩ : BufTy).Contents (Elt Ideal)) :
    (TRef.of (sig := sig) (T := ⟨S100000, .i1⟩) main_v9 h1 h2 h3).ofBuf v = v := rfl

theorem ofBuf_v11 (h1 : main_v11.ty = ⟨S100000, .f32⟩) (h2 : main_v11.space ≠ .host) (h3 : main_v11.isScoped = false)
    (v : (⟨S100000, .f32⟩ : BufTy).Contents (Elt Ideal)) :
    (TRef.of (sig := sig) (T := ⟨S100000, .f32⟩) main_v11 h1 h2 h3).ofBuf v = v := rfl

theorem ofBuf_cst_3 (h1 : main_cst_3.ty = ⟨S_, .f32⟩) (h2 : main_cst_3.space ≠ .host) (h3 : main_cst_3.isScoped = false)
    (v : (⟨S_, .f32⟩ : BufTy).Contents (Elt Ideal)) :
    (TRef.of (sig := sig) (T := ⟨S_, .f32⟩) main_cst_3 h1 h2 h3).ofBuf v = v := rfl

theorem toBuf_v68 (h1 : main_v68.ty = ⟨S100000x128, .f32⟩) (h2 : main_v68.space ≠ .host) (h3 : main_v68.isScoped = false)
    (v : (⟨S100000x128, .f32⟩ : BufTy).Contents (Elt Ideal)) :
    (TRef.of (sig := sig) (T := ⟨S100000x128, .f32⟩) main_v68 h1 h2 h3).toBuf v = v := rfl

theorem ofBuf_v67 (h1 : main_v67.ty = ⟨S100000x128, .f32⟩) (h2 : main_v67.space ≠ .host) (h3 : main_v67.isScoped = false)
    (v : (⟨S100000x128, .f32⟩ : BufTy).Contents (Elt Ideal)) :
    (TRef.of (sig := sig) (T := ⟨S100000x128, .f32⟩) main_v67 h1 h2 h3).ofBuf v = v := rfl

theorem toBuf_v123 (h1 : main_v123.ty = ⟨S100000x128, .f32⟩) (h2 : main_v123.space ≠ .host) (h3 : main_v123.isScoped = false)
    (v : (⟨S100000x128, .f32⟩ : BufTy).Contents (Elt Ideal)) :
    (TRef.of (sig := sig) (T := ⟨S100000x128, .f32⟩) main_v123 h1 h2 h3).toBuf v = v := rfl

theorem ofBuf_v122 (h1 : main_v122.ty = ⟨S100000x128, .f32⟩) (h2 : main_v122.space ≠ .host) (h3 : main_v122.isScoped = false)
    (v : (⟨S100000x128, .f32⟩ : BufTy).Contents (Elt Ideal)) :
    (TRef.of (sig := sig) (T := ⟨S100000x128, .f32⟩) main_v122 h1 h2 h3).ofBuf v = v := rfl

theorem toBuf_v178 (h1 : main_v178.ty = ⟨S100000x128, .f32⟩) (h2 : main_v178.space ≠ .host) (h3 : main_v178.isScoped = false)
    (v : (⟨S100000x128, .f32⟩ : BufTy).Contents (Elt Ideal)) :
    (TRef.of (sig := sig) (T := ⟨S100000x128, .f32⟩) main_v178 h1 h2 h3).toBuf v = v := rfl

theorem ofBuf_v177 (h1 : main_v177.ty = ⟨S100000x128, .f32⟩) (h2 : main_v177.space ≠ .host) (h3 : main_v177.isScoped = false)
    (v : (⟨S100000x128, .f32⟩ : BufTy).Contents (Elt Ideal)) :
    (TRef.of (sig := sig) (T := ⟨S100000x128, .f32⟩) main_v177 h1 h2 h3).ofBuf v = v := rfl

theorem toBuf_v233 (h1 : main_v233.ty = ⟨S100000x128, .f32⟩) (h2 : main_v233.space ≠ .host) (h3 : main_v233.isScoped = false)
    (v : (⟨S100000x128, .f32⟩ : BufTy).Contents (Elt Ideal)) :
    (TRef.of (sig := sig) (T := ⟨S100000x128, .f32⟩) main_v233 h1 h2 h3).toBuf v = v := rfl

theorem ofBuf_v232 (h1 : main_v232.ty = ⟨S100000x128, .f32⟩) (h2 : main_v232.space ≠ .host) (h3 : main_v232.isScoped = false)
    (v : (⟨S100000x128, .f32⟩ : BufTy).Contents (Elt Ideal)) :
    (TRef.of (sig := sig) (T := ⟨S100000x128, .f32⟩) main_v232 h1 h2 h3).ofBuf v = v := rfl

/-! ## The stretch before the first layer -/

set_option maxRecDepth 8192 in
set_option maxHeartbeats 4000000 in
/-- After the first stretch the first index row is the first row of the edge array, flattened … -/
theorem stretchP_v1 (h1 : V (Proc.devRef .tc main_arg1) = x1) :
    after (opsP (F := Ideal)) V (Proc.devRef .tc main_v1) = val_main_v1 (F := Ideal) x1 := by
  after_results_simp
  rw [h1]
  rfl

set_option maxRecDepth 8192 in
set_option maxHeartbeats 4000000 in
/-- … the second index row is its second row … -/
theorem stretchP_v3 (h1 : V (Proc.devRef .tc main_arg1) = x1) :
    after (opsP (F := Ideal)) V (Proc.devRef .tc main_v3) = val_main_v3 (F := Ideal) x1 := by
  after_results_simp
  rw [h1]
  rfl

set_option maxRecDepth 8192 in
set_option maxHeartbeats 4000000 in
/-- … and the reciprocal in-degree column is the one the reading names (the inlined select goes through typed
    references, which at literal buffers move nothing). -/
theorem stretchP_v13 (h1 : V (Proc.devRef .tc main_arg1) = x1) :
    after (opsP (F := Ideal)) V (Proc.devRef .tc main_v13) = val_main_v13 (F := Ideal) x1 := by
  after_results_simp
  rw [h1]
  rw [toBuf_v12, ofBuf_v9, ofBuf_v11, ofBuf_toBuf, ofBuf_toBuf, ofBuf_cst_3]
  rfl

/-! The first stretch writes none of the arguments. -/

set_option maxRecDepth 8192 in
set_option maxHeartbeats 4000000 in
theorem keepP_arg0 :
    after (opsP (F := Ideal)) V (Proc.devRef .tc main_arg0) = V (Proc.devRef .tc main_arg0) := by
  after_results_simp

set_option maxRecDepth 8192 in
set_option maxHeartbeats 4000000 in
theorem keepP_arg1 :
    after (opsP (F := Ideal)) V (Proc.devRef .tc main_arg1) = V (Proc.devRef .tc main_arg1) := by
  after_results_simp

set_option maxRecDepth 8192 in
set_option maxHeartbeats 4000000 in
theorem keepP_arg2 :
    after (opsP (F := Ideal)) V (Proc.devRef .tc main_arg2) = V (Proc.devRef .tc main_arg2) := by
  after_results_simp

set_option maxRecDepth 8192 in
set_option maxHeartbeats 4000000 in
theorem keepP_arg3 :
    after (opsP (F := Ideal)) V (Proc.devRef .tc main_arg3) = V (Proc.devRef .tc main_arg3) := by
  after_results_simp

set_option maxRecDepth 8192 in
set_option maxHeartbeats 4000000 in
theorem keepP_arg4 :
    after (opsP (F := Ideal)) V (Proc.devRef .tc main_arg4) = V (Proc.devRef .tc main_arg4) := by
  after_results_simp

set_option maxRecDepth 8192 in
set_option maxHeartbeats 4000000 in
theorem keepP_arg5 :
    after (opsP (F := Ideal)) V (Proc.devRef .tc main_arg5) = V (Proc.devRef .tc main_arg5) := by
  after_results_simp

set_option maxRecDepth 8192 in
set_option maxHeartbeats 4000000 in
theorem keepP_arg6 :
    after (opsP (F := Ideal)) V (Proc.devRef .tc main_arg6) = V (Proc.devRef .tc main_arg6) := by
  after_results_simp

/-! ## Layer 0 -/

set_option maxRecDepth 8192 in
set_option maxHeartbeats 4000000 in
/-- From any contents holding the arguments, the two index rows, the reciprocal in-degree column, the first
    layer's 65 operations leave that layer's output at its buffer. -/
theorem stretchL0 (h0 : V (Proc.devRef .tc main_arg0) = x0)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (hv1 : V (Proc.devRef .tc main_v1) = val_main_v1 (F := Ideal) x1)
    (hv3 : V (Proc.devRef .tc main_v3) = val_main_v3 (F := Ideal) x1)
    (hv13 : V (Proc.devRef .tc main_v13) = val_main_v13 (F := Ideal) x1) :
    after (opsL0 (F := Ideal)) V (Proc.devRef .tc main_v68) = val_main_v68 (F := Ideal) x0 x1 x2 x3 x4 x5 x6 := by
  after_results_simp
  rw [h0, h2, h3, h4, h5, h6, hv1, hv3, hv13]
  rw [toBuf_v68, ofBuf_v67, ofBuf_toBuf, ofBuf_toBuf]
  rfl

/-! The first layer's operations write none of the arguments, index rows or the reciprocal in-degree column. -/

set_option maxRecDepth 8192 in
set_option maxHeartbeats 4000000 in
theorem keepL0_arg0 :
    after (opsL0 (F := Ideal)) V (Proc.devRef .tc main_arg0) = V (Proc.devRef .tc main_arg0) := by
  after_results_simp

set_option maxRecDepth 8192 in
set_option maxHeartbeats 4000000 in
theorem keepL0_arg1 :
    after (opsL0 (F := Ideal)) V (Proc.devRef .tc main_arg1) = V (Proc.devRef .tc main_arg1) := by
  after_results_simp

set_option maxRecDepth 8192 in
set_option maxHeartbeats 4000000 in
theorem keepL0_arg2 :
    after (opsL0 (F := Ideal)) V (Proc.devRef .tc main_arg2) = V (Proc.devRef .tc main_arg2) := by
  after_results_simp

set_option maxRecDepth 8192 in
set_option maxHeartbeats 4000000 in
theorem keepL0_arg3 :
    after (opsL0 (F := Ideal)) V (Proc.devRef .tc main_arg3) = V (Proc.devRef .tc main_arg3) := by
  after_results_simp

set_option maxRecDepth 8192 in
set_option maxHeartbeats 4000000 in
theorem keepL0_arg4 :
    after (opsL0 (F := Ideal)) V (Proc.devRef .tc main_arg4) = V (Proc.devRef .tc main_arg4) := by
  after_results_simp

set_option maxRecDepth 8192 in
set_option maxHeartbeats 4000000 in
theorem keepL0_arg5 :
    after (opsL0 (F := Ideal)) V (Proc.devRef .tc main_arg5) = V (Proc.devRef .tc main_arg5) := by
  after_results_simp

set_option maxRecDepth 8192 in
set_option maxHeartbeats 4000000 in
theorem keepL0_arg6 :
    after (opsL0 (F := Ideal)) V (Proc.devRef .tc main_arg6) = V (Proc.devRef .tc main_arg6) := by
  after_results_simp

set_option maxRecDepth 8192 in
set_option maxHeartbeats 4000000 in
theorem keepL0_v1 :
    after (opsL0 (F := Ideal)) V (Proc.devRef .tc main_v1) = V (Proc.devRef .tc main_v1) := by
  after_results_simp

set_option maxRecDepth 8192 in
set_option maxHeartbeats 4000000 in
theorem keepL0_v3 :
    after (opsL0 (F := Ideal)) V (Proc.devRef .tc main_v3) = V (Proc.devRef .tc main_v3) := by
  after_results_simp

set_option maxRecDepth 8192 in
set_option maxHeartbeats 4000000 in
theorem keepL0_v13 :
    after (opsL0 (F := Ideal)) V (Proc.devRef .tc main_v13) = V (Proc.devRef .tc main_v13) := by
  after_results_simp

/-! ## Layer 1 -/

set_option maxRecDepth 8192 in
set_option maxHeartbeats 4000000 in
/-- From any contents holding the arguments, the two index rows, the reciprocal in-degree column and the previous layer's output, the second
    layer's 65 operations leave that layer's output at its buffer. -/
theorem stretchL1 (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (hv1 : V (Proc.devRef .tc main_v1) = val_main_v1 (F := Ideal) x1)
    (hv3 : V (Proc.devRef .tc main_v3) = val_main_v3 (F := Ideal) x1)
    (hv13 : V (Proc.devRef .tc main_v13) = val_main_v13 (F := Ideal) x1)
    (hprev : V (Proc.devRef .tc main_v68) = val_main_v68 (F := Ideal) x0 x1 x2 x3 x4 x5 x6) :
    after (opsL1 (F := Ideal)) V (Proc.devRef .tc main_v123) = val_main_v123 (F := Ideal) x0 x1 x2 x3 x4 x5 x6 := by
  after_results_simp
  rw [h2, h3, h4, h5, h6, hv1, hv3, hv13, hprev]
  rw [toBuf_v123, ofBuf_v122, ofBuf_toBuf, ofBuf_toBuf]
  rfl

/-! The second layer's operations write none of the arguments, index rows or the reciprocal in-degree column. -/

set_option maxRecDepth 8192 in
set_option maxHeartbeats 4000000 in
theorem keepL1_arg0 :
    after (opsL1 (F := Ideal)) V (Proc.devRef .tc main_arg0) = V (Proc.devRef .tc main_arg0) := by
  after_results_simp

set_option maxRecDepth 8192 in
set_option maxHeartbeats 4000000 in
theorem keepL1_arg1 :
    after (opsL1 (F := Ideal)) V (Proc.devRef .tc main_arg1) = V (Proc.devRef .tc main_arg1) := by
  after_results_simp

set_option maxRecDepth 8192 in
set_option maxHeartbeats 4000000 in
theorem keepL1_arg2 :
    after (opsL1 (F := Ideal)) V (Proc.devRef .tc main_arg2) = V (Proc.devRef .tc main_arg2) := by
  after_results_simp

set_option maxRecDepth 8192 in
set_option maxHeartbeats 4000000 in
theorem keepL1_arg3 :
    after (opsL1 (F := Ideal)) V (Proc.devRef .tc main_arg3) = V (Proc.devRef .tc main_arg3) := by
  after_results_simp

set_option maxRecDepth 8192 in
set_option maxHeartbeats 4000000 in
theorem keepL1_arg4 :
    after (opsL1 (F := Ideal)) V (Proc.devRef .tc main_arg4) = V (Proc.devRef .tc main_arg4) := by
  after_results_simp

set_option maxRecDepth 8192 in
set_option maxHeartbeats 4000000 in
theorem keepL1_arg5 :
    after (opsL1 (F := Ideal)) V (Proc.devRef .tc main_arg5) = V (Proc.devRef .tc main_arg5) := by
  after_results_simp

set_option maxRecDepth 8192 in
set_option maxHeartbeats 4000000 in
theorem keepL1_arg6 :
    after (opsL1 (F := Ideal)) V (Proc.devRef .tc main_arg6) = V (Proc.devRef .tc main_arg6) := by
  after_results_simp

set_option maxRecDepth 8192 in
set_option maxHeartbeats 4000000 in
theorem keepL1_v1 :
    after (opsL1 (F := Ideal)) V (Proc.devRef .tc main_v1) = V (Proc.devRef .tc main_v1) := by
  after_results_simp

set_option maxRecDepth 8192 in
set_option maxHeartbeats 4000000 in
theorem keepL1_v3 :
    after (opsL1 (F := Ideal)) V (Proc.devRef .tc main_v3) = V (Proc.devRef .tc main_v3) := by
  after_results_simp

set_option maxRecDepth 8192 in
set_option maxHeartbeats 4000000 in
theorem keepL1_v13 :
    after (opsL1 (F := Ideal)) V (Proc.devRef .tc main_v13) = V (Proc.devRef .tc main_v13) := by
  after_results_simp

/-! ## Layer 2 -/

set_option maxRecDepth 8192 in
set_option maxHeartbeats 4000000 in
/-- From any contents holding the arguments, the two index rows, the reciprocal in-degree column and the previous layer's output, the third
    layer's 65 operations leave that layer's output at its buffer. -/
theorem stretchL2 (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (hv1 : V (Proc.devRef .tc main_v1) = val_main_v1 (F := Ideal) x1)
    (hv3 : V (Proc.devRef .tc main_v3) = val_main_v3 (F := Ideal) x1)
    (hv13 : V (Proc.devRef .tc main_v13) = val_main_v13 (F := Ideal) x1)
    (hprev : V (Proc.devRef .tc main_v123) = val_main_v123 (F := Ideal) x0 x1 x2 x3 x4 x5 x6) :
    after (opsL2 (F := Ideal)) V (Proc.devRef .tc main_v178) = val_main_v178 (F := Ideal) x0 x1 x2 x3 x4 x5 x6 := by
  after_results_simp
  rw [h2, h3, h4, h5, h6, hv1, hv3, hv13, hprev]
  rw [toBuf_v178, ofBuf_v177, ofBuf_toBuf, ofBuf_toBuf]
  rfl

/-! The third layer's operations write none of the arguments, index rows or the reciprocal in-degree column. -/

set_option maxRecDepth 8192 in
set_option maxHeartbeats 4000000 in
theorem keepL2_arg0 :
    after (opsL2 (F := Ideal)) V (Proc.devRef .tc main_arg0) = V (Proc.devRef .tc main_arg0) := by
  after_results_simp

set_option maxRecDepth 8192 in
set_option maxHeartbeats 4000000 in
theorem keepL2_arg1 :
    after (opsL2 (F := Ideal)) V (Proc.devRef .tc main_arg1) = V (Proc.devRef .tc main_arg1) := by
  after_results_simp

set_option maxRecDepth 8192 in
set_option maxHeartbeats 4000000 in
theorem keepL2_arg2 :
    after (opsL2 (F := Ideal)) V (Proc.devRef .tc main_arg2) = V (Proc.devRef .tc main_arg2) := by
  after_results_simp

set_option maxRecDepth 8192 in
set_option maxHeartbeats 4000000 in
theorem keepL2_arg3 :
    after (opsL2 (F := Ideal)) V (Proc.devRef .tc main_arg3) = V (Proc.devRef .tc main_arg3) := by
  after_results_simp

set_option maxRecDepth 8192 in
set_option maxHeartbeats 4000000 in
theorem keepL2_arg4 :
    after (opsL2 (F := Ideal)) V (Proc.devRef .tc main_arg4) = V (Proc.devRef .tc main_arg4) := by
  after_results_simp

set_option maxRecDepth 8192 in
set_option maxHeartbeats 4000000 in
theorem keepL2_arg5 :
    after (opsL2 (F := Ideal)) V (Proc.devRef .tc main_arg5) = V (Proc.devRef .tc main_arg5) := by
  after_results_simp

set_option maxRecDepth 8192 in
set_option maxHeartbeats 4000000 in
theorem keepL2_arg6 :
    after (opsL2 (F := Ideal)) V (Proc.devRef .tc main_arg6) = V (Proc.devRef .tc main_arg6) := by
  after_results_simp

set_option maxRecDepth 8192 in
set_option maxHeartbeats 4000000 in
theorem keepL2_v1 :
    after (opsL2 (F := Ideal)) V (Proc.devRef .tc main_v1) = V (Proc.devRef .tc main_v1) := by
  after_results_simp

set_option maxRecDepth 8192 in
set_option maxHeartbeats 4000000 in
theorem keepL2_v3 :
    after (opsL2 (F := Ideal)) V (Proc.devRef .tc main_v3) = V (Proc.devRef .tc main_v3) := by
  after_results_simp

set_option maxRecDepth 8192 in
set_option maxHeartbeats 4000000 in
theorem keepL2_v13 :
    after (opsL2 (F := Ideal)) V (Proc.devRef .tc main_v13) = V (Proc.devRef .tc main_v13) := by
  after_results_simp

/-! ## Layer 3 -/

set_option maxRecDepth 8192 in
set_option maxHeartbeats 4000000 in
/-- From any contents holding the arguments, the two index rows, the reciprocal in-degree column and the previous layer's output, the fourth
    layer's 65 operations leave that layer's output at its buffer. -/
theorem stretchL3 (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (hv1 : V (Proc.devRef .tc main_v1) = val_main_v1 (F := Ideal) x1)
    (hv3 : V (Proc.devRef .tc main_v3) = val_main_v3 (F := Ideal) x1)
    (hv13 : V (Proc.devRef .tc main_v13) = val_main_v13 (F := Ideal) x1)
    (hprev : V (Proc.devRef .tc main_v178) = val_main_v178 (F := Ideal) x0 x1 x2 x3 x4 x5 x6) :
    after (opsL3 (F := Ideal)) V (Proc.devRef .tc main_v233) = val_main_v233 (F := Ideal) x0 x1 x2 x3 x4 x5 x6 := by
  after_results_simp
  rw [h2, h3, h4, h5, h6, hv1, hv3, hv13, hprev]
  rw [toBuf_v233, ofBuf_v232, ofBuf_toBuf, ofBuf_toBuf]
  rfl

/-! The fourth layer's operations write none of the arguments, index rows or the reciprocal in-degree column. -/

set_option maxRecDepth 8192 in
set_option maxHeartbeats 4000000 in
theorem keepL3_arg0 :
    after (opsL3 (F := Ideal)) V (Proc.devRef .tc main_arg0) = V (Proc.devRef .tc main_arg0) := by
  after_results_simp

set_option maxRecDepth 8192 in
set_option maxHeartbeats 4000000 in
theorem keepL3_arg1 :
    after (opsL3 (F := Ideal)) V (Proc.devRef .tc main_arg1) = V (Proc.devRef .tc main_arg1) := by
  after_results_simp

set_option maxRecDepth 8192 in
set_option maxHeartbeats 4000000 in
theorem keepL3_arg2 :
    after (opsL3 (F := Ideal)) V (Proc.devRef .tc main_arg2) = V (Proc.devRef .tc main_arg2) := by
  after_results_simp

set_option maxRecDepth 8192 in
set_option maxHeartbeats 4000000 in
theorem keepL3_arg3 :
    after (opsL3 (F := Ideal)) V (Proc.devRef .tc main_arg3) = V (Proc.devRef .tc main_arg3) := by
  after_results_simp

set_option maxRecDepth 8192 in
set_option maxHeartbeats 4000000 in
theorem keepL3_arg4 :
    after (opsL3 (F := Ideal)) V (Proc.devRef .tc main_arg4) = V (Proc.devRef .tc main_arg4) := by
  after_results_simp

set_option maxRecDepth 8192 in
set_option maxHeartbeats 4000000 in
theorem keepL3_arg5 :
    after (opsL3 (F := Ideal)) V (Proc.devRef .tc main_arg5) = V (Proc.devRef .tc main_arg5) := by
  after_results_simp

set_option maxRecDepth 8192 in
set_option maxHeartbeats 4000000 in
theorem keepL3_arg6 :
    after (opsL3 (F := Ideal)) V (Proc.devRef .tc main_arg6) = V (Proc.devRef .tc main_arg6) := by
  after_results_simp

set_option maxRecDepth 8192 in
set_option maxHeartbeats 4000000 in
theorem keepL3_v1 :
    after (opsL3 (F := Ideal)) V (Proc.devRef .tc main_v1) = V (Proc.devRef .tc main_v1) := by
  after_results_simp

set_option maxRecDepth 8192 in
set_option maxHeartbeats 4000000 in
theorem keepL3_v3 :
    after (opsL3 (F := Ideal)) V (Proc.devRef .tc main_v3) = V (Proc.devRef .tc main_v3) := by
  after_results_simp

set_option maxRecDepth 8192 in
set_option maxHeartbeats 4000000 in
theorem keepL3_v13 :
    after (opsL3 (F := Ideal)) V (Proc.devRef .tc main_v13) = V (Proc.devRef .tc main_v13) := by
  after_results_simp

/-! ## The whole line -/

/-- THE RESULT BUFFER AFTER THE WHOLE LINE, from the contents at launch: the fourth layer's output as a function of the seven
    arguments. The line is folded one stretch at a time; each stretch finds what it reads where the earlier ones left it. -/
theorem result_eq (m : (ℓ : Loc nD τ sig) → Buf (Elt Ideal) ℓ) (c : Dev nD) :
    after (ops (F := Ideal)) (launchContents m c) (Proc.devRef .tc main_v233)
      = val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [ops_split, after_append, after_append, after_append, after_append]
  have p1 := stretchP_v1 (launchContents m c) (m ((c.tc : Thread nD τ).loc main_arg1)) rfl
  have p3 := stretchP_v3 (launchContents m c) (m ((c.tc : Thread nD τ).loc main_arg1)) rfl
  have p13 := stretchP_v13 (launchContents m c) (m ((c.tc : Thread nD τ).loc main_arg1)) rfl
  have q0 := stretchL0 (after (opsP (F := Ideal)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ((keepP_arg0 _).trans rfl)
    ((keepP_arg2 _).trans rfl)
    ((keepP_arg3 _).trans rfl)
    ((keepP_arg4 _).trans rfl)
    ((keepP_arg5 _).trans rfl)
    ((keepP_arg6 _).trans rfl)
    p1
    p3
    p13
  have q1 := stretchL1 (after (opsL0 (F := Ideal)) (after (opsP (F := Ideal)) (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ((keepL0_arg2 _).trans ((keepP_arg2 _).trans rfl))
    ((keepL0_arg3 _).trans ((keepP_arg3 _).trans rfl))
    ((keepL0_arg4 _).trans ((keepP_arg4 _).trans rfl))
    ((keepL0_arg5 _).trans ((keepP_arg5 _).trans rfl))
    ((keepL0_arg6 _).trans ((keepP_arg6 _).trans rfl))
    ((keepL0_v1 _).trans p1)
    ((keepL0_v3 _).trans p3)
    ((keepL0_v13 _).trans p13)
    q0
  have q2 := stretchL2 (after (opsL1 (F := Ideal)) (after (opsL0 (F := Ideal)) (after (opsP (F := Ideal)) (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ((keepL1_arg2 _).trans ((keepL0_arg2 _).trans ((keepP_arg2 _).trans rfl)))
    ((keepL1_arg3 _).trans ((keepL0_arg3 _).trans ((keepP_arg3 _).trans rfl)))
    ((keepL1_arg4 _).trans ((keepL0_arg4 _).trans ((keepP_arg4 _).trans rfl)))
    ((keepL1_arg5 _).trans ((keepL0_arg5 _).trans ((keepP_arg5 _).trans rfl)))
    ((keepL1_arg6 _).trans ((keepL0_arg6 _).trans ((keepP_arg6 _).trans rfl)))
    ((keepL1_v1 _).trans ((keepL0_v1 _).trans p1))
    ((keepL1_v3 _).trans ((keepL0_v3 _).trans p3))
    ((keepL1_v13 _).trans ((keepL0_v13 _).trans p13))
    q1
  have q3 := stretchL3 (after (opsL2 (F := Ideal)) (after (opsL1 (F := Ideal)) (after (opsL0 (F := Ideal)) (after (opsP (F := Ideal)) (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ((keepL2_arg2 _).trans ((keepL1_arg2 _).trans ((keepL0_arg2 _).trans ((keepP_arg2 _).trans rfl))))
    ((keepL2_arg3 _).trans ((keepL1_arg3 _).trans ((keepL0_arg3 _).trans ((keepP_arg3 _).trans rfl))))
    ((keepL2_arg4 _).trans ((keepL1_arg4 _).trans ((keepL0_arg4 _).trans ((keepP_arg4 _).trans rfl))))
    ((keepL2_arg5 _).trans ((keepL1_arg5 _).trans ((keepL0_arg5 _).trans ((keepP_arg5 _).trans rfl))))
    ((keepL2_arg6 _).trans ((keepL1_arg6 _).trans ((keepL0_arg6 _).trans ((keepP_arg6 _).trans rfl))))
    ((keepL2_v1 _).trans ((keepL1_v1 _).trans ((keepL0_v1 _).trans p1)))
    ((keepL2_v3 _).trans ((keepL1_v3 _).trans ((keepL0_v3 _).trans p3)))
    ((keepL2_v13 _).trans ((keepL1_v13 _).trans ((keepL0_v13 _).trans p13)))
    q2
  exact q3

/-- THE RUN: on every device, from any memory with zero counters, every weakly fair execution of the reference terminates with
    the result buffer holding the fourth layer's output — as a function of the seven arguments at launch — and the arguments
    unchanged. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v233) = val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq m c), (h c).2⟩) (ValueP.run m ρ)

end Cert.ReferenceIdeal.SageRefRun

end
-- ==== Proof.RefLayers.lean ====
/-
  The reference program's four layers are the row function.

  The reference computes, four times over, a mean-aggregating graph layer followed by a layer normalisation and a clamp at
  zero: the neighbour sums scaled by the reciprocal in-degree go through one 128 × 128 matrix, a bias is added, the nodes'
  own rows go through a second matrix, each row is centred by its mean over the 128 channels and scaled by the reciprocal
  square root of its variance plus a small offset, then scaled and shifted channel by channel, and the negative entries
  are replaced by zero. Read one operation at a time at an entry `(n, o)`, each layer's output is the row function
  `SageRow.layerAt` of row `n` of that layer's neighbour-sum array, the reciprocal in-degree of node `n`, row `n` of the
  layer's input, and the layer's slices of the stacked parameters. The neighbour-sum arrays (accumulating scatters) and the
  reciprocal in-degree column are kept as they are: what they hold is not this file's business.

  Each operation is read at an index by its own lemma; what is added here is which index each layout operation reads
  (a slice of a parameter stack, a transposed matrix, a column repeated along the channels) and the two facts about
  sums: the explicit initial value of the reference's row sums is zero, and the three summands of the pre-activation may be
  added in either order.
-/
import proofs.«124728_j12704513261865_2_alg».proof.Proof.RefRead
import proofs.«124728_j12704513261865_2_alg».proof.Proof.LibSageRow

noncomputable section

open scoped BigOperators

namespace Cert.ReferenceIdeal.SageRef

open Cert.ReferenceIdeal Cert.ReferenceIdeal.ReadP Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S4x128x128, .f32⟩ : BufTy).Contents (Elt Ideal)) (x3 : (⟨S4x128, .f32⟩ : BufTy).Contents (Elt Ideal))
  (x4 : (⟨S4x128x128, .f32⟩ : BufTy).Contents (Elt Ideal)) (x5 x6 : (⟨S4x128, .f32⟩ : BufTy).Contents (Elt Ideal))

/-! ## Layer 0 (the first layer) -/

section Layer0

/-- The first layer's first weight matrix, as its first product reads it: input channel first. -/
theorem l0_wl (k q : Fin 128) : val_main_v28 (F := Ideal) x2 (ix2 k q) = SageRow.wT x2 0 (ix2 k q) := by
  rw [val_main_v28_apply, val_main_v27_apply, val_main_v26_apply, SageRow.wT_apply]
  refine congrArg x2 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its second weight matrix, likewise. -/
theorem l0_wr (k q : Fin 128) : val_main_v37 (F := Ideal) x4 (ix2 k q) = SageRow.wT x4 0 (ix2 k q) := by
  rw [val_main_v37_apply, val_main_v36_apply, val_main_v35_apply, SageRow.wT_apply]
  refine congrArg x4 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its bias, repeated along the rows. -/
theorem l0_bl (n : Fin 100000) (q : Fin 128) : val_main_v33 (F := Ideal) x3 (ix2 n q) = SageRow.vrow x3 0 (ix1 q) := by
  rw [val_main_v33_apply, val_main_v32_apply, val_main_v31_apply, val_main_v30_apply, SageRow.vrow_apply]
  refine congrArg x3 (funext fun a => Fin.ext ?_)
  have hq := q.isLt
  match a with
  | ⟨0, _⟩ => rfl
  | ⟨1, _⟩ => show q.val % 128 = q.val; omega

/-- Its normalisation scale, repeated along the rows. -/
theorem l0_lnw (n : Fin 100000) (q : Fin 128) : val_main_v61 (F := Ideal) x5 (ix2 n q) = SageRow.vrow x5 0 (ix1 q) := by
  rw [val_main_v61_apply, val_main_v60_apply, val_main_v59_apply, val_main_v58_apply, SageRow.vrow_apply]
  refine congrArg x5 (funext fun a => Fin.ext ?_)
  have hq := q.isLt
  match a with
  | ⟨0, _⟩ => rfl
  | ⟨1, _⟩ => show q.val % 128 = q.val; omega

/-- Its normalisation shift, repeated along the rows. -/
theorem l0_lnb (n : Fin 100000) (q : Fin 128) : val_main_v66 (F := Ideal) x6 (ix2 n q) = SageRow.vrow x6 0 (ix1 q) := by
  rw [val_main_v66_apply, val_main_v65_apply, val_main_v64_apply, val_main_v63_apply, SageRow.vrow_apply]
  refine congrArg x6 (funext fun a => Fin.ext ?_)
  have hq := q.isLt
  match a with
  | ⟨0, _⟩ => rfl
  | ⟨1, _⟩ => show q.val % 128 = q.val; omega

/-- The neighbour sum scaled by the reciprocal in-degree of its row. -/
theorem l0_agg (n : Fin 100000) (k : Fin 128) :
    val_main_v25 (F := Ideal) x0 x1 (ix2 n k) = val_main_v23 (F := Ideal) x0 x1 (ix2 n k) * val_main_v13 (F := Ideal) x1 (ix2 n (0 : Fin 1)) := by
  rw [val_main_v25_apply, val_main_v24_apply]
  have e : idx_main_v24 (ix2 n k) = ix2 n (0 : Fin 1) := funext fun a => Fin.ext (by match a with | ⟨0, _⟩ => rfl | ⟨1, _⟩ => rfl)
  rw [e]
  rfl

/-- THE PRE-ACTIVATION of row `n` at channel `q`: the scaled neighbour sum through the first weight matrix, plus the
    bias, plus the node's own row through the second — the row function's pre-activation, its three summands added in
    the other order. -/
theorem l0_pre (n : Fin 100000) (q : Fin 128) :
    val_main_v39 (F := Ideal) x0 x1 x2 x3 x4 (ix2 n q)
      = SageRow.pre (fun k => val_main_v23 (F := Ideal) x0 x1 (ix2 n k)) (fun k => x0 (ix2 n k))
          (val_main_v13 (F := Ideal) x1 (ix2 n (0 : Fin 1))) (fun k q => SageRow.wT x2 0 (ix2 k q))
          (fun k q => SageRow.wT x4 0 (ix2 k q)) (fun q => SageRow.vrow x3 0 (ix1 q)) q := by
  rw [← SageRow.pre_bias_first, val_main_v39_apply, val_main_v34_apply, val_main_v29_apply, val_main_v38_apply]
  have e1 : ∀ k : Fin 128, lidx_main_v29 (ix2 n q) k = ix2 n k := fun k => funext fun a => Fin.ext (by match a with | ⟨0, _⟩ => rfl | ⟨1, _⟩ => rfl)
  have e2 : ∀ k : Fin 128, ridx_main_v29 (ix2 n q) k = ix2 k q := fun k => funext fun a => Fin.ext (by match a with | ⟨0, _⟩ => rfl | ⟨1, _⟩ => rfl)
  have e3 : ∀ k : Fin 128, lidx_main_v38 (ix2 n q) k = ix2 n k := fun k => funext fun a => Fin.ext (by match a with | ⟨0, _⟩ => rfl | ⟨1, _⟩ => rfl)
  have e4 : ∀ k : Fin 128, ridx_main_v38 (ix2 n q) k = ix2 k q := fun k => funext fun a => Fin.ext (by match a with | ⟨0, _⟩ => rfl | ⟨1, _⟩ => rfl)
  simp only [e1, e2, e3, e4, l0_agg, l0_wl, l0_wr, l0_bl]
  rfl

/-- The mean of row `n` of the pre-activations over the 128 channels (the sum's explicit initial value is zero). -/
theorem l0_mean (n : Fin 100000) :
    val_main_v43 (F := Ideal) x0 x1 x2 x3 x4 (ix2 n (0 : Fin 1)) = SageRow.mean (fun q => val_main_v39 (F := Ideal) x0 x1 x2 x3 x4 (ix2 n q)) := by
  rw [val_main_v43_apply, val_main_v41_apply, val_main_v42_apply, val_main_v40_apply]
  unfold SageRow.mean
  refine congrArg (fun t => Ideal.div t SageRow.c128) ?_
  refine ((congrArg (· + _) Ideal.ofBits_zero_f32).trans (zero_add _)).trans ?_
  refine Finset.sum_congr rfl fun k _ => ?_
  have e : idx_main_v40 (idx_main_v41 (ix2 n (0 : Fin 1))) k = ix2 n k := funext fun a => Fin.ext (by match a with | ⟨0, _⟩ => rfl | ⟨1, _⟩ => rfl)
  rw [e]

/-- Row `n` centred by its mean, as the variance reads it … -/
theorem l0_cenA (n : Fin 100000) (q : Fin 128) :
    val_main_v45 (F := Ideal) x0 x1 x2 x3 x4 (ix2 n q) = val_main_v39 (F := Ideal) x0 x1 x2 x3 x4 (ix2 n q) - SageRow.mean (fun q => val_main_v39 (F := Ideal) x0 x1 x2 x3 x4 (ix2 n q)) := by
  rw [val_main_v45_apply, val_main_v44_apply]
  have e : idx_main_v44 (ix2 n q) = ix2 n (0 : Fin 1) := funext fun a => Fin.ext (by match a with | ⟨0, _⟩ => rfl | ⟨1, _⟩ => rfl)
  rw [e, l0_mean]
  rfl

/-- … and as the normalised row reads it. -/
theorem l0_cenB (n : Fin 100000) (q : Fin 128) :
    val_main_v52 (F := Ideal) x0 x1 x2 x3 x4 (ix2 n q) = val_main_v39 (F := Ideal) x0 x1 x2 x3 x4 (ix2 n q) - SageRow.mean (fun q => val_main_v39 (F := Ideal) x0 x1 x2 x3 x4 (ix2 n q)) := by
  rw [val_main_v52_apply, val_main_v51_apply]
  have e : idx_main_v51 (ix2 n q) = ix2 n (0 : Fin 1) := funext fun a => Fin.ext (by match a with | ⟨0, _⟩ => rfl | ⟨1, _⟩ => rfl)
  rw [e, l0_mean]
  rfl

/-- The reciprocal square root of row `n`'s variance plus the offset. -/
theorem l0_rstd (n : Fin 100000) :
    val_main_v55 (F := Ideal) x0 x1 x2 x3 x4 (ix2 n (0 : Fin 1))
      = Ideal.rsqrt (Ideal.div (∑ q : Fin 128,
            (val_main_v39 (F := Ideal) x0 x1 x2 x3 x4 (ix2 n q) - SageRow.mean (fun q => val_main_v39 (F := Ideal) x0 x1 x2 x3 x4 (ix2 n q)))
              * (val_main_v39 (F := Ideal) x0 x1 x2 x3 x4 (ix2 n q) - SageRow.mean (fun q => val_main_v39 (F := Ideal) x0 x1 x2 x3 x4 (ix2 n q))))
          SageRow.c128 + SageRow.ceps) := by
  rw [val_main_v55_apply, val_main_v54_apply, val_main_v50_apply, val_main_v48_apply, val_main_v49_apply, val_main_v53_apply, val_main_v47_apply]
  refine congrArg (fun t => Ideal.rsqrt (Ideal.div t SageRow.c128 + SageRow.ceps)) ?_
  refine ((congrArg (· + _) Ideal.ofBits_zero_f32).trans (zero_add _)).trans ?_
  refine Finset.sum_congr rfl fun k _ => ?_
  have e : idx_main_v47 (idx_main_v48 (ix2 n (0 : Fin 1))) k = ix2 n k := funext fun a => Fin.ext (by match a with | ⟨0, _⟩ => rfl | ⟨1, _⟩ => rfl)
  rw [e, val_main_v46_apply, l0_cenA]
  rfl

/-- THE NORMALISATION: entry `(n, o)` of the layer's output is the row function's normalisation of row `n` of the
    pre-activations. -/
theorem l0_norm (n : Fin 100000) (o : Fin 128) :
    val_main_v68 (F := Ideal) x0 x1 x2 x3 x4 x5 x6 (ix2 n o)
      = SageRow.norm (fun q => val_main_v39 (F := Ideal) x0 x1 x2 x3 x4 (ix2 n q)) (fun q => SageRow.vrow x5 0 (ix1 q))
          (fun q => SageRow.vrow x6 0 (ix1 q)) o := by
  rw [val_main_v68_apply, val_main_v67_apply, val_main_v62_apply, val_main_v57_apply, val_main_v56_apply, l0_lnw, l0_lnb, l0_cenB, val_main_call1_v0_apply]
  have e : idx_main_v56 (ix2 n o) = ix2 n (0 : Fin 1) := funext fun a => Fin.ext (by match a with | ⟨0, _⟩ => rfl | ⟨1, _⟩ => rfl)
  rw [e, l0_rstd]
  rfl

/-- THE FIRST LAYER AT AN ENTRY: the row function of row `n` of the neighbour sums and of the layer's input, the
    reciprocal in-degree of node `n`, and the layer's parameters. -/
theorem ref_layer0 (n : Fin 100000) (o : Fin 128) :
    val_main_v68 (F := Ideal) x0 x1 x2 x3 x4 x5 x6 (ix2 n o)
      = SageRow.layerAt (val_main_v23 (F := Ideal) x0 x1) (val_main_v13 (F := Ideal) x1) x0
          (SageRow.wT x2 0) (SageRow.vrow x3 0) (SageRow.wT x4 0) (SageRow.vrow x5 0) (SageRow.vrow x6 0) n o := by
  have h : (fun q : Fin 128 => val_main_v39 (F := Ideal) x0 x1 x2 x3 x4 (ix2 n q))
      = SageRow.pre (fun k => val_main_v23 (F := Ideal) x0 x1 (ix2 n k)) (fun k => x0 (ix2 n k))
          (val_main_v13 (F := Ideal) x1 (ix2 n (0 : Fin 1))) (fun k q => SageRow.wT x2 0 (ix2 k q))
          (fun k q => SageRow.wT x4 0 (ix2 k q)) (fun q => SageRow.vrow x3 0 (ix1 q)) :=
    funext fun q => l0_pre ..
  rw [l0_norm, h]
  rfl

/-- … and as a whole array. -/
theorem ref_layer0_eq :
    val_main_v68 (F := Ideal) x0 x1 x2 x3 x4 x5 x6
      = SageRow.layer (val_main_v23 (F := Ideal) x0 x1) (val_main_v13 (F := Ideal) x1) x0
          (SageRow.wT x2 0) (SageRow.vrow x3 0) (SageRow.wT x4 0) (SageRow.vrow x5 0) (SageRow.vrow x6 0) := by
  funext i
  obtain ⟨n, o, rfl⟩ : ∃ (n : Fin 100000) (o : Fin 128), i = ix2 n o := ⟨i 0, i 1, eq_ix2 i⟩
  rw [SageRow.layer_apply]
  exact ref_layer0 ..

end Layer0

/-! ## Layer 1 (the second layer) -/

section Layer1

/-- The second layer's first weight matrix, as its first product reads it: input channel first. -/
theorem l1_wl (k q : Fin 128) : val_main_v83 (F := Ideal) x2 (ix2 k q) = SageRow.wT x2 1 (ix2 k q) := by
  rw [val_main_v83_apply, val_main_v82_apply, val_main_v81_apply, SageRow.wT_apply]
  refine congrArg x2 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its second weight matrix, likewise. -/
theorem l1_wr (k q : Fin 128) : val_main_v92 (F := Ideal) x4 (ix2 k q) = SageRow.wT x4 1 (ix2 k q) := by
  rw [val_main_v92_apply, val_main_v91_apply, val_main_v90_apply, SageRow.wT_apply]
  refine congrArg x4 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its bias, repeated along the rows. -/
theorem l1_bl (n : Fin 100000) (q : Fin 128) : val_main_v88 (F := Ideal) x3 (ix2 n q) = SageRow.vrow x3 1 (ix1 q) := by
  rw [val_main_v88_apply, val_main_v87_apply, val_main_v86_apply, val_main_v85_apply, SageRow.vrow_apply]
  refine congrArg x3 (funext fun a => Fin.ext ?_)
  have hq := q.isLt
  match a with
  | ⟨0, _⟩ => rfl
  | ⟨1, _⟩ => show q.val % 128 = q.val; omega

/-- Its normalisation scale, repeated along the rows. -/
theorem l1_lnw (n : Fin 100000) (q : Fin 128) : val_main_v116 (F := Ideal) x5 (ix2 n q) = SageRow.vrow x5 1 (ix1 q) := by
  rw [val_main_v116_apply, val_main_v115_apply, val_main_v114_apply, val_main_v113_apply, SageRow.vrow_apply]
  refine congrArg x5 (funext fun a => Fin.ext ?_)
  have hq := q.isLt
  match a with
  | ⟨0, _⟩ => rfl
  | ⟨1, _⟩ => show q.val % 128 = q.val; omega

/-- Its normalisation shift, repeated along the rows. -/
theorem l1_lnb (n : Fin 100000) (q : Fin 128) : val_main_v121 (F := Ideal) x6 (ix2 n q) = SageRow.vrow x6 1 (ix1 q) := by
  rw [val_main_v121_apply, val_main_v120_apply, val_main_v119_apply, val_main_v118_apply, SageRow.vrow_apply]
  refine congrArg x6 (funext fun a => Fin.ext ?_)
  have hq := q.isLt
  match a with
  | ⟨0, _⟩ => rfl
  | ⟨1, _⟩ => show q.val % 128 = q.val; omega

/-- The neighbour sum scaled by the reciprocal in-degree of its row. -/
theorem l1_agg (n : Fin 100000) (k : Fin 128) :
    val_main_v80 (F := Ideal) x0 x1 x2 x3 x4 x5 x6 (ix2 n k) = val_main_v78 (F := Ideal) x0 x1 x2 x3 x4 x5 x6 (ix2 n k) * val_main_v13 (F := Ideal) x1 (ix2 n (0 : Fin 1)) := by
  rw [val_main_v80_apply, val_main_v79_apply]
  have e : idx_main_v79 (ix2 n k) = ix2 n (0 : Fin 1) := funext fun a => Fin.ext (by match a with | ⟨0, _⟩ => rfl | ⟨1, _⟩ => rfl)
  rw [e]
  rfl

/-- THE PRE-ACTIVATION of row `n` at channel `q`: the scaled neighbour sum through the first weight matrix, plus the
    bias, plus the node's own row through the second — the row function's pre-activation, its three summands added in
    the other order. -/
theorem l1_pre (n : Fin 100000) (q : Fin 128) :
    val_main_v94 (F := Ideal) x0 x1 x2 x3 x4 x5 x6 (ix2 n q)
      = SageRow.pre (fun k => val_main_v78 (F := Ideal) x0 x1 x2 x3 x4 x5 x6 (ix2 n k)) (fun k => (val_main_v68 (F := Ideal) x0 x1 x2 x3 x4 x5 x6) (ix2 n k))
          (val_main_v13 (F := Ideal) x1 (ix2 n (0 : Fin 1))) (fun k q => SageRow.wT x2 1 (ix2 k q))
          (fun k q => SageRow.wT x4 1 (ix2 k q)) (fun q => SageRow.vrow x3 1 (ix1 q)) q := by
  rw [← SageRow.pre_bias_first, val_main_v94_apply, val_main_v89_apply, val_main_v84_apply, val_main_v93_apply]
  have e1 : ∀ k : Fin 128, lidx_main_v84 (ix2 n q) k = ix2 n k := fun k => funext fun a => Fin.ext (by match a with | ⟨0, _⟩ => rfl | ⟨1, _⟩ => rfl)
  have e2 : ∀ k : Fin 128, ridx_main_v84 (ix2 n q) k = ix2 k q := fun k => funext fun a => Fin.ext (by match a with | ⟨0, _⟩ => rfl | ⟨1, _⟩ => rfl)
  have e3 : ∀ k : Fin 128, lidx_main_v93 (ix2 n q) k = ix2 n k := fun k => funext fun a => Fin.ext (by match a with | ⟨0, _⟩ => rfl | ⟨1, _⟩ => rfl)
  have e4 : ∀ k : Fin 128, ridx_main_v93 (ix2 n q) k = ix2 k q := fun k => funext fun a => Fin.ext (by match a with | ⟨0, _⟩ => rfl | ⟨1, _⟩ => rfl)
  simp only [e1, e2, e3, e4, l1_agg, l1_wl, l1_wr, l1_bl]
  rfl

/-- The mean of row `n` of the pre-activations over the 128 channels (the sum's explicit initial value is zero). -/
theorem l1_mean (n : Fin 100000) :
    val_main_v98 (F := Ideal) x0 x1 x2 x3 x4 x5 x6 (ix2 n (0 : Fin 1)) = SageRow.mean (fun q => val_main_v94 (F := Ideal) x0 x1 x2 x3 x4 x5 x6 (ix2 n q)) := by
  rw [val_main_v98_apply, val_main_v96_apply, val_main_v97_apply, val_main_v95_apply]
  unfold SageRow.mean
  refine congrArg (fun t => Ideal.div t SageRow.c128) ?_
  refine ((congrArg (· + _) Ideal.ofBits_zero_f32).trans (zero_add _)).trans ?_
  refine Finset.sum_congr rfl fun k _ => ?_
  have e : idx_main_v95 (idx_main_v96 (ix2 n (0 : Fin 1))) k = ix2 n k := funext fun a => Fin.ext (by match a with | ⟨0, _⟩ => rfl | ⟨1, _⟩ => rfl)
  rw [e]

/-- Row `n` centred by its mean, as the variance reads it … -/
theorem l1_cenA (n : Fin 100000) (q : Fin 128) :
    val_main_v100 (F := Ideal) x0 x1 x2 x3 x4 x5 x6 (ix2 n q) = val_main_v94 (F := Ideal) x0 x1 x2 x3 x4 x5 x6 (ix2 n q) - SageRow.mean (fun q => val_main_v94 (F := Ideal) x0 x1 x2 x3 x4 x5 x6 (ix2 n q)) := by
  rw [val_main_v100_apply, val_main_v99_apply]
  have e : idx_main_v99 (ix2 n q) = ix2 n (0 : Fin 1) := funext fun a => Fin.ext (by match a with | ⟨0, _⟩ => rfl | ⟨1, _⟩ => rfl)
  rw [e, l1_mean]
  rfl

/-- … and as the normalised row reads it. -/
theorem l1_cenB (n : Fin 100000) (q : Fin 128) :
    val_main_v107 (F := Ideal) x0 x1 x2 x3 x4 x5 x6 (ix2 n q) = val_main_v94 (F := Ideal) x0 x1 x2 x3 x4 x5 x6 (ix2 n q) - SageRow.mean (fun q => val_main_v94 (F := Ideal) x0 x1 x2 x3 x4 x5 x6 (ix2 n q)) := by
  rw [val_main_v107_apply, val_main_v106_apply]
  have e : idx_main_v106 (ix2 n q) = ix2 n (0 : Fin 1) := funext fun a => Fin.ext (by match a with | ⟨0, _⟩ => rfl | ⟨1, _⟩ => rfl)
  rw [e, l1_mean]
  rfl

/-- The reciprocal square root of row `n`'s variance plus the offset. -/
theorem l1_rstd (n : Fin 100000) :
    val_main_v110 (F := Ideal) x0 x1 x2 x3 x4 x5 x6 (ix2 n (0 : Fin 1))
      = Ideal.rsqrt (Ideal.div (∑ q : Fin 128,
            (val_main_v94 (F := Ideal) x0 x1 x2 x3 x4 x5 x6 (ix2 n q) - SageRow.mean (fun q => val_main_v94 (F := Ideal) x0 x1 x2 x3 x4 x5 x6 (ix2 n q)))
              * (val_main_v94 (F := Ideal) x0 x1 x2 x3 x4 x5 x6 (ix2 n q) - SageRow.mean (fun q => val_main_v94 (F := Ideal) x0 x1 x2 x3 x4 x5 x6 (ix2 n q))))
          SageRow.c128 + SageRow.ceps) := by
  rw [val_main_v110_apply, val_main_v109_apply, val_main_v105_apply, val_main_v103_apply, val_main_v104_apply, val_main_v108_apply, val_main_v102_apply]
  refine congrArg (fun t => Ideal.rsqrt (Ideal.div t SageRow.c128 + SageRow.ceps)) ?_
  refine ((congrArg (· + _) Ideal.ofBits_zero_f32).trans (zero_add _)).trans ?_
  refine Finset.sum_congr rfl fun k _ => ?_
  have e : idx_main_v102 (idx_main_v103 (ix2 n (0 : Fin 1))) k = ix2 n k := funext fun a => Fin.ext (by match a with | ⟨0, _⟩ => rfl | ⟨1, _⟩ => rfl)
  rw [e, val_main_v101_apply, l1_cenA]
  rfl

/-- THE NORMALISATION: entry `(n, o)` of the layer's output is the row function's normalisation of row `n` of the
    pre-activations. -/
theorem l1_norm (n : Fin 100000) (o : Fin 128) :
    val_main_v123 (F := Ideal) x0 x1 x2 x3 x4 x5 x6 (ix2 n o)
      = SageRow.norm (fun q => val_main_v94 (F := Ideal) x0 x1 x2 x3 x4 x5 x6 (ix2 n q)) (fun q => SageRow.vrow x5 1 (ix1 q))
          (fun q => SageRow.vrow x6 1 (ix1 q)) o := by
  rw [val_main_v123_apply, val_main_v122_apply, val_main_v117_apply, val_main_v112_apply, val_main_v111_apply, l1_lnw, l1_lnb, l1_cenB, val_main_call2_v0_apply]
  have e : idx_main_v111 (ix2 n o) = ix2 n (0 : Fin 1) := funext fun a => Fin.ext (by match a with | ⟨0, _⟩ => rfl | ⟨1, _⟩ => rfl)
  rw [e, l1_rstd]
  rfl

/-- THE SECOND LAYER AT AN ENTRY: the row function of row `n` of the neighbour sums and of the layer's input, the
    reciprocal in-degree of node `n`, and the layer's parameters. -/
theorem ref_layer1 (n : Fin 100000) (o : Fin 128) :
    val_main_v123 (F := Ideal) x0 x1 x2 x3 x4 x5 x6 (ix2 n o)
      = SageRow.layerAt (val_main_v78 (F := Ideal) x0 x1 x2 x3 x4 x5 x6) (val_main_v13 (F := Ideal) x1) (val_main_v68 (F := Ideal) x0 x1 x2 x3 x4 x5 x6)
          (SageRow.wT x2 1) (SageRow.vrow x3 1) (SageRow.wT x4 1) (SageRow.vrow x5 1) (SageRow.vrow x6 1) n o := by
  have h : (fun q : Fin 128 => val_main_v94 (F := Ideal) x0 x1 x2 x3 x4 x5 x6 (ix2 n q))
      = SageRow.pre (fun k => val_main_v78 (F := Ideal) x0 x1 x2 x3 x4 x5 x6 (ix2 n k)) (fun k => (val_main_v68 (F := Ideal) x0 x1 x2 x3 x4 x5 x6) (ix2 n k))
          (val_main_v13 (F := Ideal) x1 (ix2 n (0 : Fin 1))) (fun k q => SageRow.wT x2 1 (ix2 k q))
          (fun k q => SageRow.wT x4 1 (ix2 k q)) (fun q => SageRow.vrow x3 1 (ix1 q)) :=
    funext fun q => l1_pre ..
  rw [l1_norm, h]
  rfl

/-- … and as a whole array. -/
theorem ref_layer1_eq :
    val_main_v123 (F := Ideal) x0 x1 x2 x3 x4 x5 x6
      = SageRow.layer (val_main_v78 (F := Ideal) x0 x1 x2 x3 x4 x5 x6) (val_main_v13 (F := Ideal) x1) (val_main_v68 (F := Ideal) x0 x1 x2 x3 x4 x5 x6)
          (SageRow.wT x2 1) (SageRow.vrow x3 1) (SageRow.wT x4 1) (SageRow.vrow x5 1) (SageRow.vrow x6 1) := by
  funext i
  obtain ⟨n, o, rfl⟩ : ∃ (n : Fin 100000) (o : Fin 128), i = ix2 n o := ⟨i 0, i 1, eq_ix2 i⟩
  rw [SageRow.layer_apply]
  exact ref_layer1 ..

end Layer1

/-! ## Layer 2 (the third layer) -/

section Layer2

/-- The third layer's first weight matrix, as its first product reads it: input channel first. -/
theorem l2_wl (k q : Fin 128) : val_main_v138 (F := Ideal) x2 (ix2 k q) = SageRow.wT x2 2 (ix2 k q) := by
  rw [val_main_v138_apply, val_main_v137_apply, val_main_v136_apply, SageRow.wT_apply]
  refine congrArg x2 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its second weight matrix, likewise. -/
theorem l2_wr (k q : Fin 128) : val_main_v147 (F := Ideal) x4 (ix2 k q) = SageRow.wT x4 2 (ix2 k q) := by
  rw [val_main_v147_apply, val_main_v146_apply, val_main_v145_apply, SageRow.wT_apply]
  refine congrArg x4 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its bias, repeated along the rows. -/
theorem l2_bl (n : Fin 100000) (q : Fin 128) : val_main_v143 (F := Ideal) x3 (ix2 n q) = SageRow.vrow x3 2 (ix1 q) := by
  rw [val_main_v143_apply, val_main_v142_apply, val_main_v141_apply, val_main_v140_apply, SageRow.vrow_apply]
  refine congrArg x3 (funext fun a => Fin.ext ?_)
  have hq := q.isLt
  match a with
  | ⟨0, _⟩ => rfl
  | ⟨1, _⟩ => show q.val % 128 = q.val; omega

/-- Its normalisation scale, repeated along the rows. -/
theorem l2_lnw (n : Fin 100000) (q : Fin 128) : val_main_v171 (F := Ideal) x5 (ix2 n q) = SageRow.vrow x5 2 (ix1 q) := by
  rw [val_main_v171_apply, val_main_v170_apply, val_main_v169_apply, val_main_v168_apply, SageRow.vrow_apply]
  refine congrArg x5 (funext fun a => Fin.ext ?_)
  have hq := q.isLt
  match a with
  | ⟨0, _⟩ => rfl
  | ⟨1, _⟩ => show q.val % 128 = q.val; omega

/-- Its normalisation shift, repeated along the rows. -/
theorem l2_lnb (n : Fin 100000) (q : Fin 128) : val_main_v176 (F := Ideal) x6 (ix2 n q) = SageRow.vrow x6 2 (ix1 q) := by
  rw [val_main_v176_apply, val_main_v175_apply, val_main_v174_apply, val_main_v173_apply, SageRow.vrow_apply]
  refine congrArg x6 (funext fun a => Fin.ext ?_)
  have hq := q.isLt
  match a with
  | ⟨0, _⟩ => rfl
  | ⟨1, _⟩ => show q.val % 128 = q.val; omega

/-- The neighbour sum scaled by the reciprocal in-degree of its row. -/
theorem l2_agg (n : Fin 100000) (k : Fin 128) :
    val_main_v135 (F := Ideal) x0 x1 x2 x3 x4 x5 x6 (ix2 n k) = val_main_v133 (F := Ideal) x0 x1 x2 x3 x4 x5 x6 (ix2 n k) * val_main_v13 (F := Ideal) x1 (ix2 n (0 : Fin 1)) := by
  rw [val_main_v135_apply, val_main_v134_apply]
  have e : idx_main_v134 (ix2 n k) = ix2 n (0 : Fin 1) := funext fun a => Fin.ext (by match a with | ⟨0, _⟩ => rfl | ⟨1, _⟩ => rfl)
  rw [e]
  rfl

/-- THE PRE-ACTIVATION of row `n` at channel `q`: the scaled neighbour sum through the first weight matrix, plus the
    bias, plus the node's own row through the second — the row function's pre-activation, its three summands added in
    the other order. -/
theorem l2_pre (n : Fin 100000) (q : Fin 128) :
    val_main_v149 (F := Ideal) x0 x1 x2 x3 x4 x5 x6 (ix2 n q)
      = SageRow.pre (fun k => val_main_v133 (F := Ideal) x0 x1 x2 x3 x4 x5 x6 (ix2 n k)) (fun k => (val_main_v123 (F := Ideal) x0 x1 x2 x3 x4 x5 x6) (ix2 n k))
          (val_main_v13 (F := Ideal) x1 (ix2 n (0 : Fin 1))) (fun k q => SageRow.wT x2 2 (ix2 k q))
          (fun k q => SageRow.wT x4 2 (ix2 k q)) (fun q => SageRow.vrow x3 2 (ix1 q)) q := by
  rw [← SageRow.pre_bias_first, val_main_v149_apply, val_main_v144_apply, val_main_v139_apply, val_main_v148_apply]
  have e1 : ∀ k : Fin 128, lidx_main_v139 (ix2 n q) k = ix2 n k := fun k => funext fun a => Fin.ext (by match a with | ⟨0, _⟩ => rfl | ⟨1, _⟩ => rfl)
  have e2 : ∀ k : Fin 128, ridx_main_v139 (ix2 n q) k = ix2 k q := fun k => funext fun a => Fin.ext (by match a with | ⟨0, _⟩ => rfl | ⟨1, _⟩ => rfl)
  have e3 : ∀ k : Fin 128, lidx_main_v148 (ix2 n q) k = ix2 n k := fun k => funext fun a => Fin.ext (by match a with | ⟨0, _⟩ => rfl | ⟨1, _⟩ => rfl)
  have e4 : ∀ k : Fin 128, ridx_main_v148 (ix2 n q) k = ix2 k q := fun k => funext fun a => Fin.ext (by match a with | ⟨0, _⟩ => rfl | ⟨1, _⟩ => rfl)
  simp only [e1, e2, e3, e4, l2_agg, l2_wl, l2_wr, l2_bl]
  rfl

/-- The mean of row `n` of the pre-activations over the 128 channels (the sum's explicit initial value is zero). -/
theorem l2_mean (n : Fin 100000) :
    val_main_v153 (F := Ideal) x0 x1 x2 x3 x4 x5 x6 (ix2 n (0 : Fin 1)) = SageRow.mean (fun q => val_main_v149 (F := Ideal) x0 x1 x2 x3 x4 x5 x6 (ix2 n q)) := by
  rw [val_main_v153_apply, val_main_v151_apply, val_main_v152_apply, val_main_v150_apply]
  unfold SageRow.mean
  refine congrArg (fun t => Ideal.div t SageRow.c128) ?_
  refine ((congrArg (· + _) Ideal.ofBits_zero_f32).trans (zero_add _)).trans ?_
  refine Finset.sum_congr rfl fun k _ => ?_
  have e : idx_main_v150 (idx_main_v151 (ix2 n (0 : Fin 1))) k = ix2 n k := funext fun a => Fin.ext (by match a with | ⟨0, _⟩ => rfl | ⟨1, _⟩ => rfl)
  rw [e]

/-- Row `n` centred by its mean, as the variance reads it … -/
theorem l2_cenA (n : Fin 100000) (q : Fin 128) :
    val_main_v155 (F := Ideal) x0 x1 x2 x3 x4 x5 x6 (ix2 n q) = val_main_v149 (F := Ideal) x0 x1 x2 x3 x4 x5 x6 (ix2 n q) - SageRow.mean (fun q => val_main_v149 (F := Ideal) x0 x1 x2 x3 x4 x5 x6 (ix2 n q)) := by
  rw [val_main_v155_apply, val_main_v154_apply]
  have e : idx_main_v154 (ix2 n q) = ix2 n (0 : Fin 1) := funext fun a => Fin.ext (by match a with | ⟨0, _⟩ => rfl | ⟨1, _⟩ => rfl)
  rw [e, l2_mean]
  rfl

/-- … and as the normalised row reads it. -/
theorem l2_cenB (n : Fin 100000) (q : Fin 128) :
    val_main_v162 (F := Ideal) x0 x1 x2 x3 x4 x5 x6 (ix2 n q) = val_main_v149 (F := Ideal) x0 x1 x2 x3 x4 x5 x6 (ix2 n q) - SageRow.mean (fun q => val_main_v149 (F := Ideal) x0 x1 x2 x3 x4 x5 x6 (ix2 n q)) := by
  rw [val_main_v162_apply, val_main_v161_apply]
  have e : idx_main_v161 (ix2 n q) = ix2 n (0 : Fin 1) := funext fun a => Fin.ext (by match a with | ⟨0, _⟩ => rfl | ⟨1, _⟩ => rfl)
  rw [e, l2_mean]
  rfl

/-- The reciprocal square root of row `n`'s variance plus the offset. -/
theorem l2_rstd (n : Fin 100000) :
    val_main_v165 (F := Ideal) x0 x1 x2 x3 x4 x5 x6 (ix2 n (0 : Fin 1))
      = Ideal.rsqrt (Ideal.div (∑ q : Fin 128,
            (val_main_v149 (F := Ideal) x0 x1 x2 x3 x4 x5 x6 (ix2 n q) - SageRow.mean (fun q => val_main_v149 (F := Ideal) x0 x1 x2 x3 x4 x5 x6 (ix2 n q)))
              * (val_main_v149 (F := Ideal) x0 x1 x2 x3 x4 x5 x6 (ix2 n q) - SageRow.mean (fun q => val_main_v149 (F := Ideal) x0 x1 x2 x3 x4 x5 x6 (ix2 n q))))
          SageRow.c128 + SageRow.ceps) := by
  rw [val_main_v165_apply, val_main_v164_apply, val_main_v160_apply, val_main_v158_apply, val_main_v159_apply, val_main_v163_apply, val_main_v157_apply]
  refine congrArg (fun t => Ideal.rsqrt (Ideal.div t SageRow.c128 + SageRow.ceps)) ?_
  refine ((congrArg (· + _) Ideal.ofBits_zero_f32).trans (zero_add _)).trans ?_
  refine Finset.sum_congr rfl fun k _ => ?_
  have e : idx_main_v157 (idx_main_v158 (ix2 n (0 : Fin 1))) k = ix2 n k := funext fun a => Fin.ext (by match a with | ⟨0, _⟩ => rfl | ⟨1, _⟩ => rfl)
  rw [e, val_main_v156_apply, l2_cenA]
  rfl

/-- THE NORMALISATION: entry `(n, o)` of the layer's output is the row function's normalisation of row `n` of the
    pre-activations. -/
theorem l2_norm (n : Fin 100000) (o : Fin 128) :
    val_main_v178 (F := Ideal) x0 x1 x2 x3 x4 x5 x6 (ix2 n o)
      = SageRow.norm (fun q => val_main_v149 (F := Ideal) x0 x1 x2 x3 x4 x5 x6 (ix2 n q)) (fun q => SageRow.vrow x5 2 (ix1 q))
          (fun q => SageRow.vrow x6 2 (ix1 q)) o := by
  rw [val_main_v178_apply, val_main_v177_apply, val_main_v172_apply, val_main_v167_apply, val_main_v166_apply, l2_lnw, l2_lnb, l2_cenB, val_main_call3_v0_apply]
  have e : idx_main_v166 (ix2 n o) = ix2 n (0 : Fin 1) := funext fun a => Fin.ext (by match a with | ⟨0, _⟩ => rfl | ⟨1, _⟩ => rfl)
  rw [e, l2_rstd]
  rfl

/-- THE THIRD LAYER AT AN ENTRY: the row function of row `n` of the neighbour sums and of the layer's input, the
    reciprocal in-degree of node `n`, and the layer's parameters. -/
theorem ref_layer2 (n : Fin 100000) (o : Fin 128) :
    val_main_v178 (F := Ideal) x0 x1 x2 x3 x4 x5 x6 (ix2 n o)
      = SageRow.layerAt (val_main_v133 (F := Ideal) x0 x1 x2 x3 x4 x5 x6) (val_main_v13 (F := Ideal) x1) (val_main_v123 (F := Ideal) x0 x1 x2 x3 x4 x5 x6)
          (SageRow.wT x2 2) (SageRow.vrow x3 2) (SageRow.wT x4 2) (SageRow.vrow x5 2) (SageRow.vrow x6 2) n o := by
  have h : (fun q : Fin 128 => val_main_v149 (F := Ideal) x0 x1 x2 x3 x4 x5 x6 (ix2 n q))
      = SageRow.pre (fun k => val_main_v133 (F := Ideal) x0 x1 x2 x3 x4 x5 x6 (ix2 n k)) (fun k => (val_main_v123 (F := Ideal) x0 x1 x2 x3 x4 x5 x6) (ix2 n k))
          (val_main_v13 (F := Ideal) x1 (ix2 n (0 : Fin 1))) (fun k q => SageRow.wT x2 2 (ix2 k q))
          (fun k q => SageRow.wT x4 2 (ix2 k q)) (fun q => SageRow.vrow x3 2 (ix1 q)) :=
    funext fun q => l2_pre ..
  rw [l2_norm, h]
  rfl

/-- … and as a whole array. -/
theorem ref_layer2_eq :
    val_main_v178 (F := Ideal) x0 x1 x2 x3 x4 x5 x6
      = SageRow.layer (val_main_v133 (F := Ideal) x0 x1 x2 x3 x4 x5 x6) (val_main_v13 (F := Ideal) x1) (val_main_v123 (F := Ideal) x0 x1 x2 x3 x4 x5 x6)
          (SageRow.wT x2 2) (SageRow.vrow x3 2) (SageRow.wT x4 2) (SageRow.vrow x5 2) (SageRow.vrow x6 2) := by
  funext i
  obtain ⟨n, o, rfl⟩ : ∃ (n : Fin 100000) (o : Fin 128), i = ix2 n o := ⟨i 0, i 1, eq_ix2 i⟩
  rw [SageRow.layer_apply]
  exact ref_layer2 ..

end Layer2

/-! ## Layer 3 (the fourth layer) -/

section Layer3

/-- The fourth layer's first weight matrix, as its first product reads it: input channel first. -/
theorem l3_wl (k q : Fin 128) : val_main_v193 (F := Ideal) x2 (ix2 k q) = SageRow.wT x2 3 (ix2 k q) := by
  rw [val_main_v193_apply, val_main_v192_apply, val_main_v191_apply, SageRow.wT_apply]
  refine congrArg x2 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its second weight matrix, likewise. -/
theorem l3_wr (k q : Fin 128) : val_main_v202 (F := Ideal) x4 (ix2 k q) = SageRow.wT x4 3 (ix2 k q) := by
  rw [val_main_v202_apply, val_main_v201_apply, val_main_v200_apply, SageRow.wT_apply]
  refine congrArg x4 (funext fun a => Fin.ext ?_)
  have hk := k.isLt
  have hq := q.isLt
  match a with
  | ⟨0, _⟩ => rfl
  | ⟨1, _⟩ => show (q.val * 128 + k.val) / 128 % 128 = q.val; omega
  | ⟨2, _⟩ => show (q.val * 128 + k.val) % 128 = k.val; omega

/-- Its bias, repeated along the rows. -/
theorem l3_bl (n : Fin 100000) (q : Fin 128) : val_main_v198 (F := Ideal) x3 (ix2 n q) = SageRow.vrow x3 3 (ix1 q) := by
  rw [val_main_v198_apply, val_main_v197_apply, val_main_v196_apply, val_main_v195_apply, SageRow.vrow_apply]
  refine congrArg x3 (funext fun a => Fin.ext ?_)
  have hq := q.isLt
  match a with
  | ⟨0, _⟩ => rfl
  | ⟨1, _⟩ => show q.val % 128 = q.val; omega

/-- Its normalisation scale, repeated along the rows. -/
theorem l3_lnw (n : Fin 100000) (q : Fin 128) : val_main_v226 (F := Ideal) x5 (ix2 n q) = SageRow.vrow x5 3 (ix1 q) := by
  rw [val_main_v226_apply, val_main_v225_apply, val_main_v224_apply, val_main_v223_apply, SageRow.vrow_apply]
  refine congrArg x5 (funext fun a => Fin.ext ?_)
  have hq := q.isLt
  match a with
  | ⟨0, _⟩ => rfl
  | ⟨1, _⟩ => show q.val % 128 = q.val; omega

/-- Its normalisation shift, repeated along the rows. -/
theorem l3_lnb (n : Fin 100000) (q : Fin 128) : val_main_v231 (F := Ideal) x6 (ix2 n q) = SageRow.vrow x6 3 (ix1 q) := by
  rw [val_main_v231_apply, val_main_v230_apply, val_main_v229_apply, val_main_v228_apply, SageRow.vrow_apply]
  refine congrArg x6 (funext fun a => Fin.ext ?_)
  have hq := q.isLt
  match a with
  | ⟨0, _⟩ => rfl
  | ⟨1, _⟩ => show q.val % 128 = q.val; omega

/-- The neighbour sum scaled by the reciprocal in-degree of its row. -/
theorem l3_agg (n : Fin 100000) (k : Fin 128) :
    val_main_v190 (F := Ideal) x0 x1 x2 x3 x4 x5 x6 (ix2 n k) = val_main_v188 (F := Ideal) x0 x1 x2 x3 x4 x5 x6 (ix2 n k) * val_main_v13 (F := Ideal) x1 (ix2 n (0 : Fin 1)) := by
  rw [val_main_v190_apply, val_main_v189_apply]
  have e : idx_main_v189 (ix2 n k) = ix2 n (0 : Fin 1) := funext fun a => Fin.ext (by match a with | ⟨0, _⟩ => rfl | ⟨1, _⟩ => rfl)
  rw [e]
  rfl

/-- THE PRE-ACTIVATION of row `n` at channel `q`: the scaled neighbour sum through the first weight matrix, plus the
    bias, plus the node's own row through the second — the row function's pre-activation, its three summands added in
    the other order. -/
theorem l3_pre (n : Fin 100000) (q : Fin 128) :
    val_main_v204 (F := Ideal) x0 x1 x2 x3 x4 x5 x6 (ix2 n q)
      = SageRow.pre (fun k => val_main_v188 (F := Ideal) x0 x1 x2 x3 x4 x5 x6 (ix2 n k)) (fun k => (val_main_v178 (F := Ideal) x0 x1 x2 x3 x4 x5 x6) (ix2 n k))
          (val_main_v13 (F := Ideal) x1 (ix2 n (0 : Fin 1))) (fun k q => SageRow.wT x2 3 (ix2 k q))
          (fun k q => SageRow.wT x4 3 (ix2 k q)) (fun q => SageRow.vrow x3 3 (ix1 q)) q := by
  rw [← SageRow.pre_bias_first, val_main_v204_apply, val_main_v199_apply, val_main_v194_apply, val_main_v203_apply]
  have e1 : ∀ k : Fin 128, lidx_main_v194 (ix2 n q) k = ix2 n k := fun k => funext fun a => Fin.ext (by match a with | ⟨0, _⟩ => rfl | ⟨1, _⟩ => rfl)
  have e2 : ∀ k : Fin 128, ridx_main_v194 (ix2 n q) k = ix2 k q := fun k => funext fun a => Fin.ext (by match a with | ⟨0, _⟩ => rfl | ⟨1, _⟩ => rfl)
  have e3 : ∀ k : Fin 128, lidx_main_v203 (ix2 n q) k = ix2 n k := fun k => funext fun a => Fin.ext (by match a with | ⟨0, _⟩ => rfl | ⟨1, _⟩ => rfl)
  have e4 : ∀ k : Fin 128, ridx_main_v203 (ix2 n q) k = ix2 k q := fun k => funext fun a => Fin.ext (by match a with | ⟨0, _⟩ => rfl | ⟨1, _⟩ => rfl)
  simp only [e1, e2, e3, e4, l3_agg, l3_wl, l3_wr, l3_bl]
  rfl

/-- The mean of row `n` of the pre-activations over the 128 channels (the sum's explicit initial value is zero). -/
theorem l3_mean (n : Fin 100000) :
    val_main_v208 (F := Ideal) x0 x1 x2 x3 x4 x5 x6 (ix2 n (0 : Fin 1)) = SageRow.mean (fun q => val_main_v204 (F := Ideal) x0 x1 x2 x3 x4 x5 x6 (ix2 n q)) := by
  rw [val_main_v208_apply, val_main_v206_apply, val_main_v207_apply, val_main_v205_apply]
  unfold SageRow.mean
  refine congrArg (fun t => Ideal.div t SageRow.c128) ?_
  refine ((congrArg (· + _) Ideal.ofBits_zero_f32).trans (zero_add _)).trans ?_
  refine Finset.sum_congr rfl fun k _ => ?_
  have e : idx_main_v205 (idx_main_v206 (ix2 n (0 : Fin 1))) k = ix2 n k := funext fun a => Fin.ext (by match a with | ⟨0, _⟩ => rfl | ⟨1, _⟩ => rfl)
  rw [e]

/-- Row `n` centred by its mean, as the variance reads it … -/
theorem l3_cenA (n : Fin 100000) (q : Fin 128) :
    val_main_v210 (F := Ideal) x0 x1 x2 x3 x4 x5 x6 (ix2 n q) = val_main_v204 (F := Ideal) x0 x1 x2 x3 x4 x5 x6 (ix2 n q) - SageRow.mean (fun q => val_main_v204 (F := Ideal) x0 x1 x2 x3 x4 x5 x6 (ix2 n q)) := by
  rw [val_main_v210_apply, val_main_v209_apply]
  have e : idx_main_v209 (ix2 n q) = ix2 n (0 : Fin 1) := funext fun a => Fin.ext (by match a with | ⟨0, _⟩ => rfl | ⟨1, _⟩ => rfl)
  rw [e, l3_mean]
  rfl

/-- … and as the normalised row reads it. -/
theorem l3_cenB (n : Fin 100000) (q : Fin 128) :
    val_main_v217 (F := Ideal) x0 x1 x2 x3 x4 x5 x6 (ix2 n q) = val_main_v204 (F := Ideal) x0 x1 x2 x3 x4 x5 x6 (ix2 n q) - SageRow.mean (fun q => val_main_v204 (F := Ideal) x0 x1 x2 x3 x4 x5 x6 (ix2 n q)) := by
  rw [val_main_v217_apply, val_main_v216_apply]
  have e : idx_main_v216 (ix2 n q) = ix2 n (0 : Fin 1) := funext fun a => Fin.ext (by match a with | ⟨0, _⟩ => rfl | ⟨1, _⟩ => rfl)
  rw [e, l3_mean]
  rfl

/-- The reciprocal square root of row `n`'s variance plus the offset. -/
theorem l3_rstd (n : Fin 100000) :
    val_main_v220 (F := Ideal) x0 x1 x2 x3 x4 x5 x6 (ix2 n (0 : Fin 1))
      = Ideal.rsqrt (Ideal.div (∑ q : Fin 128,
            (val_main_v204 (F := Ideal) x0 x1 x2 x3 x4 x5 x6 (ix2 n q) - SageRow.mean (fun q => val_main_v204 (F := Ideal) x0 x1 x2 x3 x4 x5 x6 (ix2 n q)))
              * (val_main_v204 (F := Ideal) x0 x1 x2 x3 x4 x5 x6 (ix2 n q) - SageRow.mean (fun q => val_main_v204 (F := Ideal) x0 x1 x2 x3 x4 x5 x6 (ix2 n q))))
          SageRow.c128 + SageRow.ceps) := by
  rw [val_main_v220_apply, val_main_v219_apply, val_main_v215_apply, val_main_v213_apply, val_main_v214_apply, val_main_v218_apply, val_main_v212_apply]
  refine congrArg (fun t => Ideal.rsqrt (Ideal.div t SageRow.c128 + SageRow.ceps)) ?_
  refine ((congrArg (· + _) Ideal.ofBits_zero_f32).trans (zero_add _)).trans ?_
  refine Finset.sum_congr rfl fun k _ => ?_
  have e : idx_main_v212 (idx_main_v213 (ix2 n (0 : Fin 1))) k = ix2 n k := funext fun a => Fin.ext (by match a with | ⟨0, _⟩ => rfl | ⟨1, _⟩ => rfl)
  rw [e, val_main_v211_apply, l3_cenA]
  rfl

/-- THE NORMALISATION: entry `(n, o)` of the layer's output is the row function's normalisation of row `n` of the
    pre-activations. -/
theorem l3_norm (n : Fin 100000) (o : Fin 128) :
    val_main_v233 (F := Ideal) x0 x1 x2 x3 x4 x5 x6 (ix2 n o)
      = SageRow.norm (fun q => val_main_v204 (F := Ideal) x0 x1 x2 x3 x4 x5 x6 (ix2 n q)) (fun q => SageRow.vrow x5 3 (ix1 q))
          (fun q => SageRow.vrow x6 3 (ix1 q)) o := by
  rw [val_main_v233_apply, val_main_v232_apply, val_main_v227_apply, val_main_v222_apply, val_main_v221_apply, l3_lnw, l3_lnb, l3_cenB, val_main_call4_v0_apply]
  have e : idx_main_v221 (ix2 n o) = ix2 n (0 : Fin 1) := funext fun a => Fin.ext (by match a with | ⟨0, _⟩ => rfl | ⟨1, _⟩ => rfl)
  rw [e, l3_rstd]
  rfl

/-- THE FOURTH LAYER AT AN ENTRY: the row function of row `n` of the neighbour sums and of the layer's input, the
    reciprocal in-degree of node `n`, and the layer's parameters. -/
theorem ref_layer3 (n : Fin 100000) (o : Fin 128) :
    val_main_v233 (F := Ideal) x0 x1 x2 x3 x4 x5 x6 (ix2 n o)
      = SageRow.layerAt (val_main_v188 (F := Ideal) x0 x1 x2 x3 x4 x5 x6) (val_main_v13 (F := Ideal) x1) (val_main_v178 (F := Ideal) x0 x1 x2 x3 x4 x5 x6)
          (SageRow.wT x2 3) (SageRow.vrow x3 3) (SageRow.wT x4 3) (SageRow.vrow x5 3) (SageRow.vrow x6 3) n o := by
  have h : (fun q : Fin 128 => val_main_v204 (F := Ideal) x0 x1 x2 x3 x4 x5 x6 (ix2 n q))
      = SageRow.pre (fun k => val_main_v188 (F := Ideal) x0 x1 x2 x3 x4 x5 x6 (ix2 n k)) (fun k => (val_main_v178 (F := Ideal) x0 x1 x2 x3 x4 x5 x6) (ix2 n k))
          (val_main_v13 (F := Ideal) x1 (ix2 n (0 : Fin 1))) (fun k q => SageRow.wT x2 3 (ix2 k q))
          (fun k q => SageRow.wT x4 3 (ix2 k q)) (fun q => SageRow.vrow x3 3 (ix1 q)) :=
    funext fun q => l3_pre ..
  rw [l3_norm, h]
  rfl

/-- … and as a whole array. -/
theorem ref_layer3_eq :
    val_main_v233 (F := Ideal) x0 x1 x2 x3 x4 x5 x6
      = SageRow.layer (val_main_v188 (F := Ideal) x0 x1 x2 x3 x4 x5 x6) (val_main_v13 (F := Ideal) x1) (val_main_v178 (F := Ideal) x0 x1 x2 x3 x4 x5 x6)
          (SageRow.wT x2 3) (SageRow.vrow x3 3) (SageRow.wT x4 3) (SageRow.vrow x5 3) (SageRow.vrow x6 3) := by
  funext i
  obtain ⟨n, o, rfl⟩ : ∃ (n : Fin 100000) (o : Fin 128), i = ix2 n o := ⟨i 0, i 1, eq_ix2 i⟩
  rw [SageRow.layer_apply]
  exact ref_layer3 ..

end Layer3

end Cert.ReferenceIdeal.SageRef

end
-- ==== Proof.LibSegmentSum.lean ====
/-
  Permuting the updates of an accumulating scatter, and the reads around it.

  A segment sum `out[idx[e], :] += upd[e, :]` is a `stablehlo.scatter` with an `add` body over `E` scatter
  indices. Its value at the ideal instance is, at each operand element, the operand plus the SUM of the updates landing
  there: a sum over a finite set, so presenting the pairs (index, update row) in another order — through any bijection
  `σ` of the `E` positions — changes nothing. Here: that statement for the row scatter `[N, C] ← [E, 1], [E, C]` and
  for the flat scatter `[N] ← [E, 1], [E]`; the gathers `x[idx]` of rows and of a flat table read at an index
  (start index read signed and clamped); and that an argsort (a two-operand sort carrying an iota) returns the words of
  a bijection of the positions.
-/
import Idealize.ShloMosaic.PureOps.Ideal
import Idealize.ShloMosaic.PureOps.Ideal.Laws
import Idealize.ShloMosaic.Lib.ValueIdx
import Idealize.ShloMosaic.Lib.SortFacts

noncomputable section

open scoped BigOperators

namespace Idealize.ShloMosaic.SegmentSum

open Idealize.ShloMosaic Idealize.ShloMosaic.ValueIdx

/-! ## The result index of an update depends only on its start and window coordinates -/

/-- Two update indices (under two index tables) with the same window start and the same window coordinate on every
    operand axis land at the same operand element, or are both dropped. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-! ## The row scatter `[N, C] ← [E, 1], [E, C]` -/

/-- The dimension numbers of `x.at[idx].add(upd)` for a table `x : [N, C]`, indices `idx : [E, 1]` and update rows
    `upd : [E, C]`: update axis 1 is the window (a whole row), operand axis 0 is inserted and is the one the scatter
    index names; the index vector is axis 1 of the indices. Their conditions `wf` are decided on literal shapes. -/
abbrev rowsScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- Update `(e, ch)` starts, on the row axis, at the signed word `idx[e, 0]`. -/
theorem rows_start_zero (idx : IVec ⟨2, ![E, 1]⟩ w) (e : Fin E) (ch : Fin C) :
    (rowsScatterDims N E C wf).start (ix2 e ch) idx 0 = (idx (ix2 e 0)).toInt := by
  unfold ScatterDims.start
  rw [dif_pos (show (0 : Fin 2) ∈ (rowsScatterDims N E C wf).scatterDimsToOperandDims from List.mem_singleton.mpr rfl)]
  have hsi : (rowsScatterDims N E C wf).siIdx (ix2 e ch)
      ⟨List.idxOf (0 : Fin 2) (rowsScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at `0` on the channel axis, which the scatter index does not name. -/
theorem rows_start_one (idx : IVec ⟨2, ![E, 1]⟩ w) (j : (⟨2, ![E, C]⟩ : Shape).Idx) :
    (rowsScatterDims N E C wf).start j idx 1 = 0 := by
  unfold ScatterDims.start
  rw [dif_neg (show (1 : Fin 2) ∉ ([0] : List (Fin 2)) from by decide)]

/-- Its window coordinate is `0` on the (inserted) row axis … -/
theorem rows_window_zero (j : (⟨2, ![E, C]⟩ : Shape).Idx) : (rowsScatterDims N E C wf).window j 0 = 0 := by
  unfold ScatterDims.window
  have h : (0 : Fin 2) ∉ (rowsScatterDims N E C wf).sKept :=
    show (0 : Fin 2) ∉ (List.finRange 2).filter (fun a => a ∉ ([0] : List (Fin 2))) from by decide
  rw [dif_neg h]

/-- … and its channel on the channel axis. -/
theorem rows_window_one (j : (⟨2, ![E, C]⟩ : Shape).Idx) : (rowsScatterDims N E C wf).window j 1 = (j 1).val := by
  unfold ScatterDims.window
  have h : (1 : Fin 2) ∈ (rowsScatterDims N E C wf).sKept :=
    show (1 : Fin 2) ∈ (List.finRange 2).filter (fun a => a ∉ ([0] : List (Fin 2))) from by decide
  rw [dif_pos h]
  rfl

/-- Where update `(e, ch)` lands depends on the index table only through the word `idx[e, 0]`: two tables that hold
    the same word at `e` and at `e'` send `(e, ch)` and `(e', ch)` to the same element. -/
theorem rows_resultIdx?_congr (idx idx' : IVec ⟨2, ![E, 1]⟩ w) (e e' : Fin E) (ch : Fin C)
    (h : idx' (ix2 e' 0) = idx (ix2 e 0)) :
    (rowsScatterDims N E C wf).resultIdx? (ix2 e' ch) idx' = (rowsScatterDims N E C wf).resultIdx? (ix2 e ch) idx := by
  refine resultIdx?_congr _ _ _ _ _ (fun a => ?_) (fun a => ?_)
  · match a with
    | ⟨0, _⟩ => exact (rows_start_zero wf idx' e' ch).trans ((congrArg BitVec.toInt h).trans (rows_start_zero wf idx e ch).symm)
    | ⟨1, _⟩ => exact (rows_start_one wf idx' _).trans (rows_start_one wf idx _).symm
  · match a with
    | ⟨0, _⟩ => exact (rows_window_zero wf _).trans (rows_window_zero wf _).symm
    | ⟨1, _⟩ => exact (rows_window_one wf _).trans (rows_window_one wf _).symm

/-- A bijection of the `E` positions, applied to the first coordinate of an update index. -/
def rowsEquiv (σ : Fin E ≃ Fin E) : (⟨2, ![E, C]⟩ : Shape).Idx ≃ (⟨2, ![E, C]⟩ : Shape).Idx where
  toFun j := ix2 (σ (j 0)) (j 1)
  invFun j := ix2 (σ.symm (j 0)) (j 1)
  left_inv j := by
    funext a
    match a with
    | ⟨0, _⟩ => exact σ.symm_apply_apply _
    | ⟨1, _⟩ => rfl
  right_inv j := by
    funext a
    match a with
    | ⟨0, _⟩ => exact σ.apply_symm_apply _
    | ⟨1, _⟩ => rfl

/-- PERMUTING THE UPDATES OF THE ROW SCATTER: if `idx'`, `upd'` are `idx`, `upd` read through a bijection `σ` of the
    `E` positions (`idx'[e] = idx[σ e]`, `upd'[e, :] = upd[σ e, :]`), the accumulating scatter of `upd'` at `idx'`
    is that of `upd` at `idx`: at each element, the same updates are summed, listed in another order. -/
theorem rows_scatterAdd_reindex (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e : Fin E, idx' (ix2 e 0) = idx (ix2 (σ e) 0))
    (hupd : ∀ (e : Fin E) (ch : Fin C), upd' (ix2 e ch) = upd (ix2 (σ e) ch)) :
    Ideal.hostScatterAdd (rowsScatterDims N E C wf) x idx' upd' = Ideal.hostScatterAdd (rowsScatterDims N E C wf) x idx upd := by
  funext i
  unfold Ideal.hostScatterAdd
  congr 1
  rw [Finset.sum_filter, Finset.sum_filter]
  refine Fintype.sum_equiv (rowsEquiv (Equiv.ofBijective σ hσ)) _ _ (fun j => ?_)
  obtain ⟨e, ch, rfl⟩ : ∃ e ch, j = ix2 e ch := ⟨j 0, j 1, eq_ix2 j⟩
  show (if (rowsScatterDims N E C wf).resultIdx? (ix2 e ch) idx' = some i then upd' (ix2 e ch) else 0)
    = if (rowsScatterDims N E C wf).resultIdx? (ix2 (σ e) ch) idx = some i then upd (ix2 (σ e) ch) else 0
  rw [rows_resultIdx?_congr wf idx idx' (σ e) e ch (hidx e), hupd e ch]

end Rows

/-! ## The flat scatter `[N] ← [E, 1], [E]` -/

/-- The dimension numbers of `x.at[idx].add(upd)` for a flat table `x : [N]`, indices `idx : [E, 1]` and updates
    `upd : [E]`: no window axis, operand axis 0 inserted and named by the scatter index; the index vector is axis 1 of
    the indices. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- Update `e` starts at the signed word `idx[e, 0]`. -/
theorem flat_start_zero (idx : IVec ⟨2, ![E, 1]⟩ w) (e : Fin E) :
    (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- It has no window: its window coordinate is `0`. -/
theorem flat_window_zero (j : (⟨1, ![E]⟩ : Shape).Idx) : (flatScatterDims N E wf).window j 0 = 0 := by
  unfold ScatterDims.window
  have h : (0 : Fin 1) ∉ (flatScatterDims N E wf).sKept :=
    show (0 : Fin 1) ∉ (List.finRange 1).filter (fun a => a ∉ ([0] : List (Fin 1))) from by decide
  rw [dif_neg h]

/-- Where update `e` lands depends on the index table only through the word `idx[e, 0]`. -/
theorem flat_resultIdx?_congr (idx idx' : IVec ⟨2, ![E, 1]⟩ w) (e e' : Fin E)
    (h : idx' (ix2 e' 0) = idx (ix2 e 0)) :
    (flatScatterDims N E wf).resultIdx? (ix1 e') idx' = (flatScatterDims N E wf).resultIdx? (ix1 e) idx := by
  refine resultIdx?_congr _ _ _ _ _ (fun a => ?_) (fun a => ?_)
  · match a with
    | ⟨0, _⟩ => exact (flat_start_zero wf idx' e').trans ((congrArg BitVec.toInt h).trans (flat_start_zero wf idx e).symm)
  · match a with
    | ⟨0, _⟩ => exact (flat_window_zero wf _).trans (flat_window_zero wf _).symm

/-- A bijection of the `E` positions, as one of the rank-1 indices. -/
def flatEquiv (σ : Fin E ≃ Fin E) : (⟨1, ![E]⟩ : Shape).Idx ≃ (⟨1, ![E]⟩ : Shape).Idx where
  toFun j := ix1 (σ (j 0))
  invFun j := ix1 (σ.symm (j 0))
  left_inv j := by
    funext a
    match a with
    | ⟨0, _⟩ => exact σ.symm_apply_apply _
  right_inv j := by
    funext a
    match a with
    | ⟨0, _⟩ => exact σ.apply_symm_apply _

/-- PERMUTING THE UPDATES OF THE FLAT SCATTER: if `idx'`, `upd'` are `idx`, `upd` read through a bijection `σ` of the
    `E` positions, the accumulating scatter of `upd'` at `idx'` is that of `upd` at `idx`. (For a count — constant
    updates — the hypothesis on the updates holds by `rfl`.) -/
theorem flat_scatterAdd_reindex (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e : Fin E, idx' (ix2 e 0) = idx (ix2 (σ e) 0))
    (hupd : ∀ e : Fin E, upd' (ix1 e) = upd (ix1 (σ e))) :
    Ideal.hostScatterAdd (flatScatterDims N E wf) x idx' upd' = Ideal.hostScatterAdd (flatScatterDims N E wf) x idx upd := by
  funext i
  unfold Ideal.hostScatterAdd
  congr 1
  rw [Finset.sum_filter, Finset.sum_filter]
  refine Fintype.sum_equiv (flatEquiv (Equiv.ofBijective σ hσ)) _ _ (fun j => ?_)
  obtain ⟨e, rfl⟩ : ∃ e, j = ix1 e := ⟨j 0, eq_ix1 j⟩
  show (if (flatScatterDims N E wf).resultIdx? (ix1 e) idx' = some i then upd' (ix1 e) else 0)
    = if (flatScatterDims N E wf).resultIdx? (ix1 (σ e)) idx = some i then upd (ix1 (σ e)) else 0
  rw [flat_resultIdx?_congr wf idx idx' (σ e) e (hidx e), hupd e]

end Flat

/-! ## The gathers read at an index -/

/-- The dimension numbers of `x[idx]` (rows) for a table `x : [N, C]`, indices `idx : [E, 1]` and result `[E, C]`:
    result axis 1 is the offset (a whole row), operand axis 0 is collapsed and is the one the start index names; the
    index vector is axis 1 of the indices; slices are `1 × C`. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowsGather
variable {N E C w : Nat} (wf : GatherDims.WF ⟨2, ![N, C]⟩ ⟨2, ![E, 1]⟩ ⟨2, ![E, C]⟩ [1] [0] [] [0] [] 1 ![1, C])

/-- Result element `(e, ch)` reads the row `idx[e, 0]`, signed and clamped into `[0, N − 1]` … -/
theorem rows_operandIdx_zero (idx : IVec ⟨2, ![E, 1]⟩ w) (e : Fin E) (ch : Fin C) :
    ((rowsGatherDims N E C wf).operandIdx (ix2 e ch) idx 0).val = min (idx (ix2 e 0)).toInt.toNat (N - 1) := by
  show (rowsGatherDims N E C wf).start (ix2 e ch) idx 0 + (rowsGatherDims N E C wf).batchCoord (ix2 e ch) 0
    + (rowsGatherDims N E C wf).offCoord (ix2 e ch) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGatherDims N E C wf).startIndexMap from List.mem_singleton.mpr rfl)]
  have hsi : (rowsGatherDims N E C wf).siIdx (ix2 e ch) ⟨List.idxOf (0 : Fin 2) (rowsGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … at channel `ch`. -/
theorem rows_operandIdx_one (idx : IVec ⟨2, ![E, 1]⟩ w) (e : Fin E) (ch : Fin C) :
    ((rowsGatherDims N E C wf).operandIdx (ix2 e ch) idx 1).val = ch.val := by
  show (rowsGatherDims N E C wf).start (ix2 e ch) idx 1 + (rowsGatherDims N E C wf).batchCoord (ix2 e ch) 1
    + (rowsGatherDims N E C wf).offCoord (ix2 e ch) 1 = _
  rw [GatherDims.batchCoord_eq_zero _ _ _ List.not_mem_nil]
  unfold GatherDims.start
  rw [dif_neg (show (1 : Fin 2) ∉ ([0] : List (Fin 2)) from by decide)]
  unfold GatherDims.offCoord
  have h : (1 : Fin 2) ∈ (rowsGatherDims N E C wf).sKept :=
    (GatherDims.mem_sKept _ _).mpr ⟨show (1 : Fin 2) ∉ ([0] : List (Fin 2)) from by decide, List.not_mem_nil⟩
  rw [dif_pos h]
  simp only [Nat.zero_add, Nat.add_zero]
  rfl

/-- THE ROW GATHER READ AT `(e, ch)`: the table at row `idx[e, 0]` — read signed and clamped into `[0, N − 1]` — and
    channel `ch`. -/
theorem rows_gather_apply {α : Type} (hN : 0 < N)
    (x : (⟨2, ![N, C]⟩ : Shape).Idx → α) (idx : IVec ⟨2, ![E, 1]⟩ w) (e : Fin E) (ch : Fin C) :
    Host.gather (rowsGatherDims N E C wf) x idx (ix2 e ch)
      = x (ix2 ⟨min (idx (ix2 e 0)).toInt.toNat (N - 1), by omega⟩ ch) := by
  unfold Host.gather
  congr 1
  funext a
  refine Fin.ext ?_
  match a with
  | ⟨0, _⟩ => exact rows_operandIdx_zero wf idx e ch
  | ⟨1, _⟩ => exact rows_operandIdx_one wf idx e ch

end RowsGather

/-- The dimension numbers of `x[idx]` for a flat table `x : [M]`, indices `idx : [E, 1]` and result `[E]`: no offset
    axis, operand axis 0 collapsed and named by the start index; the index vector is axis 1 of the indices; slices of
    one element. -/
abbrev flatGatherDims (M E : Nat)
    (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, M − 1]`. -/
theorem flat_gather_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatGatherDims M E wf) x idx (ix1 e) = x (ix1 ⟨min (idx (ix2 e 0)).toInt.toNat (M - 1), by omega⟩) := by
  unfold Host.gather
  congr 1
  funext a
  obtain rfl : a = 0 := Subsingleton.elim _ _
  refine Fin.ext ?_
  show (flatGatherDims M E wf).start (ix1 e) idx 0 + (flatGatherDims M E wf).batchCoord (ix1 e) 0
    + (flatGatherDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims M E wf).startIndexMap from List.mem_singleton.mpr rfl)]
  have hsi : (flatGatherDims M E wf).siIdx (ix1 e) ⟨List.idxOf (0 : Fin 1) (flatGatherDims M E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An argsort returns the words of a bijection of the positions -/

/-- The second component of a two-operand sort of rank-1 tables along axis 0 reads the second table through ONE
    self-map of the positions: `sortedFrom` of the comparator on the pairs of words. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- … and the first component reads the first table through the same map. -/
theorem sort2_fst_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The rank-1 index at coordinate `k`, in the two notations. -/
theorem ofFin_eq_ix1 {n : Nat} (k : Fin n) : Shape.Idx.ofFin k = ix1 k := by
  funext a
  match a with
  | ⟨0, _⟩ => rfl

/-- AN ARGSORT IS A PERMUTATION: sorting keys together with the iota of their positions, under any comparator, leaves
    in the second table the words of a bijection `σ` of the positions — position `e` holds the word `σ e` — and in the
    first the keys read through `σ`. -/
theorem argsort_perm {E : Nat} (cmp : BitVec 32 × BitVec 32 → BitVec 32 × BitVec 32 → BitVec 1)
    (keys : IVec ⟨1, ![E]⟩ 32) :
    ∃ σ : Fin E → Fin E, Function.Bijective σ ∧
      (∀ e : Fin E, (Host.sort2 ⟨1, ![E]⟩ 0 cmp keys (iotaInDim ⟨1, ![E]⟩ 32 0)).2 (ix1 e) = BitVec.ofNat 32 (σ e).val) ∧
      ∀ e : Fin E, (Host.sort2 ⟨1, ![E]⟩ 0 cmp keys (iotaInDim ⟨1, ![E]⟩ 32 0)).1 (ix1 e) = keys (ix1 (σ e)) := by
  refine ⟨sortedFrom (fun k k' => cmp (keys (Shape.Idx.ofFin k), iotaInDim ⟨1, ![E]⟩ 32 0 (Shape.Idx.ofFin k))
      (keys (Shape.Idx.ofFin k'), iotaInDim ⟨1, ![E]⟩ 32 0 (Shape.Idx.ofFin k')) == 1#1),
    ⟨sortedFrom_injective _, sortedFrom_surjective _⟩, fun e => ?_, fun e => ?_⟩
  · rw [sort2_snd_rank1]
    rfl
  · rw [sort2_fst_rank1]
    exact congrArg keys (ofFin_eq_ix1 _)

/-! ## Position words below `2 ^ 31` -/

/-- A position `k < 2 ^ 31`, written as a 32-bit word and read back SIGNED, is `k`. -/
theorem toInt_ofNat_of_lt {k : Nat} (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- … so it is not negative as a signed word … -/
theorem toInt_ofNat_nonneg {k : Nat} (hk : k < 2 ^ 31) : 0 ≤ (BitVec.ofNat 32 k).toInt := by
  rw [toInt_ofNat_of_lt hk]; exact Int.natCast_nonneg k

/-- … and, for a position of a table of `E` entries, the clamp into `[0, E − 1]` leaves it alone. -/
theorem clamp_ofNat_of_lt {E k : Nat} (hE : E < 2 ^ 31) (hk : k < E) :
    min (BitVec.ofNat 32 k).toInt.toNat (E - 1) = k := by
  rw [toInt_ofNat_of_lt (by omega)]
  simp only [Int.toNat_natCast]
  omega

/-! ## Reads through a table of position words, and the gather–scatter pair under a permutation -/

section Perm
variable {E : Nat}

/-- A flat table gathered through the words of a map `σ` of its `E < 2 ^ 31` positions is the table read through
    `σ`: a position word is not negative and below `E`, so the clamp leaves it alone. -/
theorem flat_gather_perm {α : Type} (hE : E < 2 ^ 31)
    (wf : GatherDims.WF ⟨1, ![E]⟩ ⟨2, ![E, 1]⟩ ⟨1, ![E]⟩ [] [0] [] [0] [] 1 ![1])
    (x : (⟨1, ![E]⟩ : Shape).Idx → α) (perm : IVec ⟨2, ![E, 1]⟩ 32) (σ : Fin E → Fin E)
    (hperm : ∀ e : Fin E, perm (ix2 e 0) = BitVec.ofNat 32 (σ e).val) (e : Fin E) :
    Host.gather (flatGatherDims E E wf) x perm (ix1 e) = x (ix1 (σ e)) := by
  rw [flat_gather_apply (Nat.zero_lt_of_lt e.isLt) wf x perm e]
  congr 2
  refine Fin.ext ?_
  show min (perm (ix2 e 0)).toInt.toNat (E - 1) = (σ e).val
  rw [hperm e]
  exact clamp_ofNat_of_lt hE (σ e).isLt

/-- The rows of an `[E, C]` table gathered through the words of a map `σ` of the `E < 2 ^ 31` positions are the rows
    read through `σ`. -/
theorem rows_gather_perm {α : Type} {C : Nat} (hE : E < 2 ^ 31)
    (wf : GatherDims.WF ⟨2, ![E, C]⟩ ⟨2, ![E, 1]⟩ ⟨2, ![E, C]⟩ [1] [0] [] [0] [] 1 ![1, C])
    (x : (⟨2, ![E, C]⟩ : Shape).Idx → α) (perm : IVec ⟨2, ![E, 1]⟩ 32) (σ : Fin E → Fin E)
    (hperm : ∀ e : Fin E, perm (ix2 e 0) = BitVec.ofNat 32 (σ e).val) (e : Fin E) (ch : Fin C) :
    Host.gather (rowsGatherDims E E C wf) x perm (ix2 e ch) = x (ix2 (σ e) ch) := by
  rw [rows_gather_apply wf (Nat.zero_lt_of_lt e.isLt) x perm e ch]
  congr 2
  refine Fin.ext ?_
  show min (perm (ix2 e 0)).toInt.toNat (E - 1) = (σ e).val
  rw [hperm e]
  exact clamp_ofNat_of_lt hE (σ e).isLt

end Perm

section GatherScatter
variable {N E C w : Nat}

/-- Which row result element `(e, ch)` of the row gather reads depends on the index table only through the word
    `idx[e, 0]`. -/
theorem rows_gather_congr {α : Type}
    (wf : GatherDims.WF ⟨2, ![N, C]⟩ ⟨2, ![E, 1]⟩ ⟨2, ![E, C]⟩ [1] [0] [] [0] [] 1 ![1, C])
    (x : (⟨2, ![N, C]⟩ : Shape).Idx → α) (idx idx' : IVec ⟨2, ![E, 1]⟩ w) (e e' : Fin E) (ch : Fin C)
    (h : idx' (ix2 e' 0) = idx (ix2 e 0)) :
    Host.gather (rowsGatherDims N E C wf) x idx' (ix2 e' ch) = Host.gather (rowsGatherDims N E C wf) x idx (ix2 e ch) := by
  unfold Host.gather
  congr 1
  funext a
  refine Fin.ext ?_
  match a with
  | ⟨0, _⟩ =>
    exact (rows_operandIdx_zero wf idx' e' ch).trans
      ((congrArg (fun v : BitVec w => min v.toInt.toNat (N - 1)) h).trans (rows_operandIdx_zero wf idx e ch).symm)
  | ⟨1, _⟩ => exact (rows_operandIdx_one wf idx' e' ch).trans (rows_operandIdx_one wf idx e ch).symm

/-- THE SEGMENT SUM UNDER A PERMUTATION OF THE EDGES: gathering the rows of `x` at source indices and accumulating
    them at destination indices gives the same table when both index tables are read through one bijection `σ` of the
    `E` positions (`src'[e] = src[σ e]`, `dst'[e] = dst[σ e]`) — the messages are then `msg'[e, :] = msg[σ e, :]`, and
    the accumulating scatter does not see the order of its updates. -/
theorem rows_gather_scatterAdd_reindex
    (wfG : GatherDims.WF ⟨2, ![N, C]⟩ ⟨2, ![E, 1]⟩ ⟨2, ![E, C]⟩ [1] [0] [] [0] [] 1 ![1, C])
    {M : Nat} (wfS : ScatterDims.WF ⟨2, ![M, C]⟩ ⟨2, ![E, 1]⟩ ⟨2, ![E, C]⟩ [1] [0] [0] 1)
    (σ : Fin E → Fin E) (hσ : Function.Bijective σ)
    (x : (⟨2, ![N, C]⟩ : Shape).Idx → EReal) (acc : (⟨2, ![M, C]⟩ : Shape).Idx → EReal)
    (src src' dst dst' : IVec ⟨2, ![E, 1]⟩ w)
    (hsrc : ∀ e : Fin E, src' (ix2 e 0) = src (ix2 (σ e) 0))
    (hdst : ∀ e : Fin E, dst' (ix2 e 0) = dst (ix2 (σ e) 0)) :
    Ideal.hostScatterAdd (rowsScatterDims M E C wfS) acc dst' (Host.gather (rowsGatherDims N E C wfG) x src')
      = Ideal.hostScatterAdd (rowsScatterDims M E C wfS) acc dst (Host.gather (rowsGatherDims N E C wfG) x src) :=
  rows_scatterAdd_reindex wfS σ hσ acc dst dst' _ _ hdst
    (fun e ch => rows_gather_congr wfG x src src' (σ e) e ch (hsrc e))

end GatherScatter

end Idealize.ShloMosaic.SegmentSum

end
-- ==== Proof.Bridge.lean ====
import proofs.«124728_j12704513261865_2_alg».proof.Proof.KernelValue
import proofs.«124728_j12704513261865_2_alg».proof.Proof.RefLayers
import proofs.«124728_j12704513261865_2_alg».proof.Proof.LibSegmentSum

/-!
# The two programs compute one function

The kernel's program sums each layer's messages along the edge list SORTED by destination; the reference sums
along the edge list as given.  Sorting only re-orders the edges by a permutation `σ` of their positions (the
stable argsort carries the positions, and every position word is non-negative and below the edge count, so the
index normalisation and the gather's clamp leave it alone), and a segment sum over the extended reals does not
depend on the order of its summands.  So the in-degrees, their reciprocals and every layer's neighbour sums agree,
and, layer by layer, both sides are the same row function of the same operands.  No finiteness is used: only that
addition on the extended reals is commutative and associative.
-/

noncomputable section

namespace Cert.SageBridge

open Idealize.ShloMosaic Idealize.ShloMosaic.ValueIdx Idealize.ShloMosaic.SegmentSum
open Cert.KernelIdeal.SageValue Cert.ReferenceIdeal.ReadP Cert.ReferenceIdeal.SageRef

/-! ## Words -/

/-- A position word below `2^31` is not negative, so the index normalisation returns it unchanged. -/
theorem wrap_position (k : ℕ) (hk : k < 2 ^ 31) (n : BitVec 32) :
    Scalar.select (IntOp.cmpi .slt (BitVec.ofNat 32 k) 0#32) (IntOp.addi (BitVec.ofNat 32 k) n) (BitVec.ofNat 32 k)
      = BitVec.ofNat 32 k := by
  have h : IntOp.cmpi .slt (BitVec.ofNat 32 k) 0#32 = 0#1 := by
    show BitVec.ofBool (decide ((BitVec.ofNat 32 k).toInt < (0#32 : BitVec 32).toInt)) = 0#1
    rw [toInt_ofNat_of_lt hk]
    have h0 : (0#32 : BitVec 32).toInt = 0 := by decide
    rw [h0]
    have hneg : ¬ ((k : ℤ) < 0) := by omega
    rw [decide_eq_false hneg]
    rfl
  rw [h]
  exact select_zero _ _

/-- An index vector as a column, read at `(e, 0)` (the kernel program's spelling). -/
theorem colK_apply (q : IVec Cert.KernelIdeal.S1600000 32) (e : Fin 1600000) : col q (ix2 e (0 : Fin 1)) = q (ix1 e) :=
  broadcastInDim_apply _ _ q (ix2 e (0 : Fin 1)) (ix1 e) (fun a => by
    match a with
    | ⟨0, _⟩ => show e.val = if (1600000 : ℕ) = 1 then 0 else e.val; simp)

/-- The same for the reference program's spelling. -/
theorem colR_apply (q : IVec Cert.ReferenceIdeal.S1600000 32) (h) (e : Fin 1600000) :
    broadcastInDim Cert.ReferenceIdeal.S1600000x1 ![0] h q (ix2 e (0 : Fin 1)) = q (ix1 e) :=
  broadcastInDim_apply _ h q (ix2 e (0 : Fin 1)) (ix1 e) (fun a => by
    match a with
    | ⟨0, _⟩ => show e.val = if (1600000 : ℕ) = 1 then 0 else e.val; simp)

/-! ## The sorted edge list is the edge list through a permutation -/

/-- The two programs cut the same two rows out of the edge list. -/
theorem srcRow_eq (x1 : IVec Cert.KernelIdeal.S2x1600000 32) : srcRow x1 = val_main_v1 (F := Ideal) x1 := rfl
theorem dstRow_eq (x1 : IVec Cert.KernelIdeal.S2x1600000 32) : dstRow x1 = val_main_v3 (F := Ideal) x1 := rfl

/-- There is a permutation `σ` of the edge positions with: sorted destination `e` is destination `σ e`, sorted
    source `e` is source `σ e`. -/
theorem sorted_edges (x1 : IVec Cert.KernelIdeal.S2x1600000 32) :
    ∃ σ : Fin 1600000 → Fin 1600000, Function.Bijective σ
      ∧ (∀ e, dstK x1 (ix1 e) = dstRow x1 (ix1 (σ e))) ∧ (∀ e, srcK x1 (ix1 e) = srcRow x1 (ix1 (σ e))) := by
  obtain ⟨σ, hσ, hperm, -⟩ := argsort_perm Cert.KernelIdeal.comparator_i32_i32_d0 (dstRow x1)
  have hcol : ∀ e : Fin 1600000, col (wrapIdx (perm x1) 1600000#32) (ix2 e (0 : Fin 1)) = BitVec.ofNat 32 (σ e).val := by
    intro e
    rw [colK_apply]
    show Scalar.select (IntOp.cmpi .slt (perm x1 (ix1 e)) 0#32) (IntOp.addi (perm x1 (ix1 e)) 1600000#32) (perm x1 (ix1 e)) = _
    have hp : perm x1 (ix1 e) = BitVec.ofNat 32 (σ e).val := hperm e
    rw [hp]
    exact wrap_position _ (by have := (σ e).isLt; omega) _
  refine ⟨σ, hσ, fun e => ?_, fun e => ?_⟩
  · exact flat_gather_perm (by norm_num) Cert.KernelIdeal.Gen.gather_S1600000_S1600000x1_S1600000_n_0_n_n_0_1_1_wf (dstRow x1) _ σ hcol e
  · exact flat_gather_perm (by norm_num) Cert.KernelIdeal.Gen.gather_S1600000_S1600000x1_S1600000_n_0_n_n_0_1_1_wf (srcRow x1) _ σ hcol e

/-! ## Segment sums and degrees do not see the sorting -/

/-- The reference's spelling of a layer's neighbour sums, from the layer's input `X`. -/
abbrev refSeg {φ : FTy} (X : FVec Ideal Cert.ReferenceIdeal.S100000x128 φ) (x1 : IVec Cert.ReferenceIdeal.S2x1600000 32) : FVec Ideal Cert.ReferenceIdeal.S100000x128 .f32 :=
  Host.scatterAdd (F := Ideal) Cert.ReferenceIdeal.scatter_S100000x128_S1600000x1_S1600000x128_1_0_0_1
    (broadcastInDim Cert.ReferenceIdeal.S100000x128 ![] Cert.ReferenceIdeal.Gen.bcast_S_S100000x128 (constant (F := Ideal) Cert.ReferenceIdeal.S_ .f32 0x00000000#32))
    (broadcastInDim Cert.ReferenceIdeal.S1600000x1 ![0] Cert.ReferenceIdeal.Gen.bcast_S1600000_S1600000x1_0 (val_main_v3 (F := Ideal) x1))
    (Host.gather Cert.ReferenceIdeal.gather_S100000x128_S1600000x1_S1600000x128_1_0_n_n_0_1_1128 X
      (broadcastInDim Cert.ReferenceIdeal.S1600000x1 ![0] Cert.ReferenceIdeal.Gen.bcast_S1600000_S1600000x1_0
        (select (cmpi .slt (val_main_v1 (F := Ideal) x1) (broadcastInDim Cert.ReferenceIdeal.S1600000 ![] Cert.ReferenceIdeal.Gen.bcast_S_S1600000 (constantI Cert.ReferenceIdeal.S_ 32 0#32)))
          (addi (val_main_v1 (F := Ideal) x1) (broadcastInDim Cert.ReferenceIdeal.S1600000 ![] Cert.ReferenceIdeal.Gen.bcast_S_S1600000 (constantI Cert.ReferenceIdeal.S_ 32 100000#32)))
          (val_main_v1 (F := Ideal) x1))))

/-- Summing messages along the sorted edge list is summing them along the edge list. -/
theorem segsum_sorted {φ : FTy} (X : FVec Ideal Cert.KernelIdeal.S100000x128 φ) (x1 : IVec Cert.KernelIdeal.S2x1600000 32) :
    segsum X (srcK x1) (dstK x1) = refSeg X x1 := by
  obtain ⟨σ, hσ, hd, hs⟩ := sorted_edges x1
  refine rows_gather_scatterAdd_reindex Cert.KernelIdeal.Gen.gather_S100000x128_S1600000x1_S1600000x128_1_0_n_n_0_1_1128_wf
    Cert.KernelIdeal.Gen.scatter_S100000x128_S1600000x1_S1600000x128_1_0_0_1_wf σ hσ X _ _ _ _ _ (fun e => ?_) (fun e => ?_)
  · rw [colK_apply, colR_apply]
    show Scalar.select (IntOp.cmpi .slt (srcK x1 (ix1 e)) 0#32) (IntOp.addi (srcK x1 (ix1 e)) 100000#32) (srcK x1 (ix1 e))
      = Scalar.select (IntOp.cmpi .slt (val_main_v1 (F := Ideal) x1 (ix1 (σ e))) 0#32) (IntOp.addi (val_main_v1 (F := Ideal) x1 (ix1 (σ e))) 100000#32) (val_main_v1 (F := Ideal) x1 (ix1 (σ e)))
    rw [hs e, srcRow_eq]
  · rw [colK_apply, colR_apply, hd e, dstRow_eq]

/-- The in-degrees counted along the sorted destinations are the in-degrees. -/
theorem deg_sorted (x1 : IVec Cert.KernelIdeal.S2x1600000 32) : degK (dstK x1) = val_main_v7 (F := Ideal) x1 := by
  obtain ⟨σ, hσ, hd, -⟩ := sorted_edges x1
  refine flat_scatterAdd_reindex Cert.KernelIdeal.Gen.scatter_S100000_S1600000x1_S1600000_n_0_0_1_wf σ hσ _ _ _ _ _ (fun e => ?_) (fun e => rfl)
  rw [colK_apply]
  show _ = broadcastInDim Cert.ReferenceIdeal.S1600000x1 ![0] Cert.ReferenceIdeal.Gen.bcast_S1600000_S1600000x1_0 (val_main_v3 (F := Ideal) x1) (ix2 (σ e) (0 : Fin 1))
  rw [colR_apply, hd e, dstRow_eq]

/-- So the reciprocal degrees agree. -/
theorem inv_sorted (x1 : IVec Cert.KernelIdeal.S2x1600000 32) : invK (dstK x1) = val_main_v13 (F := Ideal) x1 := by
  unfold invK
  rw [deg_sorted]
  rfl

/-! ## Layer by layer -/

variable (x0 : FVec Ideal Cert.KernelIdeal.S100000x128 .f32) (x1 : IVec Cert.KernelIdeal.S2x1600000 32) (x2 : FVec Ideal Cert.KernelIdeal.S4x128x128 .f32)
  (x3 : FVec Ideal Cert.KernelIdeal.S4x128 .f32) (x4 : FVec Ideal Cert.KernelIdeal.S4x128x128 .f32) (x5 x6 : FVec Ideal Cert.KernelIdeal.S4x128 .f32)

theorem layer0_eq : kX1 x0 x1 x2 x3 x4 x5 x6 = val_main_v68 (F := Ideal) x0 x1 x2 x3 x4 x5 x6 := by
  rw [ref_layer0_eq]
  unfold kX1 kLayer
  rw [segsum_sorted, inv_sorted]
  rfl

theorem layer1_eq : kX2 x0 x1 x2 x3 x4 x5 x6 = val_main_v123 (F := Ideal) x0 x1 x2 x3 x4 x5 x6 := by
  rw [ref_layer1_eq]
  unfold kX2 kLayer
  rw [segsum_sorted, inv_sorted, layer0_eq]
  rfl

theorem layer2_eq : kX3 x0 x1 x2 x3 x4 x5 x6 = val_main_v178 (F := Ideal) x0 x1 x2 x3 x4 x5 x6 := by
  rw [ref_layer2_eq]
  unfold kX3 kLayer
  rw [segsum_sorted, inv_sorted, layer1_eq]
  rfl

/-- THE BRIDGE: the kernel program's result and the reference's are one function of the seven arguments. -/
theorem result_bridge : kX4 x0 x1 x2 x3 x4 x5 x6 = val_main_v233 (F := Ideal) x0 x1 x2 x3 x4 x5 x6 := by
  rw [ref_layer3_eq]
  unfold kX4 kLayer
  rw [segsum_sorted, inv_sorted, layer2_eq]
  rfl

end Cert.SageBridge

end
-- ==== Proof.lean ====
/-
  The five claims of this certificate, for a four-layer message-passing network on a graph of 100000 nodes and
  1600000 edges with 128 channels.

  Each layer replaces every node's feature row by
      relu (LayerNorm (mean-of-in-neighbours · Wlᵀ + bias + own row · Wrᵀ)),
  the mean taken as (sum over incoming edges) × (1 / in-degree), zero for a node with no incoming edge, and the
  normalisation over the 128 channels with variance offset ε.  The kernel program sorts the edge list by destination
  once, sums messages along the sorted list, and runs the rest of each layer as a tiled region over blocks of 4000
  nodes, storing the intermediate layers in a narrower float format; the reference does everything on whole arrays
  along the edge list as given.

  At the ideal instance floats are extended reals and a change of format is the identity, so the two differ only in
  (a) the order in which a node's incoming messages are summed — a permutation of the edges, under which a sum over
  the extended reals is invariant —, (b) the tiling, where every block of rows computes exactly the rows of the
  whole-array function, and (c) the order of the three summands of the pre-activation.  None of these needs the
  inputs to be finite: the precondition is not used for the value claim.

  The three frame claims: the two kernel programs' runs are the generated frame certificates; the reference's is its
  run with the result dropped.  No operation was rewritten when the kernel was idealized, so that claim is trivial.
-/
import proofs.«124728_j12704513261865_2_alg».proof.Defs
import proofs.«124728_j12704513261865_2_alg».proof.Proof.Gen.Kernel
import proofs.«124728_j12704513261865_2_alg».proof.Proof.Gen.Kernel.Skeleton
import proofs.«124728_j12704513261865_2_alg».proof.Proof.Gen.Kernel.Launch
import proofs.«124728_j12704513261865_2_alg».proof.Proof.Gen.Kernel.Points
import proofs.«124728_j12704513261865_2_alg».proof.Proof.Gen.Kernel.Frame
import proofs.«124728_j12704513261865_2_alg».proof.Proof.Gen.KernelIdeal
import proofs.«124728_j12704513261865_2_alg».proof.Proof.Gen.KernelIdeal.Skeleton
import proofs.«124728_j12704513261865_2_alg».proof.Proof.Gen.KernelIdeal.Launch
import proofs.«124728_j12704513261865_2_alg».proof.Proof.Gen.KernelIdeal.Points
import proofs.«124728_j12704513261865_2_alg».proof.Proof.Gen.KernelIdeal.Frame
import proofs.«124728_j12704513261865_2_alg».proof.Proof.Gen.ReferenceIdeal
import proofs.«124728_j12704513261865_2_alg».proof.Proof.Gen.Pre_finite_inputs
import proofs.«124728_j12704513261865_2_alg».proof.Proof.KernelRun
import proofs.«124728_j12704513261865_2_alg».proof.Proof.KernelValue
import proofs.«124728_j12704513261865_2_alg».proof.Proof.RefValue
import proofs.«124728_j12704513261865_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.SageRefRun.run_val m ρ)

/-- The idealization rewrote no operation. -/
theorem preserves : Cert.preserves_Kernel_KernelIdeal := trivial

/-- From memories that agree on the seven arguments both idealized programs end with the same result array: the
    kernel's run ends at four sorted-edge layers of its arguments, the reference's at its composed stage, and the two
    are one function (`Cert.SageBridge.result_bridge`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.SageValue.kX4 (Cert.KernelIdeal.SageValue.A0 m c) (Cert.KernelIdeal.SageValue.A1 m c)
    (Cert.KernelIdeal.SageValue.A2 m c) (Cert.KernelIdeal.SageValue.A3 m c) (Cert.KernelIdeal.SageValue.A4 m c)
    (Cert.KernelIdeal.SageValue.A5 m c) (Cert.KernelIdeal.SageValue.A6 m c), ?_, ?_⟩
  · exact (θ_run Cert.KernelIdeal.defs _ _).mono
      (fun r h c => ⟨(h c).1.trans (Cert.KernelIdeal.SageValue.result_eq m ρ c), (h c).2⟩)
      (Cert.KernelIdeal.SageRun.run_named m ρ)
  · refine (θ_run Cert.ReferenceIdeal.defs _ _).mono (fun _ h c => ⟨(h c).1.trans ?_, (h c).2⟩)
      (Cert.ReferenceIdeal.SageRefRun.run_val m' ρ')
    obtain ⟨e0, e1, e2, e3, e4, e5, e6⟩ := hagree c
    rw [e0, e1, e2, e3, e4, e5, e6]
    exact (Cert.SageBridge.result_bridge _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
